-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S600000x128 : Shape := ⟨2, ![600000, 128]⟩
abbrev S100000 : Shape := ⟨1, ![100000]⟩
abbrev S1 : Shape := ⟨1, ![1]⟩
abbrev S256x128 : Shape := ⟨2, ![256, 128]⟩
abbrev S256 : Shape := ⟨1, ![256]⟩
abbrev S128x256 : Shape := ⟨2, ![128, 256]⟩
abbrev S128 : Shape := ⟨1, ![128]⟩
abbrev S600000 : Shape := ⟨1, ![600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S600000x128 : S_.BroadcastsInDim S600000x128 (![] : Fin 0 → Fin S600000x128.rank)
  reducesTo_S600000x128_S_d0_1 : S600000x128.ReducesTo [0, 1] S_
  bcast_S_S100000 : S_.BroadcastsInDim S100000 (![] : Fin 0 → Fin S100000.rank)
  reducesTo_S100000_S_d0 : S100000.ReducesTo [0] S_
  bcast_S_S1 : S_.BroadcastsInDim S1 (![] : Fin 0 → Fin S1.rank)
  reducesTo_S1_S_d0 : S1.ReducesTo [0] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128x256 .f32) (main_arg8 : FVec F S128 .f32) (main_arg9 : FVec F S128 .f32) (main_v33 : IVec S_ 1) : IVec S_ 1 :=
  let main_v34 : FVec F S128x256 .f32 := Host.absf main_arg7
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg4 : FVec F S256x128 .f32) (main_arg5 : FVec F S256 .f32) (main_arg6 : FVec F S256 .f32) (main_arg7 : FVec F S128x256 .f32) (main_arg8 : FVec F S128 .f32) (main_arg9 : FVec F S128 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_v33

def fn {F : FTy → Type} [FloatOps F] (main_arg0 : FVec F S100000x128 .f32) (main_arg1 : FVec F S600000x128 .f32) (main_arg2 : FVec F S100000 .f32) (main_arg3 : FVec F S1 .f32) (main_arg4 : FVec F S256x128 .f32) (main_arg5 : FVec F S256 .f32) (main_arg6 : FVec F S256 .f32) (main_arg7 : FVec F S128x256 .f32) (main_arg8 : FVec F S128 .f32) (main_arg9 : FVec F S128 .f32) (main_arg10 : IVec S600000 32) (main_arg11 : IVec S600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S600000x128 .f32 := Host.absf main_arg1
  let main_cst_0 : FVec F S_ .f32 := constant S_ .f32 0x7F800000#32
  let main_v5 : FVec F S600000x128 .f32 := broadcastInDim S600000x128 ![] bcast_S_S600000x128 main_cst_0
  let main_v6 : IVec S600000x128 1 := cmpf .olt main_v4 main_v5
  let main_c_1 : IVec S_ 1 := constantI S_ 1 1#1
  let main_v7 : IVec S_ 1 := (fun x v => Host.reduce IntOp.andi x v reducesTo_S600000x128_S_d0_1 h_S_) main_v6 main_c_1
  let main_v8 : IVec S_ 1 := andi main_v3 main_v7
  let main_v9 : FVec F S100000 .f32 := Host.absf main_arg2
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg4 main_arg5 main_arg6 main_arg7 main_arg8 main_arg9 main_v13 main_v16
-- ==== Kernel.lean ====
abbrev S100000x128 : Shape := ⟨2, ![100000, 128]⟩
abbrev S600000x128 : Shape := ⟨2, ![600000, 128]⟩
abbrev S100000 : Shape := ⟨1, ![100000]⟩
abbrev S1 : Shape := ⟨1, ![1]⟩
abbrev S256x128 : Shape := ⟨2, ![256, 128]⟩
abbrev S256 : Shape := ⟨1, ![256]⟩
abbrev S128x256 : Shape := ⟨2, ![128, 256]⟩
abbrev S128 : Shape := ⟨1, ![128]⟩
abbrev S600000 : Shape := ⟨1, ![600000]⟩
abbrev S_ : Shape := ⟨0, ![]⟩
abbrev S600000x1 : Shape := ⟨2, ![600000, 1]⟩
abbrev S100000x1 : Shape := ⟨2, ![100000, 1]⟩
abbrev S1x256 : Shape := ⟨2, ![1, 256]⟩
abbrev S1x128 : Shape := ⟨2, ![1, 128]⟩
abbrev S100000x256 : Shape := ⟨2, ![100000, 256]⟩
abbrev S2x1x256 : Shape := ⟨3, ![2, 1, 256]⟩
abbrev S5000x128 : Shape := ⟨2, ![5000, 128]⟩
abbrev S5000x1 : Shape := ⟨2, ![5000, 1]⟩
abbrev S5000x256 : Shape := ⟨2, ![5000, 256]⟩
abbrev S1x1x256 : Shape := ⟨3, ![1, 1, 256]⟩
abbrev S2x1x128 : Shape := ⟨3, ![2, 1, 128]⟩
abbrev S1x1x128 : Shape := ⟨3, ![1, 1, 128]⟩

abbrev nBuf : Space → Nat
  | .hbm => 90
  | .vmem => 34
  | .smem => 0
  | _ => 0

abbrev bufTy : (tb : Table) → Fin (tcTables nBuf tb) → BufTy
  | .hbm, ⟨0, _⟩ => ⟨S100000x128, .f32⟩
  | .hbm, ⟨1, _⟩ => ⟨S600000x128, .f32⟩
  | .hbm, ⟨2, _⟩ => ⟨S100000, .f32⟩
  | .hbm, ⟨3, _⟩ => ⟨S1, .f32⟩
  | .hbm, ⟨4, _⟩ => ⟨S256x128, .f32⟩
  | .hbm, ⟨5, _⟩ => ⟨S256, .f32⟩
  | .hbm, ⟨6, _⟩ => ⟨S256, .f32⟩
  | .hbm, ⟨7, _⟩ => ⟨S128x256, .f32⟩
  | .hbm, ⟨8, _⟩ => ⟨S128, .f32⟩
  | .hbm, ⟨9, _⟩ => ⟨S128, .f32⟩
  | .hbm, ⟨10, _⟩ => ⟨S600000, .i32⟩
  | .hbm, ⟨11, _⟩ => ⟨S600000, .i32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S_, .i32⟩
  | .hbm, ⟨22, _⟩ => ⟨S600000, .i32⟩
  | .hbm, ⟨23, _⟩ => ⟨S600000, .i1⟩
  | .hbm, ⟨24, _⟩ => ⟨S_, .i32⟩
  | .hbm, ⟨25, _⟩ => ⟨S600000, .i32⟩
  | .hbm, ⟨26, _⟩ => ⟨S600000, .i32⟩
  | .hbm, ⟨27, _⟩ => ⟨S600000, .i32⟩
  | .hbm, ⟨28, _⟩ => ⟨S600000x1, .i32⟩
  | .hbm, ⟨29, _⟩ => ⟨S600000x128, .f32⟩
  | .hbm, ⟨30, _⟩ => ⟨S600000x128, .f32⟩
  | .hbm, ⟨31, _⟩ => ⟨S600000x128, .f32⟩
  | .hbm, ⟨32, _⟩ => ⟨S_, .f32⟩
  | .hbm, ⟨33, _⟩ => ⟨S100000x128, .f32⟩
  | .hbm, ⟨34, _⟩ => ⟨S600000x1, .i32⟩
  | .hbm, ⟨35, _⟩ => ⟨S100000x128, .f32⟩
  | .hbm, ⟨36, _⟩ => ⟨S_, .f32⟩
  | .hbm, ⟨37, _⟩ => ⟨S100000x128, .f32⟩
  | .hbm, ⟨38, _⟩ => ⟨S600000x1, .i32⟩
  | .hbm, ⟨39, _⟩ => ⟨S100000x128, .f32⟩
  | .hbm, ⟨40, _⟩ => ⟨S100000x128, .f32⟩
  | .hbm, ⟨41, _⟩ => ⟨S_, .f32⟩
  | .hbm, ⟨42, _⟩ => ⟨S1, .f32⟩
  | .hbm, ⟨43, _⟩ => ⟨S1, .f32⟩
  | .hbm, ⟨44, _⟩ => ⟨S100000, .f32⟩
  | .hbm, ⟨45, _⟩ => ⟨S100000, .f32⟩
  | .hbm, ⟨46, _⟩ => ⟨S100000x1, .f32⟩
  | .hbm, ⟨47, _⟩ => ⟨S128x256, .f32⟩
  | .hbm, ⟨48, _⟩ => ⟨S256x128, .f32⟩
  | .hbm, ⟨49, _⟩ => ⟨S1x256, .f32⟩
  | .hbm, ⟨50, _⟩ => ⟨S1x256, .f32⟩
  | .hbm, ⟨51, _⟩ => ⟨S1x128, .f32⟩
  | .hbm, ⟨52, _⟩ => ⟨S1x128, .f32⟩
  | .hbm, ⟨53, _⟩ => ⟨S100000x256, .f32⟩
  | .hbm, ⟨54, _⟩ => ⟨S2x1x256, .f32⟩
  | .hbm, ⟨55, _⟩ => ⟨S2x1x256, .f32⟩
  | .hbm, ⟨56, _⟩ => ⟨S_, .f32⟩
  | .hbm, ⟨57, _⟩ => ⟨S1x256, .f32⟩
  | .hbm, ⟨58, _⟩ => ⟨S_, .f32⟩
  | .hbm, ⟨59, _⟩ => ⟨S1x256, .f32⟩
  | .hbm, ⟨60, _⟩ => ⟨S_, .f32⟩
  | .hbm, ⟨61, _⟩ => ⟨S1x256, .f32⟩
  | .hbm, ⟨62, _⟩ => ⟨S1x256, .f32⟩
  | .hbm, ⟨63, _⟩ => ⟨S_, .f32⟩
  | .hbm, ⟨64, _⟩ => ⟨S1x256, .f32⟩
  | .hbm, ⟨65, _⟩ => ⟨S1x256, .f32⟩
  | .hbm, ⟨66, _⟩ => ⟨S1x256, .f32⟩
  | .hbm, ⟨67, _⟩ => ⟨S1x256, .f32⟩
  | .hbm, ⟨68, _⟩ => ⟨S_, .f32⟩
  | .hbm, ⟨69, _⟩ => ⟨S1x256, .f32⟩
  | .hbm, ⟨70, _⟩ => ⟨S1x256, .f32⟩
  | .hbm, ⟨71, _⟩ => ⟨S100000x128, .f32⟩
  | .hbm, ⟨72, _⟩ => ⟨S2x1x128, .f32⟩
  | .hbm, ⟨73, _⟩ => ⟨S2x1x128, .f32⟩
  | .hbm, ⟨74, _⟩ => ⟨S_, .f32⟩
  | .hbm, ⟨75, _⟩ => ⟨S1x128, .f32⟩
  | .hbm, ⟨76, _⟩ => ⟨S_, .f32⟩
  | .hbm, ⟨77, _⟩ => ⟨S1x128, .f32⟩
  | .hbm, ⟨78, _⟩ => ⟨S_, .f32⟩
  | .hbm, ⟨79, _⟩ => ⟨S1x128, .f32⟩
  | .hbm, ⟨80, _⟩ => ⟨S1x128, .f32⟩
  | .hbm, ⟨81, _⟩ => ⟨S_, .f32⟩
  | .hbm, ⟨82, _⟩ => ⟨S1x128, .f32⟩
  | .hbm, ⟨83, _⟩ => ⟨S1x128, .f32⟩
  | .hbm, ⟨84, _⟩ => ⟨S1x128, .f32⟩
  | .hbm, ⟨85, _⟩ => ⟨S1x128, .f32⟩
  | .hbm, ⟨86, _⟩ => ⟨S_, .f32⟩
  | .hbm, ⟨87, _⟩ => ⟨S1x128, .f32⟩
  | .hbm, ⟨88, _⟩ => ⟨S1x128, .f32⟩
  | .hbm, ⟨89, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x256, .f32⟩
  | .local _ .vmem, ⟨7, _⟩ => ⟨S5000x256, .f32⟩
  | .local _ .vmem, ⟨8, _⟩ => ⟨S5000x256, .f32⟩
  | .local _ .vmem, ⟨9, _⟩ => ⟨S1x1x256, .f32⟩
  | .local _ .vmem, ⟨10, _⟩ => ⟨S1x1x256, .f32⟩
  | .local _ .vmem, ⟨11, _⟩ => ⟨S1x1x256, .f32⟩
  | .local _ .vmem, ⟨12, _⟩ => ⟨S1x1x256, .f32⟩
  | .local _ .vmem, ⟨13, _⟩ => ⟨S5000x256, .f32⟩
  | .local _ .vmem, ⟨14, _⟩ => ⟨S5000x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S256x128, .f32⟩
  | .local _ .vmem, ⟨20, _⟩ => ⟨S5000x128, .f32⟩
  | .local _ .vmem, ⟨21, _⟩ => ⟨S5000x128, .f32⟩
  | .local _ .vmem, ⟨22, _⟩ => ⟨S1x1x128, .f32⟩
  | .local _ .vmem, ⟨23, _⟩ => ⟨S1x1x128, .f32⟩
  | .local _ .vmem, ⟨24, _⟩ => ⟨S1x1x128, .f32⟩
  | .local _ .vmem, ⟨25, _⟩ => ⟨S1x1x128, .f32⟩
  | .local _ .vmem, ⟨26, _⟩ => ⟨S5000x128, .f32⟩
  | .local _ .vmem, ⟨27, _⟩ => ⟨S5000x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34_0 : Ref sig .tc := ⟨.hbm, 53, rfl⟩
abbrev main_v34_1 : Ref sig .tc := ⟨.hbm, 54, rfl⟩
abbrev main_v34_2 : Ref sig .tc := ⟨.hbm, 55, rfl⟩
abbrev main_cst_5 : Ref sig .tc := ⟨.hbm, 56, rfl⟩
abbrev main_v35 : Ref sig .tc := ⟨.hbm, 57, rfl⟩
abbrev main_cst_6 : Ref sig .tc := ⟨.hbm, 58, rfl⟩
abbrev main_v36 : Ref sig .tc := ⟨.hbm, 59, rfl⟩
abbrev main_cst_7 : Ref sig .tc := ⟨.hbm, 60, rfl⟩
abbrev main_v37 : Ref sig .tc := ⟨.hbm, 61, rfl⟩
abbrev main_v38 : Ref sig .tc := ⟨.hbm, 62, rfl⟩
abbrev main_cst_8 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_9 : Ref sig .tc := ⟨.hbm, 68, rfl⟩
abbrev main_v43 : Ref sig .tc := ⟨.hbm, 69, rfl⟩
abbrev main_v44 : Ref sig .tc := ⟨.hbm, 70, rfl⟩
abbrev main_v45_0 : Ref sig .tc := ⟨.hbm, 71, rfl⟩
abbrev main_v45_1 : Ref sig .tc := ⟨.hbm, 72, rfl⟩
abbrev main_v45_2 : Ref sig .tc := ⟨.hbm, 73, rfl⟩
abbrev main_cst_10 : Ref sig .tc := ⟨.hbm, 74, rfl⟩
abbrev main_v46 : Ref sig .tc := ⟨.hbm, 75, rfl⟩
abbrev main_cst_11 : Ref sig .tc := ⟨.hbm, 76, rfl⟩
abbrev main_v47 : Ref sig .tc := ⟨.hbm, 77, rfl⟩
abbrev main_cst_12 : Ref sig .tc := ⟨.hbm, 78, rfl⟩
abbrev main_v48 : Ref sig .tc := ⟨.hbm, 79, rfl⟩
abbrev main_v49 : Ref sig .tc := ⟨.hbm, 80, rfl⟩
abbrev main_cst_13 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_14 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc1_stg8_0 : Ref sig .tc := ⟨.vmem, 24, rfl⟩
abbrev cc1_stg8_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg2_0 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg5_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc1_sem7_0 : DmaSem sig := 22
abbrev cc1_sem7_1 : DmaSem sig := 23
abbrev cc1_sem8_0 : DmaSem sig := 24
abbrev cc1_sem8_1 : DmaSem sig := 25
abbrev cc2_sem0_0 : DmaSem sig := 26
abbrev cc2_sem0_1 : DmaSem sig := 27
abbrev cc2_sem1_0 : DmaSem sig := 28
abbrev cc2_sem2_0 : DmaSem sig := 29
abbrev cc2_sem3_0 : DmaSem sig := 30
abbrev cc2_sem4_0 : DmaSem sig := 31
abbrev cc2_sem5_0 : DmaSem sig := 32
abbrev cc2_sem5_1 : DmaSem sig := 33

abbrev nD : Nat := 1
abbrev τ : Topo := Topo.v7x

variable {F : FTy → Type} [FloatOps F]

abbrev grid0 : Pipeline.Grid := ⟨2, ![2, 10], ![false, false]⟩

def cc0_transform_0 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S5000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨2, ![2, 10], ![false, false]⟩

def cc1_transform_0 (i : grid1.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S256x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x1x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S1x1x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S1 : S_.BroadcastsInDim S1 (![] : Fin 0 → Fin S1.rank)
  bcast_S1_S100000_0 : S1.BroadcastsInDim S100000 (![0] : Fin 1 → Fin S100000.rank)
  shapeCasts_S100000_S100000x1 : S100000.ShapeCasts S100000x1
  transposes_S256x128_S128x256_1_0 : S256x128.Transposes [1, 0] S128x256
  transposes_S128x256_S256x128_1_0 : S128x256.Transposes [1, 0] S256x128
  shapeCasts_S256_S1x256 : S256.ShapeCasts S1x256
  shapeCasts_S128_S1x128 : S128.ShapeCasts S1x128
  inb_S1x1x256_S1x1x256_0_0_0 : ∀ a, (![0, 0, 0] : Fin 3 → Nat) a + S1x1x256.size a ≤ S1x1x256.size a
  h_S1x1x256 : 0 < S1x1x256.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S5000x256_S5000x256_0_0 : ∀ a, (![0, 0] : Fin 2 → Nat) a + S5000x256.size a ≤ S5000x256.size a
  h_S5000x256 : 0 < S5000x256.numel
  reduces_S5000x256_S256 : S5000x256.Reduces [0] S256
  shapeCasts_S1x1x256_S1x1x256 : S1x1x256.ShapeCasts S1x1x256
  shapeCasts_S1x256_S1x1x256 : S1x256.ShapeCasts S1x1x256
  reducesTo_S2x1x256_S1x256_d0 : S2x1x256.ReducesTo [0] S1x256
  h_S_ : 0 < S_.numel
  bcast_S_S1x256 : S_.BroadcastsInDim S1x256 (![] : Fin 0 → Fin S1x256.rank)
  inb_S1x1x128_S1x1x128_0_0_0 : ∀ a, (![0, 0, 0] : Fin 3 → Nat) a + S1x1x128.size a ≤ S1x1x128.size a
  h_S1x1x128 : 0 < S1x1x128.numel
  shapeCasts_S5000x256_S5000x256 : S5000x256.ShapeCasts S5000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  reduces_S5000x128_S128 : S5000x128.Reduces [0] S128
  shapeCasts_S1x1x128_S1x1x128 : S1x1x128.ShapeCasts S1x1x128
  shapeCasts_S1x128_S1x1x128 : S1x128.ShapeCasts S1x1x128
  reducesTo_S2x1x128_S1x128_d0 : S2x1x128.ReducesTo [0] S1x128
  bcast_S_S1x128 : S_.BroadcastsInDim S1x128 (![] : Fin 0 → Fin S1x128.rank)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S5000x128_S128x256_S5000x256_1_0_0_1_n_n_wf : DotDims.WF S5000x128 S128x256 S5000x256 [1] [0] [0] [1] [] []
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x256.size a ≤ S100000x256.size a
  hwx0_4 : ∀ i : grid0.Coords, EltTy.bits .f32 = 32 ∨ (Rect.block (s := S100000x256) S5000x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x256.size a ≤ S2x1x256.size a
  hwx0_5 : ∀ i : grid0.Coords, EltTy.bits .f32 = 32 ∨ (Rect.block (s := S2x1x256) S1x1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x256.size a ≤ S2x1x256.size a
  hwx0_6 : ∀ i : grid0.Coords, EltTy.bits .f32 = 32 ∨ (Rect.block (s := S2x1x256) S1x1x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S100000x256.size a
  hwx1_0 : ∀ i : grid1.Coords, EltTy.bits .f32 = 32 ∨ (Rect.block (s := S100000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x128.size a ≤ S256x128.size a
  hwx1_5 : ∀ i : grid1.Coords, EltTy.bits .f32 = 32 ∨ (Rect.block (s := S256x128) S256x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x1x128.size a ≤ S2x1x128.size a
  hwx1_7 : ∀ i : grid1.Coords, EltTy.bits .f32 = 32 ∨ (Rect.block (s := S2x1x128) S1x1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x1x128.size a ≤ S2x1x128.size a
  hwx1_8 : ∀ i : grid1.Coords, EltTy.bits .f32 = 32 ∨ (Rect.block (s := S2x1x128) S1x1x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v28) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v34_0) S5000x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v34_1) S1x1x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v34_2) S1x1x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v34_0) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S256x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v45_0) S5000x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v45_1) S1x1x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v45_2) S1x1x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v45_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v55) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v32) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v33) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v56) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S600000x128 : Shape := ⟨2, ![600000, 128]⟩
abbrev S100000 : Shape := ⟨1, ![100000]⟩
abbrev S1 : Shape := ⟨1, ![1]⟩
abbrev S256x128 : Shape := ⟨2, ![256, 128]⟩
abbrev S256 : Shape := ⟨1, ![256]⟩
abbrev S128x256 : Shape := ⟨2, ![128, 256]⟩
abbrev S128 : Shape := ⟨1, ![128]⟩
abbrev S600000 : Shape := ⟨1, ![600000]⟩
abbrev S_ : Shape := ⟨0, ![]⟩
abbrev S600000x1 : Shape := ⟨2, ![600000, 1]⟩
abbrev S100000x1 : Shape := ⟨2, ![100000, 1]⟩
abbrev S1x1 : Shape := ⟨2, ![1, 1]⟩
abbrev S100000x256 : Shape := ⟨2, ![100000, 256]⟩
abbrev S1x256 : Shape := ⟨2, ![1, 256]⟩
abbrev S1x128 : Shape := ⟨2, ![1, 128]⟩

abbrev nBuf : Space → Nat
  | .hbm => 119
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S600000x128, .f32⟩
  | .hbm, ⟨2, _⟩ => ⟨S100000, .f32⟩
  | .hbm, ⟨3, _⟩ => ⟨S1, .f32⟩
  | .hbm, ⟨4, _⟩ => ⟨S256x128, .f32⟩
  | .hbm, ⟨5, _⟩ => ⟨S256, .f32⟩
  | .hbm, ⟨6, _⟩ => ⟨S256, .f32⟩
  | .hbm, ⟨7, _⟩ => ⟨S128x256, .f32⟩
  | .hbm, ⟨8, _⟩ => ⟨S128, .f32⟩
  | .hbm, ⟨9, _⟩ => ⟨S128, .f32⟩
  | .hbm, ⟨10, _⟩ => ⟨S600000, .i32⟩
  | .hbm, ⟨11, _⟩ => ⟨S600000, .i32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S_, .i32⟩
  | .hbm, ⟨22, _⟩ => ⟨S600000, .i32⟩
  | .hbm, ⟨23, _⟩ => ⟨S600000, .i1⟩
  | .hbm, ⟨24, _⟩ => ⟨S_, .i32⟩
  | .hbm, ⟨25, _⟩ => ⟨S600000, .i32⟩
  | .hbm, ⟨26, _⟩ => ⟨S600000, .i32⟩
  | .hbm, ⟨27, _⟩ => ⟨S600000, .i32⟩
  | .hbm, ⟨28, _⟩ => ⟨S600000x1, .i32⟩
  | .hbm, ⟨29, _⟩ => ⟨S600000x128, .f32⟩
  | .hbm, ⟨30, _⟩ => ⟨S600000x128, .f32⟩
  | .hbm, ⟨31, _⟩ => ⟨S600000x128, .f32⟩
  | .hbm, ⟨32, _⟩ => ⟨S_, .f32⟩
  | .hbm, ⟨33, _⟩ => ⟨S100000x128, .f32⟩
  | .hbm, ⟨34, _⟩ => ⟨S600000x1, .i32⟩
  | .hbm, ⟨35, _⟩ => ⟨S100000x128, .f32⟩
  | .hbm, ⟨36, _⟩ => ⟨S_, .f32⟩
  | .hbm, ⟨37, _⟩ => ⟨S100000x128, .f32⟩
  | .hbm, ⟨38, _⟩ => ⟨S600000x1, .i32⟩
  | .hbm, ⟨39, _⟩ => ⟨S100000x128, .f32⟩
  | .hbm, ⟨40, _⟩ => ⟨S100000x128, .f32⟩
  | .hbm, ⟨41, _⟩ => ⟨S_, .f32⟩
  | .hbm, ⟨42, _⟩ => ⟨S1, .f32⟩
  | .hbm, ⟨43, _⟩ => ⟨S1, .f32⟩
  | .hbm, ⟨44, _⟩ => ⟨S100000x1, .f32⟩
  | .hbm, ⟨45, _⟩ => ⟨S1x1, .f32⟩
  | .hbm, ⟨46, _⟩ => ⟨S100000x1, .f32⟩
  | .hbm, ⟨47, _⟩ => ⟨S100000x1, .f32⟩
  | .hbm, ⟨48, _⟩ => ⟨S100000x128, .f32⟩
  | .hbm, ⟨49, _⟩ => ⟨S100000x128, .f32⟩
  | .hbm, ⟨50, _⟩ => ⟨S100000x128, .f32⟩
  | .hbm, ⟨51, _⟩ => ⟨S100000x256, .f32⟩
  | .hbm, ⟨52, _⟩ => ⟨S_, .f32⟩
  | .hbm, ⟨53, _⟩ => ⟨S256, .f32⟩
  | .hbm, ⟨54, _⟩ => ⟨S_, .f32⟩
  | .hbm, ⟨55, _⟩ => ⟨S256, .f32⟩
  | .hbm, ⟨56, _⟩ => ⟨S256, .f32⟩
  | .hbm, ⟨57, _⟩ => ⟨S1x256, .f32⟩
  | .hbm, ⟨58, _⟩ => ⟨S100000x256, .f32⟩
  | .hbm, ⟨59, _⟩ => ⟨S100000x256, .f32⟩
  | .hbm, ⟨60, _⟩ => ⟨S100000x256, .f32⟩
  | .hbm, ⟨61, _⟩ => ⟨S_, .f32⟩
  | .hbm, ⟨62, _⟩ => ⟨S256, .f32⟩
  | .hbm, ⟨63, _⟩ => ⟨S_, .f32⟩
  | .hbm, ⟨64, _⟩ => ⟨S256, .f32⟩
  | .hbm, ⟨65, _⟩ => ⟨S256, .f32⟩
  | .hbm, ⟨66, _⟩ => ⟨S1x256, .f32⟩
  | .hbm, ⟨67, _⟩ => ⟨S100000x256, .f32⟩
  | .hbm, ⟨68, _⟩ => ⟨S100000x256, .f32⟩
  | .hbm, ⟨69, _⟩ => ⟨S_, .f32⟩
  | .hbm, ⟨70, _⟩ => ⟨S256, .f32⟩
  | .hbm, ⟨71, _⟩ => ⟨S256, .f32⟩
  | .hbm, ⟨72, _⟩ => ⟨S256, .f32⟩
  | .hbm, ⟨73, _⟩ => ⟨S1x256, .f32⟩
  | .hbm, ⟨74, _⟩ => ⟨S100000x256, .f32⟩
  | .hbm, ⟨75, _⟩ => ⟨S100000x256, .f32⟩
  | .hbm, ⟨76, _⟩ => ⟨S1x256, .f32⟩
  | .hbm, ⟨77, _⟩ => ⟨S100000x256, .f32⟩
  | .hbm, ⟨78, _⟩ => ⟨S100000x256, .f32⟩
  | .hbm, ⟨79, _⟩ => ⟨S1x256, .f32⟩
  | .hbm, ⟨80, _⟩ => ⟨S100000x256, .f32⟩
  | .hbm, ⟨81, _⟩ => ⟨S100000x256, .f32⟩
  | .hbm, ⟨82, _⟩ => ⟨S_, .f32⟩
  | .hbm, ⟨83, _⟩ => ⟨S100000x256, .f32⟩
  | .hbm, ⟨84, _⟩ => ⟨S100000x256, .f32⟩
  | .hbm, ⟨85, _⟩ => ⟨S100000x128, .f32⟩
  | .hbm, ⟨86, _⟩ => ⟨S_, .f32⟩
  | .hbm, ⟨87, _⟩ => ⟨S128, .f32⟩
  | .hbm, ⟨88, _⟩ => ⟨S_, .f32⟩
  | .hbm, ⟨89, _⟩ => ⟨S128, .f32⟩
  | .hbm, ⟨90, _⟩ => ⟨S128, .f32⟩
  | .hbm, ⟨91, _⟩ => ⟨S1x128, .f32⟩
  | .hbm, ⟨92, _⟩ => ⟨S100000x128, .f32⟩
  | .hbm, ⟨93, _⟩ => ⟨S100000x128, .f32⟩
  | .hbm, ⟨94, _⟩ => ⟨S100000x128, .f32⟩
  | .hbm, ⟨95, _⟩ => ⟨S_, .f32⟩
  | .hbm, ⟨96, _⟩ => ⟨S128, .f32⟩
  | .hbm, ⟨97, _⟩ => ⟨S_, .f32⟩
  | .hbm, ⟨98, _⟩ => ⟨S128, .f32⟩
  | .hbm, ⟨99, _⟩ => ⟨S128, .f32⟩
  | .hbm, ⟨100, _⟩ => ⟨S1x128, .f32⟩
  | .hbm, ⟨101, _⟩ => ⟨S100000x128, .f32⟩
  | .hbm, ⟨102, _⟩ => ⟨S100000x128, .f32⟩
  | .hbm, ⟨103, _⟩ => ⟨S_, .f32⟩
  | .hbm, ⟨104, _⟩ => ⟨S128, .f32⟩
  | .hbm, ⟨105, _⟩ => ⟨S128, .f32⟩
  | .hbm, ⟨106, _⟩ => ⟨S128, .f32⟩
  | .hbm, ⟨107, _⟩ => ⟨S1x128, .f32⟩
  | .hbm, ⟨108, _⟩ => ⟨S100000x128, .f32⟩
  | .hbm, ⟨109, _⟩ => ⟨S100000x128, .f32⟩
  | .hbm, ⟨110, _⟩ => ⟨S1x128, .f32⟩
  | .hbm, ⟨111, _⟩ => ⟨S100000x128, .f32⟩
  | .hbm, ⟨112, _⟩ => ⟨S100000x128, .f32⟩
  | .hbm, ⟨113, _⟩ => ⟨S1x128, .f32⟩
  | .hbm, ⟨114, _⟩ => ⟨S100000x128, .f32⟩
  | .hbm, ⟨115, _⟩ => ⟨S100000x128, .f32⟩
  | .hbm, ⟨116, _⟩ => ⟨S_, .f32⟩
  | .hbm, ⟨117, _⟩ => ⟨S100000x128, .f32⟩
  | .hbm, ⟨118, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_5 : Ref sig .tc := ⟨.hbm, 52, rfl⟩
abbrev main_v33 : Ref sig .tc := ⟨.hbm, 53, rfl⟩
abbrev main_cst_6 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_9 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_call0_cst : Ref sig .tc := ⟨.hbm, 82, rfl⟩
abbrev main_call0_v0 : Ref sig .tc := ⟨.hbm, 83, rfl⟩
abbrev main_v58 : Ref sig .tc := ⟨.hbm, 84, rfl⟩
abbrev main_v59 : Ref sig .tc := ⟨.hbm, 85, rfl⟩
abbrev main_cst_10 : Ref sig .tc := ⟨.hbm, 86, rfl⟩
abbrev main_v60 : Ref sig .tc := ⟨.hbm, 87, rfl⟩
abbrev main_cst_11 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_12 : Ref sig .tc := ⟨.hbm, 95, rfl⟩
abbrev main_v67 : Ref sig .tc := ⟨.hbm, 96, rfl⟩
abbrev main_cst_13 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_14 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_call1_cst : Ref sig .tc := ⟨.hbm, 116, rfl⟩
abbrev main_call1_v0 : Ref sig .tc := ⟨.hbm, 117, rfl⟩
abbrev main_v85 : Ref sig .tc := ⟨.hbm, 118, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S1 : S_.BroadcastsInDim S1 (![] : Fin 0 → Fin S1.rank)
  bcast_S100000_S100000x1_0 : S100000.BroadcastsInDim S100000x1 (![0] : Fin 1 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S100000x1_S100000x128_0_1 : S100000x1.BroadcastsInDim S100000x128 (![0, 1] : Fin 2 → Fin S100000x128.rank)
  reducesTo_S100000x256_S256_d0 : S100000x256.ReducesTo [0] S256
  h_S_ : 0 < S_.numel
  bcast_S_S256 : S_.BroadcastsInDim S256 (![] : Fin 0 → Fin S256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  reducesTo_S100000x128_S128_d0 : S100000x128.ReducesTo [0] S128
  bcast_S_S128 : S_.BroadcastsInDim S128 (![] : Fin 0 → Fin S128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S256x128_S100000x256_1_1_0_0_n_n_wf : DotDims.WF S100000x128 S256x128 S100000x256 [1] [1] [0] [0] [] []
  dot_S100000x256_S128x256_S100000x128_1_1_0_0_n_n_wf : DotDims.WF S100000x256 S128x256 S100000x128 [1] [1] [0] [0] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S256x128_S100000x256_1_1_0_0_n_n : DotDims S100000x128 S256x128 S100000x256 where
  lhsContracting := [1]
  rhsContracting := [1]
  lhsNonContracting := [0]
  rhsNonContracting := [0]
  lhsBatch := []
  rhsBatch := []
  wf := dot_S100000x128_S256x128_S100000x256_1_1_0_0_n_n_wf
def dot_S100000x256_S128x256_S100000x128_1_1_0_0_n_n : DotDims S100000x256 S128x256 S100000x128 where
  lhsContracting := [1]
  rhsContracting := [1]
  lhsNonContracting := [0]
  rhsNonContracting := [0]
  lhsBatch := []
  rhsBatch := []
  wf := dot_S100000x256_S128x256_S100000x128_1_1_0_0_n_n_wf

class Facts : Prop extends Facts₀ where

variable [Facts]
-- ==== Proof.LibPlainDot.lean ====
/-
  A plain two-dimensional matrix product — `M × K` by `K × N`, contracting the left operand's columns with the right operand's
  rows, no batch axis (`DotDims.plain M K N`, the dimension numbers `<[1], [0], [0], [1]>`) — read at an output index over the
  extended reals: both a kernel's `tpu.matmul` into a zero accumulator and the host's `dot_general` are the finite sum
  `Σ_{k < K} lhs (r, k) · rhs (k, j)`, with the contraction index a plain `Fin K` and the operand indices built from coordinates.
  A printed record `dot_S…_1_0_0_1_n_n` of these dimension numbers IS `DotDims.plain M K N` (`rfl`: the lists coincide and the
  well-formedness field is a proposition), so one `rw` with that equation brings a printed product under these lemmas.
-/
import Idealize.ShloMosaic.PureOps.Ideal.Laws
import Idealize.ShloMosaic.Lib.ValueIdx

namespace Idealize.ShloMosaic.PlainDot

open Idealize.ShloMosaic.ValueIdx

variable {M K N : Nat}

theorem contr_rank : (DotDims.plain M K N).contr.rank = 1 := rfl
theorem contr_size : (DotDims.plain M K N).contr.size ⟨0, by rw [contr_rank]; exact Nat.one_pos⟩ = K := rfl

/-- The left operand's row coordinate is the output's. -/
theorem lhsIdx_val0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction position. -/
theorem lhsIdx_val1 (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single (cl := (1 : Fin 2)) rfl j q

/-- The right operand's row coordinate is the contraction position. -/
theorem rhsIdx_val0 (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single (cr := (0 : Fin 2)) rfl j q

/-- The right operand's column coordinate is the output's. -/
theorem rhsIdx_val1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at output index `j` and contraction position `k` is `(j₀, k)`. -/
theorem lhsIdx_eq (j : (⟨2, ![M, N]⟩ : Shape).Idx) (k : Fin K) :
    (DotDims.plain M K N).lhsIdx j ((contrEquiv1 (DotDims.plain M K N) K contr_rank contr_size).symm k)
      = ix2 ⟨(j 0).val, idx2_lt0 j⟩ k := by
  have hk := contrEquiv1_symm_val (DotDims.plain M K N) K contr_rank contr_size k
  funext a
  apply Fin.ext
  match a with
  | ⟨0, _⟩ => exact lhsIdx_val0 j _
  | ⟨1, _⟩ => exact (lhsIdx_val1 j _).trans hk

/-- The right operand's index there is `(k, j₁)`. -/
theorem rhsIdx_eq (j : (⟨2, ![M, N]⟩ : Shape).Idx) (k : Fin K) :
    (DotDims.plain M K N).rhsIdx j ((contrEquiv1 (DotDims.plain M K N) K contr_rank contr_size).symm k)
      = ix2 k ⟨(j 1).val, idx2_lt1 j⟩ := by
  have hk := contrEquiv1_symm_val (DotDims.plain M K N) K contr_rank contr_size k
  funext a
  apply Fin.ext
  match a with
  | ⟨0, _⟩ => exact (rhsIdx_val0 j _).trans hk
  | ⟨1, _⟩ => exact rhsIdx_val1 j _

/-- A kernel's plain matrix product into the zero accumulator, at an output index: the sum over the contracted coordinate. -/
theorem matmul_apply {φ₁ φ₂ : FTy} (prec : Option ContractPrecision) (lhs : FVec Ideal ⟨2, ![M, K]⟩ φ₁)
    (rhs : FVec Ideal ⟨2, ![K, N]⟩ φ₂) (j : (⟨2, ![M, N]⟩ : Shape).Idx) :
    FloatOps.matmul (DotDims.plain M K N) prec lhs rhs (constant ⟨2, ![M, N]⟩ .f32 0x00000000#32) j
      = ∑ k : Fin K, lhs (ix2 ⟨(j 0).val, idx2_lt0 j⟩ k) * rhs (ix2 k ⟨(j 1).val, idx2_lt1 j⟩) := by
  rw [Ideal.matmul_constant_zero_apply,
    ← Equiv.sum_comp (contrEquiv1 (DotDims.plain M K N) K contr_rank contr_size).symm]
  refine Finset.sum_congr rfl fun k _ => ?_
  rw [lhsIdx_eq, rhsIdx_eq]

/-- The host's plain `dot_general` at an output index: the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (j : (⟨2, ![M, N]⟩ : Shape).Idx) :
    FloatOps.dotGeneral (DotDims.plain M K N) prec sched lhs rhs j
      = ∑ k : Fin K, lhs (ix2 ⟨(j 0).val, idx2_lt0 j⟩ k) * rhs (ix2 k ⟨(j 1).val, idx2_lt1 j⟩) := by
  rw [Ideal.dotGeneral_apply,
    ← Equiv.sum_comp (contrEquiv1 (DotDims.plain M K N) K contr_rank contr_size).symm]
  refine Finset.sum_congr rfl fun k _ => ?_
  rw [lhsIdx_eq, rhsIdx_eq]

/-- At an index given by coordinates. -/
theorem matmul_apply_ix2 {φ₁ φ₂ : FTy} (prec : Option ContractPrecision) (lhs : FVec Ideal ⟨2, ![M, K]⟩ φ₁)
    (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) :=
  matmul_apply prec lhs rhs (ix2 r c)

theorem dotGeneral_apply_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  dotGeneral_apply prec sched lhs rhs (ix2 r c)

end Idealize.ShloMosaic.PlainDot
-- ==== Proof.LibColumnLayout.lean ====
/-
  Two layout steps that every row-wise reduction kept as a column needs, read at an index.

  A sum along the rows of an [a, b] block is a vector of length a. Kept "as a column" it is viewed as an [a, 1] array, and to
  be combined with the block again it is spread over the b columns. Read at an entry, both steps only pick the row: the
  column at (i, u) is the vector at i, and the spread column at (p, c) is the column at (p, 0). Stated for any extents and
  any element type; no program is involved.
-/
import Idealize.ShloMosaic.Lib.ValueIdx
import Idealize.ShloMosaic.Lib.ValueLayout
import Idealize.ShloMosaic.Lib.Pipeline.Value

noncomputable section

namespace Cert.Lib.ColumnLayout

open Idealize.ShloMosaic Idealize.ShloMosaic.ValueIdx

/-- A vector of length `a` viewed as an `[a, 1]` column reads, at `(i, u)`, the vector at `i`, whatever the unit
    coordinate `u`: both positions are the `i`-th in row-major order. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column spread over `b` columns reads, at `(p, c)`, the column's entry in row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.ColumnLayout

end
-- ==== Proof.KPay0.lean ====
/-
  The first linear map's payloads read at an index, over the extended reals.

  For one grid point's blocks nn, s, x (5000 rows) and w:
    the product block at (p, j) is  Σ_k (nn(p,k) + s(p,0) · x(p,k)) · w(k,j)   (a change of float format is the identity);
    the column-sum payload at (0,0,j) is the running sum there plus the sum over the block's rows p of the product;
    the squares' payload likewise, of the product's squares.
-/
import proofs.«151600_j50869592655513_2_alg».proof.Proof.Gen.KernelIdeal.Frame
import proofs.«151600_j50869592655513_2_alg».proof.Proof.LibPlainDot
import proofs.«151600_j50869592655513_2_alg».proof.Proof.LibColumnLayout
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KValue

open Cert.KernelIdeal Cert.KernelIdeal.Gen Cert.KernelIdeal.Facts₀ Cert.KernelIdeal.Facts
open Idealize.ShloMosaic Idealize.ShloMosaic.ValueIdx
open scoped BigOperators

/-- The product block at row p, column j. -/
def prod0 (v3 : Vec Ideal S5000x128 .f32) (v5 : Vec Ideal S5000x1 .f32) (v7 : Vec Ideal S5000x128 .f32)
    (v12 : Vec Ideal S128x256 .f32) (p : Fin 5000) (j : Fin 256) : EReal :=
  ∑ k : Fin 128, (v3 (ix2 p k) + v5 (ix2 p (0 : Fin 1)) * v7 (ix2 p k)) * v12 (ix2 k j)

theorem pay3_apply (v3 : Vec Ideal S5000x128 .f32) (v5 : Vec Ideal S5000x1 .f32) (v7 : Vec Ideal S5000x128 .f32)
    (v12 : Vec Ideal S128x256 .f32) (p : Fin 5000) (j : Fin 256) :
    k0_pay3 (F := Ideal) v3 v5 v7 v12 (ix2 p j) = prod0 v3 v5 v7 v12 p j := by
  unfold k0_pay3 prod0
  refine (PlainDot.matmul_apply_ix2 (M := 5000) (K := 128) (N := 256) none _ _ p j).trans ?_
  refine Finset.sum_congr rfl fun k _ => ?_
  simp only [truncf_apply, addf_apply, mulf_apply, shapeCast_self]
  rw [Cert.Lib.ColumnLayout.broadcastTo_a1_ab_apply]

/-- The index the lane reduction reads at row p for column j. -/
theorem lift0 (h : S5000x256.Reduces [0] S256) (j : Fin 256) (p : Fin 5000) : h.lift (ix1 j) p = ix2 p j := by
  funext a
  apply Fin.ext
  match a with
  | ⟨0, _⟩ => rfl
  | ⟨1, _⟩ => rfl

/-- The column-sum payload: what was there plus the block's column sum of the product. -/
theorem pay4_apply (v3 : Vec Ideal S5000x128 .f32) (v5 : Vec Ideal S5000x1 .f32) (v7 : Vec Ideal S5000x128 .f32)
    (v12 : Vec Ideal S128x256 .f32) (v22 : Vec Ideal S1x1x256 .f32) (u0 u1 : Fin 1) (j : Fin 256) :
    k0_pay4 (F := Ideal) v3 v5 v7 v12 v22 (ix3 u0 u1 j) = v22 (ix3 u0 u1 j) + ∑ p : Fin 5000, prod0 v3 v5 v7 v12 p j := by
  unfold k0_pay4
  refine (addf_apply _ _ _).trans ?_
  refine congrArg₂ (· + ·) (congrFun (shapeCast_self _ _) _) ?_
  refine (shapeCast_ab_1ab_apply _ _ u0 u1 j).trans ?_
  refine (shapeCast_a_1a_apply _ _ u1 j).trans ?_
  refine (Ideal.multiReduction_add_single _ _ _ _ _ (ix1 j)).trans ?_
  refine Finset.sum_congr rfl fun p _ => ?_
  exact (congrArg _ (lift0 _ j p)).trans (pay3_apply v3 v5 v7 v12 p j)

/-- The squares' payload: what was there plus the block's column sum of the product's squares. -/
theorem pay5_apply (v3 : Vec Ideal S5000x128 .f32) (v5 : Vec Ideal S5000x1 .f32) (v7 : Vec Ideal S5000x128 .f32)
    (v12 : Vec Ideal S128x256 .f32) (v27 : Vec Ideal S1x1x256 .f32) (u0 u1 : Fin 1) (j : Fin 256) :
    k0_pay5 (F := Ideal) v3 v5 v7 v12 v27 (ix3 u0 u1 j)
      = v27 (ix3 u0 u1 j) + ∑ p : Fin 5000, prod0 v3 v5 v7 v12 p j * prod0 v3 v5 v7 v12 p j := by
  unfold k0_pay5
  refine (addf_apply _ _ _).trans ?_
  refine congrArg₂ (· + ·) (congrFun (shapeCast_self _ _) _) ?_
  refine (shapeCast_ab_1ab_apply _ _ u0 u1 j).trans ?_
  refine (shapeCast_a_1a_apply _ _ u1 j).trans ?_
  refine (Ideal.multiReduction_add_single _ _ _ _ _ (ix1 j)).trans ?_
  refine Finset.sum_congr rfl fun p _ => ?_
  refine (congrArg _ (lift0 _ j p)).trans ?_
  refine (mulf_apply _ _ _).trans ?_
  rw [pay3_apply v3 v5 v7 v12 p j]

/-- The zero blocks the first point of a share stores are zero everywhere. -/
theorem pay1_apply (i : S1x1x256.Idx) : k0_pay1 (F := Ideal) i = 0 := by
  unfold k0_pay1
  exact Ideal.ofBits_zero_f32
theorem pay2_apply (i : S1x1x256.Idx) : k0_pay2 (F := Ideal) i = 0 := by
  unfold k0_pay2
  exact Ideal.ofBits_zero_f32

end Cert.KernelIdeal.KValue

end
-- ==== Proof.KPieces0.lean ====
/-
  What one grid point of the first linear map leaves in its three output blocks, as values.

  The body computes, from the point's blocks nn (aggregated messages), x (node features), s (the residual's
  coefficient, a column) and w (the transposed weight), the product  y = (nn + s·x) · w ; it stores y as the
  point's block of the first output, and adds the column sums of y, and of y·y, into the two running-sum blocks.
  At the first point of a core's share the running sums are first set to zero, so there the sums are added to zero;
  at every other point they are added to what the point before left. The run found these as lists of stored
  pieces; read back, each list is one payload of the loaded blocks.
-/
import proofs.«151600_j50869592655513_2_alg».proof.Proof.Gen.KernelIdeal.Frame
import Idealize.ShloMosaic.Lib.Pipeline.Value

set_option maxRecDepth 16384

noncomputable section

namespace Cert.KernelIdeal.KValue

open Cert.KernelIdeal Cert.KernelIdeal.Gen Idealize.ShloMosaic Idealize.ShloMosaic.TcCoe Idealize.ShloMosaic.Tactic Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First point of a share: the product block. -/
theorem out0_A_4_eq (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x256 .f32) (harg5 : arg5.IsWhole) (arg6 : Memref sig .tc .vmem S5000x256 .f32) (harg6 : arg6.IsWhole) (arg7 : Memref sig .tc .vmem S1x1x256 .f32) (harg7 : arg7.IsWhole) (arg8 : Memref sig .tc .vmem S1x1x256 .f32) (harg8 : arg8.IsWhole) (hc0 : cond0_0 i) (x0 : Vec F S5000x128 .f32) (x1 : Vec F S5000x128 .f32) (x2 : Vec F S5000x1 .f32) (x3 : Vec F S128x256 .f32) :
    out0_A_4 c i arg2 harg2 arg3 harg3 arg4 harg4 arg5 harg5 arg6 harg6 arg7 harg7 arg8 harg8 hc0 x0 x1 x2 x3 = k0_pay3 x0 x2 x1 x3 := by
  unfold out0_A_4
  rw [View.read_writes_eq_canon _ _ _ (cover0_A_4 c i arg2 harg2 arg3 harg3 arg4 harg4 arg5 harg5 arg6 harg6 arg7 harg7 arg8 harg8 hc0 x0 x1 x2 x3)]
  unfold kernelRun0_A
  dsimp only
  sl_unfold_words
  rw [View.canon_unit_zero hz2]
  simp only [View.readAt_eq_ld, harg2.read_unread, harg3.read_unread, harg4.read_unread, harg5.read_unread, harg7.read_unread, harg8.read_unread,
    View.ld_unit_zero (S := S5000x128) hz2, View.ld_unit_zero (S := S5000x1) hz2, View.ld_unit_zero (S := S128x256) hz2, View.ld_unit_zero (S := S1x1x256) hz3]

/-- First point of a share: the column sums, added to the zero just stored. -/
theorem out0_A_5_eq (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x256 .f32) (harg5 : arg5.IsWhole) (arg6 : Memref sig .tc .vmem S5000x256 .f32) (harg6 : arg6.IsWhole) (arg7 : Memref sig .tc .vmem S1x1x256 .f32) (harg7 : arg7.IsWhole) (arg8 : Memref sig .tc .vmem S1x1x256 .f32) (harg8 : arg8.IsWhole) (hc0 : cond0_0 i) (x0 : Vec F S5000x128 .f32) (x1 : Vec F S5000x128 .f32) (x2 : Vec F S5000x1 .f32) (x3 : Vec F S128x256 .f32) :
    out0_A_5 c i arg2 harg2 arg3 harg3 arg4 harg4 arg5 harg5 arg6 harg6 arg7 harg7 arg8 harg8 hc0 x0 x1 x2 x3 = k0_pay4 x0 x2 x1 x3 (k0_pay1 (F := F)) := by
  unfold out0_A_5
  rw [View.read_writes_eq_canon _ _ _ (cover0_A_5 c i arg2 harg2 arg3 harg3 arg4 harg4 arg5 harg5 arg6 harg6 arg7 harg7 arg8 harg8 hc0 x0 x1 x2 x3)]
  unfold kernelRun0_A
  dsimp only
  sl_unfold_words
  rw [View.canon_cons_unit_zero (S := S1x1x256) hz3, View.readCov_unit_zero (S := S1x1x256) _ hz3]
  simp only [View.readAt_eq_ld, harg2.read_unread, harg3.read_unread, harg4.read_unread, harg5.read_unread, harg7.read_unread, harg8.read_unread,
    View.ld_unit_zero (S := S5000x128) hz2, View.ld_unit_zero (S := S5000x1) hz2, View.ld_unit_zero (S := S128x256) hz2, View.ld_unit_zero (S := S1x1x256) hz3]

/-- First point of a share: the column sums of squares, added to the zero just stored. -/
theorem out0_A_6_eq (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x256 .f32) (harg5 : arg5.IsWhole) (arg6 : Memref sig .tc .vmem S5000x256 .f32) (harg6 : arg6.IsWhole) (arg7 : Memref sig .tc .vmem S1x1x256 .f32) (harg7 : arg7.IsWhole) (arg8 : Memref sig .tc .vmem S1x1x256 .f32) (harg8 : arg8.IsWhole) (hc0 : cond0_0 i) (x0 : Vec F S5000x128 .f32) (x1 : Vec F S5000x128 .f32) (x2 : Vec F S5000x1 .f32) (x3 : Vec F S128x256 .f32) :
    out0_A_6 c i arg2 harg2 arg3 harg3 arg4 harg4 arg5 harg5 arg6 harg6 arg7 harg7 arg8 harg8 hc0 x0 x1 x2 x3 = k0_pay5 x0 x2 x1 x3 (k0_pay2 (F := F)) := by
  unfold out0_A_6
  rw [View.read_writes_eq_canon _ _ _ (cover0_A_6 c i arg2 harg2 arg3 harg3 arg4 harg4 arg5 harg5 arg6 harg6 arg7 harg7 arg8 harg8 hc0 x0 x1 x2 x3)]
  unfold kernelRun0_A
  dsimp only
  sl_unfold_words
  rw [View.canon_cons_unit_zero (S := S1x1x256) hz3, View.readCov_unit_zero (S := S1x1x256) _ hz3]
  simp only [View.readAt_eq_ld, harg2.read_unread, harg3.read_unread, harg4.read_unread, harg5.read_unread, harg7.read_unread, harg8.read_unread,
    View.ld_unit_zero (S := S5000x128) hz2, View.ld_unit_zero (S := S5000x1) hz2, View.ld_unit_zero (S := S128x256) hz2, View.ld_unit_zero (S := S1x1x256) hz3]

/-- A later point: the product block. -/
theorem out0_B_4_eq (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x256 .f32) (harg5 : arg5.IsWhole) (arg6 : Memref sig .tc .vmem S5000x256 .f32) (harg6 : arg6.IsWhole) (arg7 : Memref sig .tc .vmem S1x1x256 .f32) (harg7 : arg7.IsWhole) (arg8 : Memref sig .tc .vmem S1x1x256 .f32) (harg8 : arg8.IsWhole) (hc0 : ¬cond0_0 i) (x0 : Vec F S5000x128 .f32) (x1 : Vec F S5000x128 .f32) (x2 : Vec F S5000x1 .f32) (x3 : Vec F S128x256 .f32) (xo5 : Vec F S1x1x256 .f32) (xo6 : Vec F S1x1x256 .f32) :
    out0_B_4 c i arg2 harg2 arg3 harg3 arg4 harg4 arg5 harg5 arg6 harg6 arg7 harg7 arg8 harg8 hc0 x0 x1 x2 x3 xo5 xo6 = k0_pay3 x0 x2 x1 x3 := by
  unfold out0_B_4
  rw [View.read_writes_eq_canon _ _ _ (cover0_B_4 c i arg2 harg2 arg3 harg3 arg4 harg4 arg5 harg5 arg6 harg6 arg7 harg7 arg8 harg8 hc0 x0 x1 x2 x3 xo5 xo6)]
  unfold kernelRun0_B
  dsimp only
  sl_unfold_words
  rw [View.canon_unit_zero hz2]
  simp only [View.readAt_eq_ld, harg2.read_unread, harg3.read_unread, harg4.read_unread, harg5.read_unread, harg7.read_unread, harg8.read_unread,
    View.ld_unit_zero (S := S5000x128) hz2, View.ld_unit_zero (S := S5000x1) hz2, View.ld_unit_zero (S := S128x256) hz2, View.ld_unit_zero (S := S1x1x256) hz3]

/-- A later point: the column sums, added to the running sums. -/
theorem out0_B_5_eq (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x256 .f32) (harg5 : arg5.IsWhole) (arg6 : Memref sig .tc .vmem S5000x256 .f32) (harg6 : arg6.IsWhole) (arg7 : Memref sig .tc .vmem S1x1x256 .f32) (harg7 : arg7.IsWhole) (arg8 : Memref sig .tc .vmem S1x1x256 .f32) (harg8 : arg8.IsWhole) (hc0 : ¬cond0_0 i) (x0 : Vec F S5000x128 .f32) (x1 : Vec F S5000x128 .f32) (x2 : Vec F S5000x1 .f32) (x3 : Vec F S128x256 .f32) (xo5 : Vec F S1x1x256 .f32) (xo6 : Vec F S1x1x256 .f32) :
    out0_B_5 c i arg2 harg2 arg3 harg3 arg4 harg4 arg5 harg5 arg6 harg6 arg7 harg7 arg8 harg8 hc0 x0 x1 x2 x3 xo5 xo6 = k0_pay4 x0 x2 x1 x3 xo5 := by
  unfold out0_B_5
  rw [View.read_writes_eq_canon _ _ _ (cover0_B_5 c i arg2 harg2 arg3 harg3 arg4 harg4 arg5 harg5 arg6 harg6 arg7 harg7 arg8 harg8 hc0 x0 x1 x2 x3 xo5 xo6)]
  unfold kernelRun0_B
  dsimp only
  sl_unfold_words
  rw [View.canon_unit_zero hz3]
  simp only [View.readAt_eq_ld, harg2.read_unread, harg3.read_unread, harg4.read_unread, harg5.read_unread, harg7.read_unread, harg8.read_unread,
    View.ld_unit_zero (S := S5000x128) hz2, View.ld_unit_zero (S := S5000x1) hz2, View.ld_unit_zero (S := S128x256) hz2, View.ld_unit_zero (S := S1x1x256) hz3]

/-- A later point: the column sums of squares, added to the running sums. -/
theorem out0_B_6_eq (c : Dev nD) (i : grid0.Coords) (arg2 : Memref sig .tc .vmem S5000x128 .f32) (harg2 : arg2.IsWhole) (arg3 : Memref sig .tc .vmem S5000x128 .f32) (harg3 : arg3.IsWhole) (arg4 : Memref sig .tc .vmem S5000x1 .f32) (harg4 : arg4.IsWhole) (arg5 : Memref sig .tc .vmem S128x256 .f32) (harg5 : arg5.IsWhole) (arg6 : Memref sig .tc .vmem S5000x256 .f32) (harg6 : arg6.IsWhole) (arg7 : Memref sig .tc .vmem S1x1x256 .f32) (harg7 : arg7.IsWhole) (arg8 : Memref sig .tc .vmem S1x1x256 .f32) (harg8 : arg8.IsWhole) (hc0 : ¬cond0_0 i) (x0 : Vec F S5000x128 .f32) (x1 : Vec F S5000x128 .f32) (x2 : Vec F S5000x1 .f32) (x3 : Vec F S128x256 .f32) (xo5 : Vec F S1x1x256 .f32) (xo6 : Vec F S1x1x256 .f32) :
    out0_B_6 c i arg2 harg2 arg3 harg3 arg4 harg4 arg5 harg5 arg6 harg6 arg7 harg7 arg8 harg8 hc0 x0 x1 x2 x3 xo5 xo6 = k0_pay5 x0 x2 x1 x3 xo6 := by
  unfold out0_B_6
  rw [View.read_writes_eq_canon _ _ _ (cover0_B_6 c i arg2 harg2 arg3 harg3 arg4 harg4 arg5 harg5 arg6 harg6 arg7 harg7 arg8 harg8 hc0 x0 x1 x2 x3 xo5 xo6)]
  unfold kernelRun0_B
  dsimp only
  sl_unfold_words
  rw [View.canon_unit_zero hz3]
  simp only [View.readAt_eq_ld, harg2.read_unread, harg3.read_unread, harg4.read_unread, harg5.read_unread, harg7.read_unread, harg8.read_unread,
    View.ld_unit_zero (S := S5000x128) hz2, View.ld_unit_zero (S := S5000x1) hz2, View.ld_unit_zero (S := S128x256) hz2, View.ld_unit_zero (S := S1x1x256) hz3]

end Cert.KernelIdeal.KValue

end
-- ==== Proof.LibRunningSum.lean ====
/-
  A running sum over consecutive row blocks that is reset every ten blocks.

  Rows are numbered from 0; block t holds the B rows  B·t, …, B·t + B - 1.  A quantity a(n) that is set to the sum over
  block n whenever n is a multiple of ten, and otherwise is a(n-1) plus the sum over block n, is the sum over all rows
  from the start of n's group of ten up to the end of block n. After the last block of a group it is the sum over the
  whole group, and two consecutive groups of ten blocks of 5000 rows add up to all of the first 100000 rows.
-/
import Mathlib.Data.EReal.Basic
import Mathlib.Algebra.BigOperators.Intervals
import Mathlib.Algebra.BigOperators.Fin

noncomputable section

open scoped BigOperators

namespace Cert.Accum

/-- The sum of f over the B rows of block t. -/
def blockSum (f : ℕ → EReal) (B t : ℕ) : EReal := ∑ p : Fin B, f (B * t + p.val)

theorem blockSum_eq_Ico (f : ℕ → EReal) (B t : ℕ) :
    blockSum f B t = ∑ r ∈ Finset.Ico (B * t) (B * (t + 1)), f r := by
  unfold blockSum
  rw [Finset.sum_Ico_eq_sum_range, Fin.sum_univ_eq_sum_range (fun p => f (B * t + p)) B]
  congr 2
  rw [Nat.mul_succ]; omega

/-- The running sum in closed form, for the points below a bound N. -/
theorem running_sum (f : ℕ → EReal) (B N : ℕ) (a : ℕ → EReal)
    (hA : ∀ n, n < N → n % 10 = 0 → a n = 0 + blockSum f B n)
    (hB : ∀ n, n < N → ¬ n % 10 = 0 → a n = a (n - 1) + blockSum f B n) :
    ∀ n, n < N → a n = ∑ r ∈ Finset.Ico (B * (n - n % 10)) (B * (n + 1)), f r := by
  intro n
  induction n with
  | zero => intro hn; rw [hA 0 hn rfl, zero_add, blockSum_eq_Ico]
  | succ n ih =>
    intro hn
    by_cases h : (n + 1) % 10 = 0
    · rw [hA _ hn h, zero_add, blockSum_eq_Ico, h, Nat.sub_zero]
    · rw [hB _ hn h, Nat.add_sub_cancel, ih (Nat.lt_of_succ_lt hn), blockSum_eq_Ico]
      have e : n + 1 - (n + 1) % 10 = n - n % 10 := by omega
      rw [e]
      exact Finset.sum_Ico_consecutive f (Nat.mul_le_mul_left B (by omega)) (Nat.mul_le_mul_left B (by omega))

/-- After the last block of group g the running sum is the sum over the group's rows. -/
theorem running_sum_last (f : ℕ → EReal) (B N : ℕ) (a : ℕ → EReal)
    (hA : ∀ n, n < N → n % 10 = 0 → a n = 0 + blockSum f B n)
    (hB : ∀ n, n < N → ¬ n % 10 = 0 → a n = a (n - 1) + blockSum f B n) (g : ℕ) (hg : 10 * g + 9 < N) :
    a (10 * g + 9) = ∑ r ∈ Finset.Ico (B * (10 * g)) (B * (10 * (g + 1))), f r := by
  rw [running_sum f B N a hA hB _ hg]
  have e1 : 10 * g + 9 - (10 * g + 9) % 10 = 10 * g := by omega
  have e2 : 10 * g + 9 + 1 = 10 * (g + 1) := by omega
  rw [e1, e2]

/-- A function on the first n rows, extended by zero. -/
def ext {n : ℕ} (y : Fin n → EReal) : ℕ → EReal := fun r => if h : r < n then y ⟨r, h⟩ else 0

theorem ext_val {n : ℕ} (y : Fin n → EReal) (r : Fin n) : ext y r.val = y r := by
  unfold ext; rw [dif_pos r.isLt]

/-- The sum over block t of the extension is the sum over the block's rows, when the block lies inside. -/
theorem blockSum_ext {n : ℕ} (y : Fin n → EReal) (B t : ℕ) (h : B * (t + 1) ≤ n) :
    blockSum (ext y) B t = ∑ p : Fin B, y ⟨B * t + p.val, by have := p.isLt; rw [Nat.mul_succ] at h; omega⟩ := by
  unfold blockSum
  refine Finset.sum_congr rfl fun p _ => ?_
  unfold ext
  rw [dif_pos]

theorem ext_of_lt {n : ℕ} (y : Fin n → EReal) (r : ℕ) (h : r < n) : ext y r = y ⟨r, h⟩ := by
  unfold ext; rw [dif_pos h]

/-- The sum over all of the first n rows. -/
theorem sum_Ico_ext {n : ℕ} (y : Fin n → EReal) : ∑ r ∈ Finset.Ico 0 n, ext y r = ∑ r : Fin n, y r := by
  rw [← Finset.range_eq_Ico, Finset.sum_range]
  exact Finset.sum_congr rfl fun r _ => ext_val y r

/-- Two groups of ten blocks of 5000 rows are the first 100000 rows. -/
theorem two_groups (f : ℕ → EReal) :
    (∑ r ∈ Finset.Ico (5000 * (10 * 0)) (5000 * (10 * (0 + 1))), f r)
      + (∑ r ∈ Finset.Ico (5000 * (10 * 1)) (5000 * (10 * (1 + 1))), f r) = ∑ r ∈ Finset.Ico 0 100000, f r :=
  Finset.sum_Ico_consecutive f (by norm_num) (by norm_num)

end Cert.Accum

end
-- ==== Proof.KReg0.lean ====
/-
  The first linear map's region, read as values: where a grid point's blocks sit in the whole arrays.

  The grid is 2 × 10, point t = 10·core + step; the row blocks of the aggregated messages, the node features, the
  residual's coefficient and the product all have index t (rows 5000·t … 5000·t + 4999), the transposed weight is one
  block, and the two running-sum outputs have block index t / 10 (one slab per core).
  So the product block at a point, at row p and column j, is the whole product
      Y(r, j) = Σ_k (nn(r,k) + s(r,0) · x(r,k)) · w(k,j)      at the global row  r = 5000·t + p.
-/
import proofs.«151600_j50869592655513_2_alg».proof.Proof.KPay0
import proofs.«151600_j50869592655513_2_alg».proof.Proof.KPieces0
import proofs.«151600_j50869592655513_2_alg».proof.Proof.LibRunningSum

set_option maxRecDepth 16384

noncomputable section

namespace Cert.KernelIdeal.KValue

open Cert.KernelIdeal Cert.KernelIdeal.Gen
open Idealize.ShloMosaic Idealize.ShloMosaic.TcCoe Idealize.ShloMosaic.ValueIdx Idealize.SL.Sem
open scoped BigOperators

variable (V : (c : Dev nD) → (b : Ref sig .tc) → Buf (Elt Ideal) ((c : Thread nD τ).loc b))

/-- The four arrays the region reads, as functions into the extended reals. -/
abbrev aNN (c : Dev nD) : S100000x128.Idx → EReal := V c main_v22
abbrev aX (c : Dev nD) : S100000x128.Idx → EReal := V c main_arg0
abbrev aS (c : Dev nD) : S100000x1.Idx → EReal := V c main_v27
abbrev aW (c : Dev nD) : S128x256.Idx → EReal := V c main_v28

/-- The whole product at a global row and a column, from the arrays as the region finds them. -/
def Y0 (c : Dev nD) (r : Fin 100000) (j : Fin 256) : EReal :=
  ∑ k : Fin 128, (aNN V c (ix2 r k) + aS V c (ix2 r (0 : Fin 1)) * aX V c (ix2 r k)) * aW V c (ix2 k j)

theorem hN0 : cfg0.N = 20 := N_0

/-- The printed index maps over the grid. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 3) = t.val / 10 ∧ win0_5.index t (1 : Fin 3) = 0 ∧ win0_5.index t (2 : Fin 3) = 0
    ∧ win0_6.index t (0 : Fin 3) = t.val / 10 ∧ win0_6.index t (1 : Fin 3) = 0 ∧ win0_6.index t (2 : Fin 3) = 0 :=
  (by decide +kernel : ∀ t : Fin grid0.N, _)

/-- The global row of a block's row. -/
abbrev grow (t : Fin cfg0.N) (p : Fin 5000) : Fin 100000 :=
  ⟨5000 * t.val + p.val, by have := t.isLt; have := hN0; have := p.isLt; omega⟩

theorem iblk0_0_apply (c : Dev nD) (t : Fin cfg0.N) (p : Fin 5000) (k : Fin 128) :
    iblk0 V c 0 t (ix2 p k) = aNN V c (ix2 (grow t p) k) := by
  unfold iblk0
  rw [View.read_apply]
  show V c main_v22 (((cfg0.win 0).blk t).view.emb (ix2 p k)) = _
  congr 1
  funext a
  apply Fin.ext
  obtain ⟨e0, e1, -⟩ := idx0 t
  match a with
  | ⟨0, _⟩ => show win0_0.index t (0 : Fin 2) * 5000 + 1 * p.val = 5000 * t.val + p.val; omega
  | ⟨1, _⟩ => show win0_0.index t (1 : Fin 2) * 128 + 1 * k.val = k.val; omega

theorem iblk0_1_apply (c : Dev nD) (t : Fin cfg0.N) (p : Fin 5000) (k : Fin 128) :
    iblk0 V c 1 t (ix2 p k) = aX V c (ix2 (grow t p) k) := by
  unfold iblk0
  rw [View.read_apply]
  show V c main_arg0 (((cfg0.win 1).blk t).view.emb (ix2 p k)) = _
  congr 1
  funext a
  apply Fin.ext
  obtain ⟨-, -, e0, e1, -⟩ := idx0 t
  match a with
  | ⟨0, _⟩ => show win0_1.index t (0 : Fin 2) * 5000 + 1 * p.val = 5000 * t.val + p.val; omega
  | ⟨1, _⟩ => show win0_1.index t (1 : Fin 2) * 128 + 1 * k.val = k.val; omega

theorem iblk0_2_apply (c : Dev nD) (t : Fin cfg0.N) (p : Fin 5000) (u : Fin 1) :
    iblk0 V c 2 t (ix2 p u) = aS V c (ix2 (grow t p) u) := by
  unfold iblk0
  rw [View.read_apply]
  show V c main_v27 (((cfg0.win 2).blk t).view.emb (ix2 p u)) = _
  congr 1
  funext a
  apply Fin.ext
  obtain ⟨-, -, -, -, e0, e1, -⟩ := idx0 t
  match a with
  | ⟨0, _⟩ => show win0_2.index t (0 : Fin 2) * 5000 + 1 * p.val = 5000 * t.val + p.val; omega
  | ⟨1, _⟩ => show win0_2.index t (1 : Fin 2) * 1 + 1 * u.val = u.val; omega

theorem iblk0_3_apply (c : Dev nD) (t : Fin cfg0.N) (k : Fin 128) (j : Fin 256) :
    iblk0 V c 3 t (ix2 k j) = aW V c (ix2 k j) := by
  unfold iblk0
  rw [View.read_apply]
  show V c main_v28 (((cfg0.win 3).blk t).view.emb (ix2 k j)) = _
  congr 1
  funext a
  apply Fin.ext
  obtain ⟨-, -, -, -, -, -, e0, e1, -⟩ := idx0 t
  match a with
  | ⟨0, _⟩ => show win0_3.index t (0 : Fin 2) * 128 + 1 * k.val = k.val; omega
  | ⟨1, _⟩ => show win0_3.index t (1 : Fin 2) * 256 + 1 * j.val = j.val; omega

/-- The product block of a point is the whole product at the block's global rows. -/
theorem prod0_blk (c : Dev nD) (t : Fin cfg0.N) (p : Fin 5000) (j : Fin 256) :
    prod0 (iblk0 V c 0 t) (iblk0 V c 2 t) (iblk0 V c 1 t) (iblk0 V c 3 t) p j = Y0 V c (grow t p) j := by
  unfold prod0 Y0
  refine Finset.sum_congr rfl fun k _ => ?_
  rw [iblk0_0_apply, iblk0_1_apply, iblk0_2_apply, iblk0_3_apply]

end Cert.KernelIdeal.KValue

end
-- ==== Proof.KFin0.lean ====
/-
  The first linear map's region: what its three output arrays hold after the run.

  After every grid point the first output's staging block is the product block of that point, and the two running-sum
  blocks hold, at column j, the sum of the product (of its square) over all rows from the start of the point's core share
  up to the end of the point's block: at the first point of a share the sums start from the zero just stored, at every
  other point from what the point before left. The product blocks tile the product array, each written back by its own
  point; a running-sum slab is written back after the last point of its core's share, when it holds the sum over that
  core's 50000 rows.
-/
import proofs.«151600_j50869592655513_2_alg».proof.Proof.KReg0

set_option maxRecDepth 16384

noncomputable section

namespace Cert.KernelIdeal.KValue

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-! ## The three staging blocks after a point -/

theorem outs0_fst (c : Dev nD) (t : Fin cfg0.N) :
    (outsAt0 V c t.val t.isLt).1 = k0_pay3 (F := Ideal) (iblk0 V c 0 t) (iblk0 V c 2 t) (iblk0 V c 1 t) (iblk0 V c 3 t) := by
  by_cases h0 : t.val % 10 = 0
  · rw [outsAt0_A V c t h0]
    dsimp only
    exact out0_A_4_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t) (iblk0 V c 2 t) (iblk0 V c 3 t)
  · rw [outsAt0_B V c t h0]
    dsimp only
    exact out0_B_4_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2

theorem outs0_snd_A (c : Dev nD) (t : Fin cfg0.N) (h0 : t.val % 10 = 0) :
    (outsAt0 V c t.val t.isLt).2.1 = k0_pay4 (F := Ideal) (iblk0 V c 0 t) (iblk0 V c 2 t) (iblk0 V c 1 t) (iblk0 V c 3 t) (k0_pay1 (F := Ideal)) := by
  rw [outsAt0_A V c t h0]
  dsimp only
  exact out0_A_5_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t) (iblk0 V c 2 t) (iblk0 V c 3 t)

theorem outs0_snd_B (c : Dev nD) (t : Fin cfg0.N) (h0 : ¬ t.val % 10 = 0) :
    (outsAt0 V c t.val t.isLt).2.1 = k0_pay4 (F := Ideal) (iblk0 V c 0 t) (iblk0 V c 2 t) (iblk0 V c 1 t) (iblk0 V c 3 t) (outsAt0 V c (t.val - 1) (Nat.lt_of_le_of_lt (Nat.sub_le _ _) t.isLt)).2.1 := by
  rw [outsAt0_B V c t h0]
  dsimp only
  exact out0_B_5_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2

theorem outs0_trd_A (c : Dev nD) (t : Fin cfg0.N) (h0 : t.val % 10 = 0) :
    (outsAt0 V c t.val t.isLt).2.2 = k0_pay5 (F := Ideal) (iblk0 V c 0 t) (iblk0 V c 2 t) (iblk0 V c 1 t) (iblk0 V c 3 t) (k0_pay2 (F := Ideal)) := by
  rw [outsAt0_A V c t h0]
  dsimp only
  exact out0_A_6_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t) (iblk0 V c 2 t) (iblk0 V c 3 t)

theorem outs0_trd_B (c : Dev nD) (t : Fin cfg0.N) (h0 : ¬ t.val % 10 = 0) :
    (outsAt0 V c t.val t.isLt).2.2 = k0_pay5 (F := Ideal) (iblk0 V c 0 t) (iblk0 V c 2 t) (iblk0 V c 1 t) (iblk0 V c 3 t) (outsAt0 V c (t.val - 1) (Nat.lt_of_le_of_lt (Nat.sub_le _ _) t.isLt)).2.2 := by
  rw [outsAt0_B V c t h0]
  dsimp only
  exact out0_B_6_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2

end Cert.KernelIdeal.KValue

end
-- ==== Proof.KArr0.lean ====
/-
  The first linear map's region: its output arrays after the run, in closed form.

  Column j of the product, Y(·, j), extended by zero beyond the 100000 rows, is summed over row ranges. After point n
  the first running-sum block holds at column j the sum of Y(r, j) over the rows r from the start of n's group of ten
  blocks to the end of block n, and the second the same sum of Y(r, j)². The product array ends as Y; slab g of each
  running-sum array ends as the sum over the 50000 rows of core g.
-/
import proofs.«151600_j50869592655513_2_alg».proof.Proof.KFin0

set_option maxRecDepth 16384

noncomputable section

namespace Cert.KernelIdeal.KValue

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- Column j of the product, and of its square, extended by zero beyond the rows. -/
def col0 (c : Dev nD) (j : Fin 256) : ℕ → EReal := Cert.Accum.ext (fun r : Fin 100000 => Y0 V c r j)
def colSq0 (c : Dev nD) (j : Fin 256) : ℕ → EReal := Cert.Accum.ext (fun r : Fin 100000 => Y0 V c r j * Y0 V c r j)

theorem blockSum_col0 (c : Dev nD) (j : Fin 256) (t : Fin cfg0.N) :
    Cert.Accum.blockSum (col0 V c j) 5000 t.val = ∑ p : Fin 5000, Y0 V c (grow t p) j := by
  have h1 := t.isLt
  have h2 := hN0
  unfold col0
  rw [Cert.Accum.blockSum_ext _ 5000 t.val (by omega)]

theorem blockSum_colSq0 (c : Dev nD) (j : Fin 256) (t : Fin cfg0.N) :
    Cert.Accum.blockSum (colSq0 V c j) 5000 t.val = ∑ p : Fin 5000, Y0 V c (grow t p) j * Y0 V c (grow t p) j := by
  have h1 := t.isLt
  have h2 := hN0
  unfold colSq0
  rw [Cert.Accum.blockSum_ext _ 5000 t.val (by omega)]

/-- The running sums at column j after point n. -/
def acc5 (c : Dev nD) (j : Fin 256) (n : ℕ) : EReal :=
  if h : n < cfg0.N then (outsAt0 V c n h).2.1 (ix3 (0 : Fin 1) (0 : Fin 1) j) else 0
def acc6 (c : Dev nD) (j : Fin 256) (n : ℕ) : EReal :=
  if h : n < cfg0.N then (outsAt0 V c n h).2.2 (ix3 (0 : Fin 1) (0 : Fin 1) j) else 0

theorem acc5_A (c : Dev nD) (j : Fin 256) (n : ℕ) (hn : n < cfg0.N) (h0 : n % 10 = 0) :
    acc5 V c j n = 0 + Cert.Accum.blockSum (col0 V c j) 5000 n := by
  unfold acc5
  rw [dif_pos hn]
  refine (congrFun (outs0_snd_A V c ⟨n, hn⟩ h0) _).trans ?_
  refine (pay4_apply (iblk0 V c 0 ⟨n, hn⟩) (iblk0 V c 2 ⟨n, hn⟩) (iblk0 V c 1 ⟨n, hn⟩) (iblk0 V c 3 ⟨n, hn⟩) _ 0 0 j).trans ?_
  rw [blockSum_col0 V c j ⟨n, hn⟩]
  exact congrArg₂ (· + ·) (pay1_apply _) (Finset.sum_congr rfl fun p _ => prod0_blk V c ⟨n, hn⟩ p j)

theorem acc5_B (c : Dev nD) (j : Fin 256) (n : ℕ) (hn : n < cfg0.N) (h0 : ¬ n % 10 = 0) :
    acc5 V c j n = acc5 V c j (n - 1) + Cert.Accum.blockSum (col0 V c j) 5000 n := by
  unfold acc5
  rw [dif_pos hn, dif_pos (Nat.lt_of_le_of_lt (Nat.sub_le _ _) hn)]
  refine (congrFun (outs0_snd_B V c ⟨n, hn⟩ h0) _).trans ?_
  refine (pay4_apply (iblk0 V c 0 ⟨n, hn⟩) (iblk0 V c 2 ⟨n, hn⟩) (iblk0 V c 1 ⟨n, hn⟩) (iblk0 V c 3 ⟨n, hn⟩) _ 0 0 j).trans ?_
  rw [blockSum_col0 V c j ⟨n, hn⟩]
  exact congrArg₂ (· + ·) rfl (Finset.sum_congr rfl fun p _ => prod0_blk V c ⟨n, hn⟩ p j)

theorem acc6_A (c : Dev nD) (j : Fin 256) (n : ℕ) (hn : n < cfg0.N) (h0 : n % 10 = 0) :
    acc6 V c j n = 0 + Cert.Accum.blockSum (colSq0 V c j) 5000 n := by
  unfold acc6
  rw [dif_pos hn]
  refine (congrFun (outs0_trd_A V c ⟨n, hn⟩ h0) _).trans ?_
  refine (pay5_apply (iblk0 V c 0 ⟨n, hn⟩) (iblk0 V c 2 ⟨n, hn⟩) (iblk0 V c 1 ⟨n, hn⟩) (iblk0 V c 3 ⟨n, hn⟩) _ 0 0 j).trans ?_
  rw [blockSum_colSq0 V c j ⟨n, hn⟩]
  exact congrArg₂ (· + ·) (pay2_apply _) (Finset.sum_congr rfl fun p _ => by rw [prod0_blk V c ⟨n, hn⟩ p j])

theorem acc6_B (c : Dev nD) (j : Fin 256) (n : ℕ) (hn : n < cfg0.N) (h0 : ¬ n % 10 = 0) :
    acc6 V c j n = acc6 V c j (n - 1) + Cert.Accum.blockSum (colSq0 V c j) 5000 n := by
  unfold acc6
  rw [dif_pos hn, dif_pos (Nat.lt_of_le_of_lt (Nat.sub_le _ _) hn)]
  refine (congrFun (outs0_trd_B V c ⟨n, hn⟩ h0) _).trans ?_
  refine (pay5_apply (iblk0 V c 0 ⟨n, hn⟩) (iblk0 V c 2 ⟨n, hn⟩) (iblk0 V c 1 ⟨n, hn⟩) (iblk0 V c 3 ⟨n, hn⟩) _ 0 0 j).trans ?_
  rw [blockSum_colSq0 V c j ⟨n, hn⟩]
  exact congrArg₂ (· + ·) rfl (Finset.sum_congr rfl fun p _ => by rw [prod0_blk V c ⟨n, hn⟩ p j])

/-- After the last point of core g's share the running sums are the sums over the core's rows. -/
theorem acc5_last (c : Dev nD) (j : Fin 256) (g : ℕ) (hg : 10 * g + 9 < cfg0.N) :
    acc5 V c j (10 * g + 9) = ∑ r ∈ Finset.Ico (5000 * (10 * g)) (5000 * (10 * (g + 1))), col0 V c j r :=
  Cert.Accum.running_sum_last (col0 V c j) 5000 cfg0.N (acc5 V c j) (acc5_A V c j) (acc5_B V c j) g hg

theorem acc6_last (c : Dev nD) (j : Fin 256) (g : ℕ) (hg : 10 * g + 9 < cfg0.N) :
    acc6 V c j (10 * g + 9) = ∑ r ∈ Finset.Ico (5000 * (10 * g)) (5000 * (10 * (g + 1))), colSq0 V c j r :=
  Cert.Accum.running_sum_last (colSq0 V c j) 5000 cfg0.N (acc6 V c j) (acc6_A V c j) (acc6_B V c j) g hg

end Cert.KernelIdeal.KValue

end
-- ==== Proof.KOut0.lean ====
/-
  The first linear map's region: the three output arrays after the run.

  Every point writes its product block back, and the blocks tile the product array: it ends as the whole product Y.
  A running-sum slab is written back after the last point of its core's share (the points 9 and 19), holding the sum
  of column j of Y — of its square — over the core's 50000 rows.
-/
import proofs.«151600_j50869592655513_2_alg».proof.Proof.KArr0

set_option maxRecDepth 16384

noncomputable section

namespace Cert.KernelIdeal.KValue

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The product array. -/
def G4 (c : Dev nD) : S100000x256.Idx → EReal := fun i => Y0 V c (i 0) (i 1)
/-- The per-core column sums of the product and of its square. -/
def G5 (c : Dev nD) : S2x1x256.Idx → EReal :=
  fun i => ∑ r ∈ Finset.Ico (5000 * (10 * (i 0).val)) (5000 * (10 * ((i 0).val + 1))), col0 V c (i 2) r
def G6 (c : Dev nD) : S2x1x256.Idx → EReal :=
  fun i => ∑ r ∈ Finset.Ico (5000 * (10 * (i 0).val)) (5000 * (10 * ((i 0).val + 1))), colSq0 V c (i 2) r

theorem acc5_eq (c : Dev nD) (j : Fin 256) (n : ℕ) (hn : n < cfg0.N) :
    acc5 V c j n = (outsAt0 V c n hn).2.1 (ix3 (0 : Fin 1) (0 : Fin 1) j) := dif_pos hn
theorem acc6_eq (c : Dev nD) (j : Fin 256) (n : ℕ) (hn : n < cfg0.N) :
    acc6 V c j n = (outsAt0 V c n hn).2.2 (ix3 (0 : Fin 1) (0 : Fin 1) j) := dif_pos hn

/-! ## The product array -/

theorem flushed4 (c : Dev nD) (t : Fin cfg0.N) :
    (dat0 V c).flushed 4 t = ((cfg0.win 4).blk t).view.read (Elt Ideal) (G4 V c) := by
  show (cfg0.win 4).cut (grid0.coords t) ((dat0 V c).after 4 t) = _
  rw [after0_4, outs0_fst]
  funext y
  obtain ⟨p, j, rfl⟩ : ∃ (p : Fin 5000) (j : Fin 256), y = ix2 p j := ⟨y 0, y 1, eq_ix2 y⟩
  show k0_pay3 (F := Ideal) (iblk0 V c 0 t) (iblk0 V c 2 t) (iblk0 V c 1 t) (iblk0 V c 3 t) (ix2 p j) = G4 V c (((cfg0.win 4).blk t).view.emb (ix2 p j))
  refine (pay3_apply (iblk0 V c 0 t) (iblk0 V c 2 t) (iblk0 V c 1 t) (iblk0 V c 3 t) p j).trans ?_
  rw [prod0_blk]
  unfold G4
  obtain ⟨-, -, -, -, -, -, -, -, e0, e1, -⟩ := idx0 t
  congr 1 <;> apply Fin.ext
  · show 5000 * t.val + p.val = win0_4.index t (0 : Fin 2) * 5000 + 1 * p.val; omega
  · show j.val = win0_4.index t (1 : Fin 2) * 256 + 1 * j.val; omega

theorem cover4 (c : Dev nD) (i : S100000x256.Idx) :
    ∃ t : Fin cfg0.N, (cfg0.win 4).flush t = true ∧ i ∈ ((cfg0.win 4).blk t).view.set := by
  have hi0 : (i 0).val < 100000 := (i 0).isLt
  have hi1 : (i 1).val < 256 := (i 1).isLt
  have hN := hN0
  have hlt : (i 0).val / 5000 < cfg0.N := by omega
  refine ⟨⟨(i 0).val / 5000, hlt⟩, flush0_4 _, ?_⟩
  show i ∈ ((View.whole main_v34_0).slice (win0_4.rect ⟨(i 0).val / 5000, hlt⟩)).set
  rw [View.set_slice_whole, Rect.mem_set_unit]
  obtain ⟨-, -, -, -, -, -, -, -, e0, e1, -⟩ := idx0 ⟨(i 0).val / 5000, hlt⟩
  have e0' : win0_4.index ⟨(i 0).val / 5000, hlt⟩ (0 : Fin 2) = (i 0).val / 5000 := e0
  intro a
  match a with
  | ⟨0, _⟩ =>
    show win0_4.index ⟨(i 0).val / 5000, hlt⟩ (0 : Fin 2) * 5000 ≤ (i 0).val ∧ (i 0).val < win0_4.index ⟨(i 0).val / 5000, hlt⟩ (0 : Fin 2) * 5000 + 5000
    omega
  | ⟨1, _⟩ =>
    show win0_4.index ⟨(i 0).val / 5000, hlt⟩ (1 : Fin 2) * 256 ≤ (i 1).val ∧ (i 1).val < win0_4.index ⟨(i 0).val / 5000, hlt⟩ (1 : Fin 2) * 256 + 256
    omega

/-- The product array after the run. -/
theorem final4 (c : Dev nD) : (dat0 V c).arrAt 4 cfg0.N = G4 V c :=
  (dat0 V c).arrAt_eq_of_cover 4 (G4 V c) (fun t _ => flushed4 V c t) (cover4 c)

/-! ## The running-sum array of window 5 -/

theorem flushed5 (c : Dev nD) (t : Fin cfg0.N) (hf : (cfg0.win 5).flush t = true) :
    (dat0 V c).flushed 5 t = ((cfg0.win 5).blk t).view.read (Elt Ideal) (G5 V c) := by
  have h9 : t.val % 10 = 9 := (flush0_5 t).mp hf
  have hlt := t.isLt
  have hN := hN0
  show (cfg0.win 5).cut (grid0.coords t) ((dat0 V c).after 5 t) = _
  rw [after0_5]
  funext y
  obtain ⟨u0, u1, j, rfl⟩ : ∃ (u0 u1 : Fin 1) (j : Fin 256), y = ix3 u0 u1 j := ⟨y 0, y 1, y 2, eq_ix3 y⟩
  obtain rfl : u0 = 0 := Subsingleton.elim _ _
  obtain rfl : u1 = 0 := Subsingleton.elim _ _
  show (outsAt0 V c t.val t.isLt).2.1 (ix3 (0 : Fin 1) (0 : Fin 1) j) = G5 V c (((cfg0.win 5).blk t).view.emb (ix3 (0 : Fin 1) (0 : Fin 1) j))
  have hemb : ((cfg0.win 5).blk t).view.emb (ix3 (0 : Fin 1) (0 : Fin 1) j) = ix3 (⟨t.val / 10, by omega⟩ : Fin 2) (0 : Fin 1) j := by
    obtain ⟨-, -, -, -, -, -, -, -, -, -, e50, e51, e52, e60, e61, e62⟩ := idx0 t
    funext a
    apply Fin.ext
    match a with
    | ⟨0, _⟩ => show win0_5.index t (0 : Fin 3) * 1 + 1 * 0 = t.val / 10; omega
    | ⟨1, _⟩ => show win0_5.index t (1 : Fin 3) * 1 + 1 * 0 = 0; omega
    | ⟨2, _⟩ => show win0_5.index t (2 : Fin 3) * 256 + 1 * j.val = j.val; omega
  rw [hemb]
  have ht : t.val = 10 * (t.val / 10) + 9 := by omega
  have key : acc5 V c j t.val = ∑ r ∈ Finset.Ico (5000 * (10 * (t.val / 10))) (5000 * (10 * (t.val / 10 + 1))), col0 V c j r := by
    have h := acc5_last V c j (t.val / 10) (by omega)
    rwa [← ht] at h
  exact (acc5_eq V c j t.val t.isLt).symm.trans key

theorem cover5 (c : Dev nD) (i : S2x1x256.Idx) :
    ∃ t : Fin cfg0.N, (cfg0.win 5).flush t = true ∧ i ∈ ((cfg0.win 5).blk t).view.set := by
  have hi0 : (i 0).val < 2 := (i 0).isLt
  have hi1 : (i 1).val < 1 := (i 1).isLt
  have hi2 : (i 2).val < 256 := (i 2).isLt
  have hN := hN0
  have hlt : 10 * (i 0).val + 9 < cfg0.N := by omega
  refine ⟨⟨10 * (i 0).val + 9, hlt⟩, (flush0_5 _).mpr (by show (10 * (i 0).val + 9) % 10 = 9; omega), ?_⟩
  show i ∈ ((View.whole main_v34_1).slice (win0_5.rect ⟨10 * (i 0).val + 9, hlt⟩)).set
  rw [View.set_slice_whole, Rect.mem_set_unit]
  obtain ⟨-, -, -, -, -, -, -, -, -, -, e50, e51, e52, e60, e61, e62⟩ := idx0 ⟨10 * (i 0).val + 9, hlt⟩
  have e0' : win0_5.index ⟨10 * (i 0).val + 9, hlt⟩ (0 : Fin 3) = (10 * (i 0).val + 9) / 10 := e50
  intro a
  match a with
  | ⟨0, _⟩ =>
    show win0_5.index ⟨10 * (i 0).val + 9, hlt⟩ (0 : Fin 3) * 1 ≤ (i 0).val ∧ (i 0).val < win0_5.index ⟨10 * (i 0).val + 9, hlt⟩ (0 : Fin 3) * 1 + 1
    omega
  | ⟨1, _⟩ =>
    show win0_5.index ⟨10 * (i 0).val + 9, hlt⟩ (1 : Fin 3) * 1 ≤ (i 1).val ∧ (i 1).val < win0_5.index ⟨10 * (i 0).val + 9, hlt⟩ (1 : Fin 3) * 1 + 1
    omega
  | ⟨2, _⟩ =>
    show win0_5.index ⟨10 * (i 0).val + 9, hlt⟩ (2 : Fin 3) * 256 ≤ (i 2).val ∧ (i 2).val < win0_5.index ⟨10 * (i 0).val + 9, hlt⟩ (2 : Fin 3) * 256 + 256
    omega

theorem final5 (c : Dev nD) : (dat0 V c).arrAt 5 cfg0.N = G5 V c :=
  (dat0 V c).arrAt_eq_of_cover 5 (G5 V c) (fun t hf => flushed5 V c t hf) (cover5 c)

/-! ## The running-sum array of window 6 -/

theorem flushed6 (c : Dev nD) (t : Fin cfg0.N) (hf : (cfg0.win 6).flush t = true) :
    (dat0 V c).flushed 6 t = ((cfg0.win 6).blk t).view.read (Elt Ideal) (G6 V c) := by
  have h9 : t.val % 10 = 9 := (flush0_6 t).mp hf
  have hlt := t.isLt
  have hN := hN0
  show (cfg0.win 6).cut (grid0.coords t) ((dat0 V c).after 6 t) = _
  rw [after0_6]
  funext y
  obtain ⟨u0, u1, j, rfl⟩ : ∃ (u0 u1 : Fin 1) (j : Fin 256), y = ix3 u0 u1 j := ⟨y 0, y 1, y 2, eq_ix3 y⟩
  obtain rfl : u0 = 0 := Subsingleton.elim _ _
  obtain rfl : u1 = 0 := Subsingleton.elim _ _
  show (outsAt0 V c t.val t.isLt).2.2 (ix3 (0 : Fin 1) (0 : Fin 1) j) = G6 V c (((cfg0.win 6).blk t).view.emb (ix3 (0 : Fin 1) (0 : Fin 1) j))
  have hemb : ((cfg0.win 6).blk t).view.emb (ix3 (0 : Fin 1) (0 : Fin 1) j) = ix3 (⟨t.val / 10, by omega⟩ : Fin 2) (0 : Fin 1) j := by
    obtain ⟨-, -, -, -, -, -, -, -, -, -, e50, e51, e52, e60, e61, e62⟩ := idx0 t
    funext a
    apply Fin.ext
    match a with
    | ⟨0, _⟩ => show win0_6.index t (0 : Fin 3) * 1 + 1 * 0 = t.val / 10; omega
    | ⟨1, _⟩ => show win0_6.index t (1 : Fin 3) * 1 + 1 * 0 = 0; omega
    | ⟨2, _⟩ => show win0_6.index t (2 : Fin 3) * 256 + 1 * j.val = j.val; omega
  rw [hemb]
  have ht : t.val = 10 * (t.val / 10) + 9 := by omega
  have key : acc6 V c j t.val = ∑ r ∈ Finset.Ico (5000 * (10 * (t.val / 10))) (5000 * (10 * (t.val / 10 + 1))), colSq0 V c j r := by
    have h := acc6_last V c j (t.val / 10) (by omega)
    rwa [← ht] at h
  exact (acc6_eq V c j t.val t.isLt).symm.trans key

theorem cover6 (c : Dev nD) (i : S2x1x256.Idx) :
    ∃ t : Fin cfg0.N, (cfg0.win 6).flush t = true ∧ i ∈ ((cfg0.win 6).blk t).view.set := by
  have hi0 : (i 0).val < 2 := (i 0).isLt
  have hi1 : (i 1).val < 1 := (i 1).isLt
  have hi2 : (i 2).val < 256 := (i 2).isLt
  have hN := hN0
  have hlt : 10 * (i 0).val + 9 < cfg0.N := by omega
  refine ⟨⟨10 * (i 0).val + 9, hlt⟩, (flush0_6 _).mpr (by show (10 * (i 0).val + 9) % 10 = 9; omega), ?_⟩
  show i ∈ ((View.whole main_v34_2).slice (win0_6.rect ⟨10 * (i 0).val + 9, hlt⟩)).set
  rw [View.set_slice_whole, Rect.mem_set_unit]
  obtain ⟨-, -, -, -, -, -, -, -, -, -, e50, e51, e52, e60, e61, e62⟩ := idx0 ⟨10 * (i 0).val + 9, hlt⟩
  have e0' : win0_6.index ⟨10 * (i 0).val + 9, hlt⟩ (0 : Fin 3) = (10 * (i 0).val + 9) / 10 := e60
  intro a
  match a with
  | ⟨0, _⟩ =>
    show win0_6.index ⟨10 * (i 0).val + 9, hlt⟩ (0 : Fin 3) * 1 ≤ (i 0).val ∧ (i 0).val < win0_6.index ⟨10 * (i 0).val + 9, hlt⟩ (0 : Fin 3) * 1 + 1
    omega
  | ⟨1, _⟩ =>
    show win0_6.index ⟨10 * (i 0).val + 9, hlt⟩ (1 : Fin 3) * 1 ≤ (i 1).val ∧ (i 1).val < win0_6.index ⟨10 * (i 0).val + 9, hlt⟩ (1 : Fin 3) * 1 + 1
    omega
  | ⟨2, _⟩ =>
    show win0_6.index ⟨10 * (i 0).val + 9, hlt⟩ (2 : Fin 3) * 256 ≤ (i 2).val ∧ (i 2).val < win0_6.index ⟨10 * (i 0).val + 9, hlt⟩ (2 : Fin 3) * 256 + 256
    omega

theorem final6 (c : Dev nD) : (dat0 V c).arrAt 6 cfg0.N = G6 V c :=
  (dat0 V c).arrAt_eq_of_cover 6 (G6 V c) (fun t hf => flushed6 V c t hf) (cover6 c)

end Cert.KernelIdeal.KValue

end
-- ==== Proof.Spec.lean ====
/-
  The layer as one function of its arguments, index by index over the extended reals.

  With  h(r,k) = nn(r,k) + ((1 + e) - deg r) * x(r,k)   (the degree-scaled residual added to the aggregated
  messages nn), a linear map against the transposed weight, mm a w (r,j) = Σ_t a(r,t) * w(j,t), and a
  batch normalisation over the rows followed by a clamp at zero,
      norm y mu var g b (r,j) = max ((y(r,j) - mu j) * rsqrt (var j + eps) * g j + b j) 0,
  the result is  bn (mm (bn (mm h W1) g1 b1) W2) g2 b2.

  The batch mean is  mean y j = (Σ_r y(r,j)) / n.  The variance is written in two ways: the mean of the
  squared deviations,  varDev y j = (Σ_r (y(r,j) - mean y j)^2) / n,  and the mean of the squares less the
  squared mean, clamped at zero,  varSq y j = max ((Σ_r y(r,j)^2) / n - (mean y j)^2) 0.  Over real
  entries the two agree (the first is a sum of squares over n, so it is nonnegative and the clamp is idle;
  expanding the square gives the second); over the extended reals they need not, which is why the
  comparison of the two results is made under the hypothesis that every entry is a real number.
-/
import Idealize.ShloMosaic.PureOps.Ideal
import Idealize.ShloMosaic.Lib.ValueIdx

noncomputable section

open scoped BigOperators

namespace Cert.Spec

open Idealize.ShloMosaic

/-- The row count as the divisor both programs spell: the float 100000.0. -/
def nrows : EReal := Ideal.ofBits .f32 0x47C35000#32
/-- The variance offset both programs spell: the float nearest 1e-5. -/
def eps : EReal := Ideal.ofBits .f32 0x3727C5AC#32
/-- The float zero (the clamp's floor and every sum's starting value). -/
def zero : EReal := Ideal.ofBits .f32 0x00000000#32
/-- The float one of the residual's coefficient. -/
def one : EReal := Ideal.ofBits .f32 0x3F800000#32

variable {n k c : ℕ}

/-- The residual input of the first linear map. -/
def resid (nn : Fin n → Fin k → EReal) (e : EReal) (deg : Fin n → EReal) (x : Fin n → Fin k → EReal) :
    Fin n → Fin k → EReal :=
  fun r t => nn r t + ((one + e) - deg r) * x r t

/-- A linear map against the transposed weight. -/
def mm (a : Fin n → Fin k → EReal) (w : Fin c → Fin k → EReal) : Fin n → Fin c → EReal :=
  fun r j => ∑ t : Fin k, a r t * w j t

/-- The column sums. -/
def colSum (y : Fin n → Fin c → EReal) : Fin c → EReal := fun j => ∑ r : Fin n, y r j
/-- The column sums of squares. -/
def colSumSq (y : Fin n → Fin c → EReal) : Fin c → EReal := fun j => ∑ r : Fin n, y r j * y r j

/-- The batch mean. -/
def mean (y : Fin n → Fin c → EReal) : Fin c → EReal := fun j => Ideal.div (colSum y j) nrows

/-- The variance as the mean of the squared deviations. -/
def varDev (y : Fin n → Fin c → EReal) : Fin c → EReal :=
  fun j => Ideal.div (∑ r : Fin n, (y r j - mean y j) * (y r j - mean y j)) nrows

/-- The variance as the mean of the squares less the squared mean, clamped at zero. -/
def varSq (y : Fin n → Fin c → EReal) : Fin c → EReal :=
  fun j => max (Ideal.div (colSumSq y j) nrows - mean y j * mean y j) zero

/-- Normalise by a given mean and variance, scale, shift, clamp at zero. -/
def norm (y : Fin n → Fin c → EReal) (mu var g b : Fin c → EReal) : Fin n → Fin c → EReal :=
  fun r j => max ((y r j - mu j) * Ideal.rsqrt (var j + eps) * g j + b j) zero

/-- Batch normalisation with the variance of deviations. -/
def bnDev (y : Fin n → Fin c → EReal) (g b : Fin c → EReal) : Fin n → Fin c → EReal :=
  norm y (mean y) (varDev y) g b

/-- Batch normalisation with the clamped variance of squares. -/
def bnSq (y : Fin n → Fin c → EReal) (g b : Fin c → EReal) : Fin n → Fin c → EReal :=
  norm y (mean y) (varSq y) g b

/-- The whole layer with the variance of deviations. -/
def layerDev (nn : Fin 100000 → Fin 128 → EReal) (e : EReal) (deg : Fin 100000 → EReal) (x : Fin 100000 → Fin 128 → EReal)
    (W1 : Fin 256 → Fin 128 → EReal) (g1 b1 : Fin 256 → EReal) (W2 : Fin 128 → Fin 256 → EReal) (g2 b2 : Fin 128 → EReal) :
    Fin 100000 → Fin 128 → EReal :=
  bnDev (mm (bnDev (mm (resid nn e deg x) W1) g1 b1) W2) g2 b2

/-- The whole layer with the clamped variance of squares. -/
def layerSq (nn : Fin 100000 → Fin 128 → EReal) (e : EReal) (deg : Fin 100000 → EReal) (x : Fin 100000 → Fin 128 → EReal)
    (W1 : Fin 256 → Fin 128 → EReal) (g1 b1 : Fin 256 → EReal) (W2 : Fin 128 → Fin 256 → EReal) (g2 b2 : Fin 128 → EReal) :
    Fin 100000 → Fin 128 → EReal :=
  bnSq (mm (bnSq (mm (resid nn e deg x) W1) g1 b1) W2) g2 b2

/-- An extended real that is a real number. -/
def IsReal (v : EReal) : Prop := ∃ r : ℝ, v = (r : EReal)

end Cert.Spec

end
-- ==== Proof.KPay1.lean ====
/-
  The second linear map's payloads read at an index, over the extended reals.

  For one grid point's block y of the first map's output (5000 rows) and the one-row arrays mu, var, g, b:
    the normalised entry at (p, j) is  a(p,j) = max ((y(p,j) - mu(0,j)) · rsqrt (var(0,j) + eps) · g(0,j) + b(0,j)) 0;
    the product block at (p, d) is  Σ_j a(p,j) · w(j,d);
    the column-sum payloads add, to what was there, the sum over the block's rows of the product, and of its square.
-/
import proofs.«151600_j50869592655513_2_alg».proof.Proof.Gen.KernelIdeal.Frame
import proofs.«151600_j50869592655513_2_alg».proof.Proof.Spec
import proofs.«151600_j50869592655513_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KValue

open Cert.KernelIdeal Cert.KernelIdeal.Gen Cert.KernelIdeal.Facts₀ Cert.KernelIdeal.Facts
open Idealize.ShloMosaic Idealize.ShloMosaic.ValueIdx
open scoped BigOperators

/-- The normalised, scaled, shifted and clamped entry. -/
def act1 (v3 : Vec Ideal S5000x256 .f32) (v5 v7 v9 v11 : Vec Ideal S1x256 .f32) (p : Fin 5000) (j : Fin 256) : EReal :=
  max ((v3 (ix2 p j) - v5 (ix2 (0 : Fin 1) j)) * Ideal.rsqrt (v7 (ix2 (0 : Fin 1) j) + Cert.Spec.eps) * v9 (ix2 (0 : Fin 1) j)
    + v11 (ix2 (0 : Fin 1) j)) Cert.Spec.zero

/-- The product block at row p, column d. -/
def prod1 (v3 : Vec Ideal S5000x256 .f32) (v5 v7 v9 v11 : Vec Ideal S1x256 .f32) (v27 : Vec Ideal S256x128 .f32) (p : Fin 5000) (d : Fin 128) : EReal :=
  ∑ j : Fin 256, act1 v3 v5 v7 v9 v11 p j * v27 (ix2 j d)

theorem pay5_1_apply (v3 : Vec Ideal S5000x256 .f32) (v5 v7 v9 v11 : Vec Ideal S1x256 .f32) (v27 : Vec Ideal S256x128 .f32) (p : Fin 5000) (d : Fin 128) :
    k1_pay5 (F := Ideal) v3 v5 v7 v9 v11 v27 (ix2 p d) = prod1 v3 v5 v7 v9 v11 v27 p d := by
  unfold k1_pay5 prod1
  refine (PlainDot.matmul_apply_ix2 (M := 5000) (K := 256) (N := 128) none _ _ p d).trans ?_
  refine Finset.sum_congr rfl fun j _ => ?_
  unfold act1 Cert.Spec.eps Cert.Spec.zero
  simp only [truncf_apply, maximumf_apply, addf_apply, mulf_apply, subf_apply, shapeCast_self, broadcast_apply]
  rw [broadcastTo_1b_ab_apply, broadcastTo_1b_ab_apply, broadcastTo_1b_ab_apply, broadcastTo_1b_ab_apply]
  rfl

theorem lift1 (h : S5000x128.Reduces [0] S128) (d : Fin 128) (p : Fin 5000) : h.lift (ix1 d) p = ix2 p d := by
  funext a
  apply Fin.ext
  match a with
  | ⟨0, _⟩ => rfl
  | ⟨1, _⟩ => rfl

/-- The block's column sums of the product. -/
theorem pay6_1_apply (v3 : Vec Ideal S5000x256 .f32) (v5 v7 v9 v11 : Vec Ideal S1x256 .f32) (v27 : Vec Ideal S256x128 .f32) (u : Fin 1) (d : Fin 128) :
    k1_pay6 (F := Ideal) v3 v5 v7 v9 v11 v27 (ix2 u d) = ∑ p : Fin 5000, prod1 v3 v5 v7 v9 v11 v27 p d := by
  unfold k1_pay6
  refine (shapeCast_a_1a_apply _ _ u d).trans ?_
  refine (Ideal.multiReduction_add_single _ _ _ _ _ (ix1 d)).trans ?_
  refine Finset.sum_congr rfl fun p _ => ?_
  exact (congrArg _ (lift1 _ d p)).trans (pay5_1_apply v3 v5 v7 v9 v11 v27 p d)

/-- The product's square. -/
theorem pay7_1_apply (v3 : Vec Ideal S5000x256 .f32) (v5 v7 v9 v11 : Vec Ideal S1x256 .f32) (v27 : Vec Ideal S256x128 .f32) (p : Fin 5000) (d : Fin 128) :
    k1_pay7 (F := Ideal) v3 v5 v7 v9 v11 v27 (ix2 p d) = prod1 v3 v5 v7 v9 v11 v27 p d * prod1 v3 v5 v7 v9 v11 v27 p d := by
  unfold k1_pay7
  refine (mulf_apply _ _ _).trans ?_
  rw [pay5_1_apply v3 v5 v7 v9 v11 v27 p d]

/-- The column-sum payload: what was there plus the block's column sums. -/
theorem pay1_1_apply (v33 : FVec Ideal S1x128 .f32) (v37 : Vec Ideal S1x1x128 .f32) (u0 u1 : Fin 1) (d : Fin 128) :
    k1_pay1 (F := Ideal) v33 v37 (ix3 u0 u1 d) = v37 (ix3 u0 u1 d) + v33 (ix2 u1 d) := by
  unfold k1_pay1
  refine (addf_apply _ _ _).trans ?_
  exact congrArg₂ (· + ·) (congrFun (shapeCast_self _ _) _) (shapeCast_ab_1ab_apply _ _ u0 u1 d)

/-- The squares' payload: what was there plus the block's column sums of the squares. -/
theorem pay2_1_apply (v34 : FVec Ideal S5000x128 .f32) (v42 : Vec Ideal S1x1x128 .f32) (u0 u1 : Fin 1) (d : Fin 128) :
    k1_pay2 (F := Ideal) v34 v42 (ix3 u0 u1 d) = v42 (ix3 u0 u1 d) + ∑ p : Fin 5000, v34 (ix2 p d) := by
  unfold k1_pay2
  refine (addf_apply _ _ _).trans ?_
  refine congrArg₂ (· + ·) (congrFun (shapeCast_self _ _) _) ?_
  refine (shapeCast_ab_1ab_apply _ _ u0 u1 d).trans ?_
  refine (shapeCast_a_1a_apply _ _ u1 d).trans ?_
  refine (Ideal.multiReduction_add_single _ _ _ _ _ (ix1 d)).trans ?_
  refine Finset.sum_congr rfl fun p _ => ?_
  exact congrArg _ (lift1 _ d p)

theorem pay3_1_apply (i : S1x1x128.Idx) : k1_pay3 (F := Ideal) i = 0 := by
  unfold k1_pay3
  exact Ideal.ofBits_zero_f32
theorem pay4_1_apply (i : S1x1x128.Idx) : k1_pay4 (F := Ideal) i = 0 := by
  unfold k1_pay4
  exact Ideal.ofBits_zero_f32

end Cert.KernelIdeal.KValue

end
-- ==== Proof.KPieces1.lean ====
/-
  What one grid point of the second linear map leaves in its three output blocks, as values.

  The body normalises the point's block of the first map's output with the batch mean and variance, scales, shifts and
  clamps it at zero, multiplies by the transposed second weight, stores the product as the point's block of the first
  output, and adds the product's column sums, and those of its square, into the two running-sum blocks — from the zero
  just stored at the first point of a core's share, from what the point before left otherwise.
-/
import proofs.«151600_j50869592655513_2_alg».proof.Proof.KPieces0

set_option maxRecDepth 16384

noncomputable section

namespace Cert.KernelIdeal.KValue

open Cert.KernelIdeal Cert.KernelIdeal.Gen Idealize.ShloMosaic Idealize.ShloMosaic.TcCoe Idealize.ShloMosaic.Tactic Idealize.SL.Sem

variable {F : FTy → Type} [FloatOps F]

theorem out1_A_6_eq (c : Dev nD) (i : grid1.Coords) (arg2 : Memref sig .tc .vmem S5000x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x128 .f32) (harg7 : arg7.IsWhole) (arg8 : Memref sig .tc .vmem S5000x128 .f32) (harg8 : arg8.IsWhole) (arg9 : Memref sig .tc .vmem S1x1x128 .f32) (harg9 : arg9.IsWhole) (arg10 : Memref sig .tc .vmem S1x1x128 .f32) (harg10 : arg10.IsWhole) (hc0 : cond1_0 i) (x0 : Vec F S5000x256 .f32) (x1 : Vec F S1x256 .f32) (x2 : Vec F S1x256 .f32) (x3 : Vec F S1x256 .f32) (x4 : Vec F S1x256 .f32) (x5 : Vec F S256x128 .f32) :
    out1_A_6 c i arg2 harg2 arg3 harg3 arg4 harg4 arg5 harg5 arg6 harg6 arg7 harg7 arg8 harg8 arg9 harg9 arg10 harg10 hc0 x0 x1 x2 x3 x4 x5 = k1_pay5 x0 x1 x2 x3 x4 x5 := by
  unfold out1_A_6
  rw [View.read_writes_eq_canon _ _ _ (cover1_A_6 c i arg2 harg2 arg3 harg3 arg4 harg4 arg5 harg5 arg6 harg6 arg7 harg7 arg8 harg8 arg9 harg9 arg10 harg10 hc0 x0 x1 x2 x3 x4 x5)]
  unfold kernelRun1_A
  dsimp only
  sl_unfold_words
  rw [View.canon_unit_zero hz2]
  simp only [View.readAt_eq_ld, harg2.read_unread, harg3.read_unread, harg4.read_unread, harg5.read_unread, harg6.read_unread, harg7.read_unread, harg9.read_unread, harg10.read_unread,
    View.ld_unit_zero (S := S5000x256) hz2, View.ld_unit_zero (S := S1x256) hz2, View.ld_unit_zero (S := S256x128) hz2, View.ld_unit_zero (S := S1x1x128) hz3]

theorem out1_A_7_eq (c : Dev nD) (i : grid1.Coords) (arg2 : Memref sig .tc .vmem S5000x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x128 .f32) (harg7 : arg7.IsWhole) (arg8 : Memref sig .tc .vmem S5000x128 .f32) (harg8 : arg8.IsWhole) (arg9 : Memref sig .tc .vmem S1x1x128 .f32) (harg9 : arg9.IsWhole) (arg10 : Memref sig .tc .vmem S1x1x128 .f32) (harg10 : arg10.IsWhole) (hc0 : cond1_0 i) (x0 : Vec F S5000x256 .f32) (x1 : Vec F S1x256 .f32) (x2 : Vec F S1x256 .f32) (x3 : Vec F S1x256 .f32) (x4 : Vec F S1x256 .f32) (x5 : Vec F S256x128 .f32) :
    out1_A_7 c i arg2 harg2 arg3 harg3 arg4 harg4 arg5 harg5 arg6 harg6 arg7 harg7 arg8 harg8 arg9 harg9 arg10 harg10 hc0 x0 x1 x2 x3 x4 x5 = k1_pay1 (k1_pay6 x0 x1 x2 x3 x4 x5) (k1_pay3 (F := F)) := by
  unfold out1_A_7
  rw [View.read_writes_eq_canon _ _ _ (cover1_A_7 c i arg2 harg2 arg3 harg3 arg4 harg4 arg5 harg5 arg6 harg6 arg7 harg7 arg8 harg8 arg9 harg9 arg10 harg10 hc0 x0 x1 x2 x3 x4 x5)]
  unfold kernelRun1_A
  dsimp only
  sl_unfold_words
  rw [View.canon_cons_unit_zero (S := S1x1x128) hz3, View.readCov_unit_zero (S := S1x1x128) _ hz3]
  simp only [View.readAt_eq_ld, harg2.read_unread, harg3.read_unread, harg4.read_unread, harg5.read_unread, harg6.read_unread, harg7.read_unread, harg9.read_unread, harg10.read_unread,
    View.ld_unit_zero (S := S5000x256) hz2, View.ld_unit_zero (S := S1x256) hz2, View.ld_unit_zero (S := S256x128) hz2, View.ld_unit_zero (S := S1x1x128) hz3]

theorem out1_A_8_eq (c : Dev nD) (i : grid1.Coords) (arg2 : Memref sig .tc .vmem S5000x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x128 .f32) (harg7 : arg7.IsWhole) (arg8 : Memref sig .tc .vmem S5000x128 .f32) (harg8 : arg8.IsWhole) (arg9 : Memref sig .tc .vmem S1x1x128 .f32) (harg9 : arg9.IsWhole) (arg10 : Memref sig .tc .vmem S1x1x128 .f32) (harg10 : arg10.IsWhole) (hc0 : cond1_0 i) (x0 : Vec F S5000x256 .f32) (x1 : Vec F S1x256 .f32) (x2 : Vec F S1x256 .f32) (x3 : Vec F S1x256 .f32) (x4 : Vec F S1x256 .f32) (x5 : Vec F S256x128 .f32) :
    out1_A_8 c i arg2 harg2 arg3 harg3 arg4 harg4 arg5 harg5 arg6 harg6 arg7 harg7 arg8 harg8 arg9 harg9 arg10 harg10 hc0 x0 x1 x2 x3 x4 x5 = k1_pay2 (k1_pay7 x0 x1 x2 x3 x4 x5) (k1_pay4 (F := F)) := by
  unfold out1_A_8
  rw [View.read_writes_eq_canon _ _ _ (cover1_A_8 c i arg2 harg2 arg3 harg3 arg4 harg4 arg5 harg5 arg6 harg6 arg7 harg7 arg8 harg8 arg9 harg9 arg10 harg10 hc0 x0 x1 x2 x3 x4 x5)]
  unfold kernelRun1_A
  dsimp only
  sl_unfold_words
  rw [View.canon_cons_unit_zero (S := S1x1x128) hz3, View.readCov_unit_zero (S := S1x1x128) _ hz3]
  simp only [View.readAt_eq_ld, harg2.read_unread, harg3.read_unread, harg4.read_unread, harg5.read_unread, harg6.read_unread, harg7.read_unread, harg9.read_unread, harg10.read_unread,
    View.ld_unit_zero (S := S5000x256) hz2, View.ld_unit_zero (S := S1x256) hz2, View.ld_unit_zero (S := S256x128) hz2, View.ld_unit_zero (S := S1x1x128) hz3]

theorem out1_B_6_eq (c : Dev nD) (i : grid1.Coords) (arg2 : Memref sig .tc .vmem S5000x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x128 .f32) (harg7 : arg7.IsWhole) (arg8 : Memref sig .tc .vmem S5000x128 .f32) (harg8 : arg8.IsWhole) (arg9 : Memref sig .tc .vmem S1x1x128 .f32) (harg9 : arg9.IsWhole) (arg10 : Memref sig .tc .vmem S1x1x128 .f32) (harg10 : arg10.IsWhole) (hc0 : ¬cond1_0 i) (x0 : Vec F S5000x256 .f32) (x1 : Vec F S1x256 .f32) (x2 : Vec F S1x256 .f32) (x3 : Vec F S1x256 .f32) (x4 : Vec F S1x256 .f32) (x5 : Vec F S256x128 .f32) (xo7 : Vec F S1x1x128 .f32) (xo8 : Vec F S1x1x128 .f32) :
    out1_B_6 c i arg2 harg2 arg3 harg3 arg4 harg4 arg5 harg5 arg6 harg6 arg7 harg7 arg8 harg8 arg9 harg9 arg10 harg10 hc0 x0 x1 x2 x3 x4 x5 xo7 xo8 = k1_pay5 x0 x1 x2 x3 x4 x5 := by
  unfold out1_B_6
  rw [View.read_writes_eq_canon _ _ _ (cover1_B_6 c i arg2 harg2 arg3 harg3 arg4 harg4 arg5 harg5 arg6 harg6 arg7 harg7 arg8 harg8 arg9 harg9 arg10 harg10 hc0 x0 x1 x2 x3 x4 x5 xo7 xo8)]
  unfold kernelRun1_B
  dsimp only
  sl_unfold_words
  rw [View.canon_unit_zero hz2]
  simp only [View.readAt_eq_ld, harg2.read_unread, harg3.read_unread, harg4.read_unread, harg5.read_unread, harg6.read_unread, harg7.read_unread, harg9.read_unread, harg10.read_unread,
    View.ld_unit_zero (S := S5000x256) hz2, View.ld_unit_zero (S := S1x256) hz2, View.ld_unit_zero (S := S256x128) hz2, View.ld_unit_zero (S := S1x1x128) hz3]

theorem out1_B_7_eq (c : Dev nD) (i : grid1.Coords) (arg2 : Memref sig .tc .vmem S5000x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x128 .f32) (harg7 : arg7.IsWhole) (arg8 : Memref sig .tc .vmem S5000x128 .f32) (harg8 : arg8.IsWhole) (arg9 : Memref sig .tc .vmem S1x1x128 .f32) (harg9 : arg9.IsWhole) (arg10 : Memref sig .tc .vmem S1x1x128 .f32) (harg10 : arg10.IsWhole) (hc0 : ¬cond1_0 i) (x0 : Vec F S5000x256 .f32) (x1 : Vec F S1x256 .f32) (x2 : Vec F S1x256 .f32) (x3 : Vec F S1x256 .f32) (x4 : Vec F S1x256 .f32) (x5 : Vec F S256x128 .f32) (xo7 : Vec F S1x1x128 .f32) (xo8 : Vec F S1x1x128 .f32) :
    out1_B_7 c i arg2 harg2 arg3 harg3 arg4 harg4 arg5 harg5 arg6 harg6 arg7 harg7 arg8 harg8 arg9 harg9 arg10 harg10 hc0 x0 x1 x2 x3 x4 x5 xo7 xo8 = k1_pay1 (k1_pay6 x0 x1 x2 x3 x4 x5) xo7 := by
  unfold out1_B_7
  rw [View.read_writes_eq_canon _ _ _ (cover1_B_7 c i arg2 harg2 arg3 harg3 arg4 harg4 arg5 harg5 arg6 harg6 arg7 harg7 arg8 harg8 arg9 harg9 arg10 harg10 hc0 x0 x1 x2 x3 x4 x5 xo7 xo8)]
  unfold kernelRun1_B
  dsimp only
  sl_unfold_words
  rw [View.canon_unit_zero hz3]
  simp only [View.readAt_eq_ld, harg2.read_unread, harg3.read_unread, harg4.read_unread, harg5.read_unread, harg6.read_unread, harg7.read_unread, harg9.read_unread, harg10.read_unread,
    View.ld_unit_zero (S := S5000x256) hz2, View.ld_unit_zero (S := S1x256) hz2, View.ld_unit_zero (S := S256x128) hz2, View.ld_unit_zero (S := S1x1x128) hz3]

theorem out1_B_8_eq (c : Dev nD) (i : grid1.Coords) (arg2 : Memref sig .tc .vmem S5000x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x128 .f32) (harg7 : arg7.IsWhole) (arg8 : Memref sig .tc .vmem S5000x128 .f32) (harg8 : arg8.IsWhole) (arg9 : Memref sig .tc .vmem S1x1x128 .f32) (harg9 : arg9.IsWhole) (arg10 : Memref sig .tc .vmem S1x1x128 .f32) (harg10 : arg10.IsWhole) (hc0 : ¬cond1_0 i) (x0 : Vec F S5000x256 .f32) (x1 : Vec F S1x256 .f32) (x2 : Vec F S1x256 .f32) (x3 : Vec F S1x256 .f32) (x4 : Vec F S1x256 .f32) (x5 : Vec F S256x128 .f32) (xo7 : Vec F S1x1x128 .f32) (xo8 : Vec F S1x1x128 .f32) :
    out1_B_8 c i arg2 harg2 arg3 harg3 arg4 harg4 arg5 harg5 arg6 harg6 arg7 harg7 arg8 harg8 arg9 harg9 arg10 harg10 hc0 x0 x1 x2 x3 x4 x5 xo7 xo8 = k1_pay2 (k1_pay7 x0 x1 x2 x3 x4 x5) xo8 := by
  unfold out1_B_8
  rw [View.read_writes_eq_canon _ _ _ (cover1_B_8 c i arg2 harg2 arg3 harg3 arg4 harg4 arg5 harg5 arg6 harg6 arg7 harg7 arg8 harg8 arg9 harg9 arg10 harg10 hc0 x0 x1 x2 x3 x4 x5 xo7 xo8)]
  unfold kernelRun1_B
  dsimp only
  sl_unfold_words
  rw [View.canon_unit_zero hz3]
  simp only [View.readAt_eq_ld, harg2.read_unread, harg3.read_unread, harg4.read_unread, harg5.read_unread, harg6.read_unread, harg7.read_unread, harg9.read_unread, harg10.read_unread,
    View.ld_unit_zero (S := S5000x256) hz2, View.ld_unit_zero (S := S1x256) hz2, View.ld_unit_zero (S := S256x128) hz2, View.ld_unit_zero (S := S1x1x128) hz3]

end Cert.KernelIdeal.KValue

end
-- ==== Proof.KReg1.lean ====
/-
  The second linear map's region, read as values: where a grid point's blocks sit in the whole arrays.

  The grid is 2 × 10, point t = 10·core + step; the row blocks of the first map's output and of the product have index t
  (rows 5000·t … 5000·t + 4999), the mean, variance, scale, shift and transposed weight are one block each, and the two
  running-sum outputs have block index t / 10. So the product block at a point, at row p and column d, is the whole product
      Z(r, d) = Σ_j max ((y(r,j) - mu(0,j)) · rsqrt (var(0,j) + eps) · g(0,j) + b(0,j)) 0 · w(j,d)    at  r = 5000·t + p.
-/
import proofs.«151600_j50869592655513_2_alg».proof.Proof.KPay1
import proofs.«151600_j50869592655513_2_alg».proof.Proof.KPieces1
import proofs.«151600_j50869592655513_2_alg».proof.Proof.LibRunningSum

set_option maxRecDepth 16384

noncomputable section

namespace Cert.KernelIdeal.KValue

open Cert.KernelIdeal Cert.KernelIdeal.Gen
open Idealize.ShloMosaic Idealize.ShloMosaic.TcCoe Idealize.ShloMosaic.ValueIdx Idealize.SL.Sem
open scoped BigOperators

variable (V : (c : Dev nD) → (b : Ref sig .tc) → Buf (Elt Ideal) ((c : Thread nD τ).loc b))

/-- The six arrays the region reads, as functions into the extended reals. -/
abbrev bY (c : Dev nD) : S100000x256.Idx → EReal := V c main_v34_0
abbrev bMu (c : Dev nD) : S1x256.Idx → EReal := V c main_v38
abbrev bVar (c : Dev nD) : S1x256.Idx → EReal := V c main_v44
abbrev bG (c : Dev nD) : S1x256.Idx → EReal := V c main_v30
abbrev bB (c : Dev nD) : S1x256.Idx → EReal := V c main_v31
abbrev bW (c : Dev nD) : S256x128.Idx → EReal := V c main_v29

/-- The whole normalised, clamped array and its product with the weight, at a global row. -/
def A1 (c : Dev nD) (r : Fin 100000) (j : Fin 256) : EReal :=
  max ((bY V c (ix2 r j) - bMu V c (ix2 (0 : Fin 1) j)) * Ideal.rsqrt (bVar V c (ix2 (0 : Fin 1) j) + Cert.Spec.eps)
    * bG V c (ix2 (0 : Fin 1) j) + bB V c (ix2 (0 : Fin 1) j)) Cert.Spec.zero
def Z1 (c : Dev nD) (r : Fin 100000) (d : Fin 128) : EReal := ∑ j : Fin 256, A1 V c r j * bW V c (ix2 j d)

theorem hN1 : cfg1.N = 20 := N_1

/-- The printed index maps over the grid. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 3) = t.val / 10 ∧ win1_7.index t (1 : Fin 3) = 0 ∧ win1_7.index t (2 : Fin 3) = 0
    ∧ win1_8.index t (0 : Fin 3) = t.val / 10 ∧ win1_8.index t (1 : Fin 3) = 0 ∧ win1_8.index t (2 : Fin 3) = 0 :=
  (by decide +kernel : ∀ t : Fin grid1.N, _)

/-- The global row of a block's row. -/
abbrev grow1 (t : Fin cfg1.N) (p : Fin 5000) : Fin 100000 :=
  ⟨5000 * t.val + p.val, by have := t.isLt; have := hN1; have := p.isLt; omega⟩

theorem iblk1_0_apply (c : Dev nD) (t : Fin cfg1.N) (p : Fin 5000) (j : Fin 256) :
    iblk1 V c 0 t (ix2 p j) = bY V c (ix2 (grow1 t p) j) := by
  unfold iblk1
  rw [View.read_apply]
  show V c main_v34_0 (((cfg1.win 0).blk t).view.emb (ix2 p j)) = _
  congr 1
  funext a
  apply Fin.ext
  obtain ⟨e00, e01, e10, e11, e20, e21, e30, e31, e40, e41, e50, e51, e60, e61, -⟩ := idx1 t
  match a with
  | ⟨0, _⟩ => show win1_0.index t (0 : Fin 2) * 5000 + 1 * p.val = 5000 * t.val + p.val; omega
  | ⟨1, _⟩ => show win1_0.index t (1 : Fin 2) * 256 + 1 * j.val = j.val; omega

theorem iblk1_1_apply (c : Dev nD) (t : Fin cfg1.N) (u : Fin 1) (j : Fin 256) :
    iblk1 V c 1 t (ix2 u j) = bMu V c (ix2 u j) := by
  unfold iblk1
  rw [View.read_apply]
  show V c main_v38 (((cfg1.win 1).blk t).view.emb (ix2 u j)) = _
  congr 1
  funext a
  apply Fin.ext
  obtain ⟨e00, e01, e10, e11, e20, e21, e30, e31, e40, e41, e50, e51, e60, e61, -⟩ := idx1 t
  match a with
  | ⟨0, _⟩ => show win1_1.index t (0 : Fin 2) * 1 + 1 * u.val = u.val; omega
  | ⟨1, _⟩ => show win1_1.index t (1 : Fin 2) * 256 + 1 * j.val = j.val; omega

theorem iblk1_2_apply (c : Dev nD) (t : Fin cfg1.N) (u : Fin 1) (j : Fin 256) :
    iblk1 V c 2 t (ix2 u j) = bVar V c (ix2 u j) := by
  unfold iblk1
  rw [View.read_apply]
  show V c main_v44 (((cfg1.win 2).blk t).view.emb (ix2 u j)) = _
  congr 1
  funext a
  apply Fin.ext
  obtain ⟨e00, e01, e10, e11, e20, e21, e30, e31, e40, e41, e50, e51, e60, e61, -⟩ := idx1 t
  match a with
  | ⟨0, _⟩ => show win1_2.index t (0 : Fin 2) * 1 + 1 * u.val = u.val; omega
  | ⟨1, _⟩ => show win1_2.index t (1 : Fin 2) * 256 + 1 * j.val = j.val; omega

theorem iblk1_3_apply (c : Dev nD) (t : Fin cfg1.N) (u : Fin 1) (j : Fin 256) :
    iblk1 V c 3 t (ix2 u j) = bG V c (ix2 u j) := by
  unfold iblk1
  rw [View.read_apply]
  show V c main_v30 (((cfg1.win 3).blk t).view.emb (ix2 u j)) = _
  congr 1
  funext a
  apply Fin.ext
  obtain ⟨e00, e01, e10, e11, e20, e21, e30, e31, e40, e41, e50, e51, e60, e61, -⟩ := idx1 t
  match a with
  | ⟨0, _⟩ => show win1_3.index t (0 : Fin 2) * 1 + 1 * u.val = u.val; omega
  | ⟨1, _⟩ => show win1_3.index t (1 : Fin 2) * 256 + 1 * j.val = j.val; omega

theorem iblk1_4_apply (c : Dev nD) (t : Fin cfg1.N) (u : Fin 1) (j : Fin 256) :
    iblk1 V c 4 t (ix2 u j) = bB V c (ix2 u j) := by
  unfold iblk1
  rw [View.read_apply]
  show V c main_v31 (((cfg1.win 4).blk t).view.emb (ix2 u j)) = _
  congr 1
  funext a
  apply Fin.ext
  obtain ⟨e00, e01, e10, e11, e20, e21, e30, e31, e40, e41, e50, e51, e60, e61, -⟩ := idx1 t
  match a with
  | ⟨0, _⟩ => show win1_4.index t (0 : Fin 2) * 1 + 1 * u.val = u.val; omega
  | ⟨1, _⟩ => show win1_4.index t (1 : Fin 2) * 256 + 1 * j.val = j.val; omega

theorem iblk1_5_apply (c : Dev nD) (t : Fin cfg1.N) (j : Fin 256) (d : Fin 128) :
    iblk1 V c 5 t (ix2 j d) = bW V c (ix2 j d) := by
  unfold iblk1
  rw [View.read_apply]
  show V c main_v29 (((cfg1.win 5).blk t).view.emb (ix2 j d)) = _
  congr 1
  funext a
  apply Fin.ext
  obtain ⟨e00, e01, e10, e11, e20, e21, e30, e31, e40, e41, e50, e51, e60, e61, -⟩ := idx1 t
  match a with
  | ⟨0, _⟩ => show win1_5.index t (0 : Fin 2) * 256 + 1 * j.val = j.val; omega
  | ⟨1, _⟩ => show win1_5.index t (1 : Fin 2) * 128 + 1 * d.val = d.val; omega

/-- The product block of a point is the whole product at the block's global rows. -/
theorem prod1_blk (c : Dev nD) (t : Fin cfg1.N) (p : Fin 5000) (d : Fin 128) :
    prod1 (iblk1 V c 0 t) (iblk1 V c 1 t) (iblk1 V c 2 t) (iblk1 V c 3 t) (iblk1 V c 4 t) (iblk1 V c 5 t) p d = Z1 V c (grow1 t p) d := by
  unfold prod1 Z1 act1 A1
  refine Finset.sum_congr rfl fun j _ => ?_
  rw [iblk1_0_apply, iblk1_1_apply, iblk1_2_apply, iblk1_3_apply, iblk1_4_apply, iblk1_5_apply]

end Cert.KernelIdeal.KValue

end
-- ==== Proof.KFin1.lean ====
/-
  The second linear map's region: the three staging blocks after a point, by the point's case.

  After every grid point the first output's staging block is the product block of that point; the two running-sum
  blocks hold the block's column sums of the product, and of its square, added to the zero just stored (first point of
  a core's share) or to what the point before left (every other point).
-/
import proofs.«151600_j50869592655513_2_alg».proof.Proof.KReg1

set_option maxRecDepth 16384

noncomputable section

namespace Cert.KernelIdeal.KValue

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem outs1_fst (c : Dev nD) (t : Fin cfg1.N) :
    (outsAt1 V c t.val t.isLt).1 = k1_pay5 (F := Ideal) (iblk1 V c 0 t) (iblk1 V c 1 t) (iblk1 V c 2 t) (iblk1 V c 3 t) (iblk1 V c 4 t) (iblk1 V c 5 t) := by
  by_cases h0 : t.val % 10 = 0
  · rw [outsAt1_A V c t h0]
    dsimp only
    exact out1_A_6_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) ((hcond1_0 t).mpr h0) (iblk1 V c 0 t) (iblk1 V c 1 t) (iblk1 V c 2 t) (iblk1 V c 3 t) (iblk1 V c 4 t) (iblk1 V c 5 t)
  · rw [outsAt1_B V c t h0]
    dsimp only
    exact out1_B_6_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (fun h => h0 ((hcond1_0 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2

theorem outs1_snd_A (c : Dev nD) (t : Fin cfg1.N) (h0 : t.val % 10 = 0) :
    (outsAt1 V c t.val t.isLt).2.1 = k1_pay1 (F := Ideal) (k1_pay6 (F := Ideal) (iblk1 V c 0 t) (iblk1 V c 1 t) (iblk1 V c 2 t) (iblk1 V c 3 t) (iblk1 V c 4 t) (iblk1 V c 5 t)) (k1_pay3 (F := Ideal)) := by
  rw [outsAt1_A V c t h0]
  dsimp only
  exact out1_A_7_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) ((hcond1_0 t).mpr h0) (iblk1 V c 0 t) (iblk1 V c 1 t) (iblk1 V c 2 t) (iblk1 V c 3 t) (iblk1 V c 4 t) (iblk1 V c 5 t)

theorem outs1_snd_B (c : Dev nD) (t : Fin cfg1.N) (h0 : ¬ t.val % 10 = 0) :
    (outsAt1 V c t.val t.isLt).2.1 = k1_pay1 (F := Ideal) (k1_pay6 (F := Ideal) (iblk1 V c 0 t) (iblk1 V c 1 t) (iblk1 V c 2 t) (iblk1 V c 3 t) (iblk1 V c 4 t) (iblk1 V c 5 t)) (outsAt1 V c (t.val - 1) (Nat.lt_of_le_of_lt (Nat.sub_le _ _) t.isLt)).2.1 := by
  rw [outsAt1_B V c t h0]
  dsimp only
  exact out1_B_7_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (fun h => h0 ((hcond1_0 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2

theorem outs1_trd_A (c : Dev nD) (t : Fin cfg1.N) (h0 : t.val % 10 = 0) :
    (outsAt1 V c t.val t.isLt).2.2 = k1_pay2 (F := Ideal) (k1_pay7 (F := Ideal) (iblk1 V c 0 t) (iblk1 V c 1 t) (iblk1 V c 2 t) (iblk1 V c 3 t) (iblk1 V c 4 t) (iblk1 V c 5 t)) (k1_pay4 (F := Ideal)) := by
  rw [outsAt1_A V c t h0]
  dsimp only
  exact out1_A_8_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) ((hcond1_0 t).mpr h0) (iblk1 V c 0 t) (iblk1 V c 1 t) (iblk1 V c 2 t) (iblk1 V c 3 t) (iblk1 V c 4 t) (iblk1 V c 5 t)

theorem outs1_trd_B (c : Dev nD) (t : Fin cfg1.N) (h0 : ¬ t.val % 10 = 0) :
    (outsAt1 V c t.val t.isLt).2.2 = k1_pay2 (F := Ideal) (k1_pay7 (F := Ideal) (iblk1 V c 0 t) (iblk1 V c 1 t) (iblk1 V c 2 t) (iblk1 V c 3 t) (iblk1 V c 4 t) (iblk1 V c 5 t)) (outsAt1 V c (t.val - 1) (Nat.lt_of_le_of_lt (Nat.sub_le _ _) t.isLt)).2.2 := by
  rw [outsAt1_B V c t h0]
  dsimp only
  exact out1_B_8_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (fun h => h0 ((hcond1_0 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2

end Cert.KernelIdeal.KValue

end
-- ==== Proof.KArr1.lean ====
/-
  The second linear map's region: its running sums in closed form.

  Column d of the product Z(·, d), extended by zero beyond the 100000 rows, is summed over row ranges: after point n the
  first running-sum block holds at column d the sum of Z(r, d) over the rows r from the start of n's group of ten blocks
  to the end of block n, and the second the same sum of Z(r, d)².
-/
import proofs.«151600_j50869592655513_2_alg».proof.Proof.KFin1

set_option maxRecDepth 16384

noncomputable section

namespace Cert.KernelIdeal.KValue

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- Column d of the product, and of its square, extended by zero beyond the rows. -/
def col1 (c : Dev nD) (d : Fin 128) : ℕ → EReal := Cert.Accum.ext (fun r : Fin 100000 => Z1 V c r d)
def colSq1 (c : Dev nD) (d : Fin 128) : ℕ → EReal := Cert.Accum.ext (fun r : Fin 100000 => Z1 V c r d * Z1 V c r d)

theorem blockSum_col1 (c : Dev nD) (d : Fin 128) (t : Fin cfg1.N) :
    Cert.Accum.blockSum (col1 V c d) 5000 t.val = ∑ p : Fin 5000, Z1 V c (grow1 t p) d := by
  have h1 := t.isLt
  have h2 := hN1
  unfold col1
  rw [Cert.Accum.blockSum_ext _ 5000 t.val (by omega)]

theorem blockSum_colSq1 (c : Dev nD) (d : Fin 128) (t : Fin cfg1.N) :
    Cert.Accum.blockSum (colSq1 V c d) 5000 t.val = ∑ p : Fin 5000, Z1 V c (grow1 t p) d * Z1 V c (grow1 t p) d := by
  have h1 := t.isLt
  have h2 := hN1
  unfold colSq1
  rw [Cert.Accum.blockSum_ext _ 5000 t.val (by omega)]

/-- The running sums at column d after point n. -/
def acc7 (c : Dev nD) (d : Fin 128) (n : ℕ) : EReal :=
  if h : n < cfg1.N then (outsAt1 V c n h).2.1 (ix3 (0 : Fin 1) (0 : Fin 1) d) else 0
def acc8 (c : Dev nD) (d : Fin 128) (n : ℕ) : EReal :=
  if h : n < cfg1.N then (outsAt1 V c n h).2.2 (ix3 (0 : Fin 1) (0 : Fin 1) d) else 0

theorem colsum1 (c : Dev nD) (d : Fin 128) (t : Fin cfg1.N) :
    k1_pay6 (F := Ideal) (iblk1 V c 0 t) (iblk1 V c 1 t) (iblk1 V c 2 t) (iblk1 V c 3 t) (iblk1 V c 4 t) (iblk1 V c 5 t) (ix2 (0 : Fin 1) d) = ∑ p : Fin 5000, Z1 V c (grow1 t p) d :=
  (pay6_1_apply (iblk1 V c 0 t) (iblk1 V c 1 t) (iblk1 V c 2 t) (iblk1 V c 3 t) (iblk1 V c 4 t) (iblk1 V c 5 t) 0 d).trans (Finset.sum_congr rfl fun p _ => prod1_blk V c t p d)

theorem colsumSq1 (c : Dev nD) (d : Fin 128) (t : Fin cfg1.N) :
    (∑ p : Fin 5000, k1_pay7 (F := Ideal) (iblk1 V c 0 t) (iblk1 V c 1 t) (iblk1 V c 2 t) (iblk1 V c 3 t) (iblk1 V c 4 t) (iblk1 V c 5 t) (ix2 p d)) = ∑ p : Fin 5000, Z1 V c (grow1 t p) d * Z1 V c (grow1 t p) d :=
  Finset.sum_congr rfl fun p _ => by
    rw [pay7_1_apply (iblk1 V c 0 t) (iblk1 V c 1 t) (iblk1 V c 2 t) (iblk1 V c 3 t) (iblk1 V c 4 t) (iblk1 V c 5 t) p d, prod1_blk V c t p d]

theorem acc7_A (c : Dev nD) (d : Fin 128) (n : ℕ) (hn : n < cfg1.N) (h0 : n % 10 = 0) :
    acc7 V c d n = 0 + Cert.Accum.blockSum (col1 V c d) 5000 n := by
  unfold acc7
  rw [dif_pos hn]
  refine (congrFun (outs1_snd_A V c ⟨n, hn⟩ h0) _).trans ?_
  refine (pay1_1_apply _ _ 0 0 d).trans ?_
  rw [blockSum_col1 V c d ⟨n, hn⟩]
  exact congrArg₂ (· + ·) (pay3_1_apply _) (colsum1 V c d ⟨n, hn⟩)

theorem acc7_B (c : Dev nD) (d : Fin 128) (n : ℕ) (hn : n < cfg1.N) (h0 : ¬ n % 10 = 0) :
    acc7 V c d n = acc7 V c d (n - 1) + Cert.Accum.blockSum (col1 V c d) 5000 n := by
  unfold acc7
  rw [dif_pos hn, dif_pos (Nat.lt_of_le_of_lt (Nat.sub_le _ _) hn)]
  refine (congrFun (outs1_snd_B V c ⟨n, hn⟩ h0) _).trans ?_
  refine (pay1_1_apply _ _ 0 0 d).trans ?_
  rw [blockSum_col1 V c d ⟨n, hn⟩]
  exact congrArg₂ (· + ·) rfl (colsum1 V c d ⟨n, hn⟩)

theorem acc8_A (c : Dev nD) (d : Fin 128) (n : ℕ) (hn : n < cfg1.N) (h0 : n % 10 = 0) :
    acc8 V c d n = 0 + Cert.Accum.blockSum (colSq1 V c d) 5000 n := by
  unfold acc8
  rw [dif_pos hn]
  refine (congrFun (outs1_trd_A V c ⟨n, hn⟩ h0) _).trans ?_
  refine (pay2_1_apply _ _ 0 0 d).trans ?_
  rw [blockSum_colSq1 V c d ⟨n, hn⟩]
  exact congrArg₂ (· + ·) (pay4_1_apply _) (colsumSq1 V c d ⟨n, hn⟩)

theorem acc8_B (c : Dev nD) (d : Fin 128) (n : ℕ) (hn : n < cfg1.N) (h0 : ¬ n % 10 = 0) :
    acc8 V c d n = acc8 V c d (n - 1) + Cert.Accum.blockSum (colSq1 V c d) 5000 n := by
  unfold acc8
  rw [dif_pos hn, dif_pos (Nat.lt_of_le_of_lt (Nat.sub_le _ _) hn)]
  refine (congrFun (outs1_trd_B V c ⟨n, hn⟩ h0) _).trans ?_
  refine (pay2_1_apply _ _ 0 0 d).trans ?_
  rw [blockSum_colSq1 V c d ⟨n, hn⟩]
  exact congrArg₂ (· + ·) rfl (colsumSq1 V c d ⟨n, hn⟩)

theorem acc7_last (c : Dev nD) (d : Fin 128) (g : ℕ) (hg : 10 * g + 9 < cfg1.N) :
    acc7 V c d (10 * g + 9) = ∑ r ∈ Finset.Ico (5000 * (10 * g)) (5000 * (10 * (g + 1))), col1 V c d r :=
  Cert.Accum.running_sum_last (col1 V c d) 5000 cfg1.N (acc7 V c d) (acc7_A V c d) (acc7_B V c d) g hg

theorem acc8_last (c : Dev nD) (d : Fin 128) (g : ℕ) (hg : 10 * g + 9 < cfg1.N) :
    acc8 V c d (10 * g + 9) = ∑ r ∈ Finset.Ico (5000 * (10 * g)) (5000 * (10 * (g + 1))), colSq1 V c d r :=
  Cert.Accum.running_sum_last (colSq1 V c d) 5000 cfg1.N (acc8 V c d) (acc8_A V c d) (acc8_B V c d) g hg

theorem acc7_eq (c : Dev nD) (d : Fin 128) (n : ℕ) (hn : n < cfg1.N) :
    acc7 V c d n = (outsAt1 V c n hn).2.1 (ix3 (0 : Fin 1) (0 : Fin 1) d) := dif_pos hn
theorem acc8_eq (c : Dev nD) (d : Fin 128) (n : ℕ) (hn : n < cfg1.N) :
    acc8 V c d n = (outsAt1 V c n hn).2.2 (ix3 (0 : Fin 1) (0 : Fin 1) d) := dif_pos hn

end Cert.KernelIdeal.KValue

end
-- ==== Proof.KOut1.lean ====
/-
  The second linear map's region: the three output arrays after the run.

  Every point writes its product block back, and the blocks tile the product array: it ends as the whole product Z.
  A running-sum slab is written back after the last point of its core's share, holding the sum of column d of Z — of its
  square — over the core's 50000 rows.
-/
import proofs.«151600_j50869592655513_2_alg».proof.Proof.KArr1

set_option maxRecDepth 16384

noncomputable section

namespace Cert.KernelIdeal.KValue

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The product array. -/
def H6 (c : Dev nD) : S100000x128.Idx → EReal := fun i => Z1 V c (i 0) (i 1)
/-- The per-core column sums of the product and of its square. -/
def H7 (c : Dev nD) : S2x1x128.Idx → EReal :=
  fun i => ∑ r ∈ Finset.Ico (5000 * (10 * (i 0).val)) (5000 * (10 * ((i 0).val + 1))), col1 V c (i 2) r
def H8 (c : Dev nD) : S2x1x128.Idx → EReal :=
  fun i => ∑ r ∈ Finset.Ico (5000 * (10 * (i 0).val)) (5000 * (10 * ((i 0).val + 1))), colSq1 V c (i 2) r

/-! ## The product array -/

theorem flushed1_6 (c : Dev nD) (t : Fin cfg1.N) :
    (dat1 V c).flushed 6 t = ((cfg1.win 6).blk t).view.read (Elt Ideal) (H6 V c) := by
  show (cfg1.win 6).cut (grid1.coords t) ((dat1 V c).after 6 t) = _
  rw [after1_6, outs1_fst]
  funext y
  obtain ⟨p, d, rfl⟩ : ∃ (p : Fin 5000) (d : Fin 128), y = ix2 p d := ⟨y 0, y 1, eq_ix2 y⟩
  show k1_pay5 (F := Ideal) (iblk1 V c 0 t) (iblk1 V c 1 t) (iblk1 V c 2 t) (iblk1 V c 3 t) (iblk1 V c 4 t) (iblk1 V c 5 t) (ix2 p d) = H6 V c (((cfg1.win 6).blk t).view.emb (ix2 p d))
  refine (pay5_1_apply (iblk1 V c 0 t) (iblk1 V c 1 t) (iblk1 V c 2 t) (iblk1 V c 3 t) (iblk1 V c 4 t) (iblk1 V c 5 t) p d).trans ?_
  rw [prod1_blk]
  unfold H6
  obtain ⟨-, -, -, -, -, -, -, -, -, -, -, -, e0, e1, -⟩ := idx1 t
  congr 1 <;> apply Fin.ext
  · show 5000 * t.val + p.val = win1_6.index t (0 : Fin 2) * 5000 + 1 * p.val; omega
  · show d.val = win1_6.index t (1 : Fin 2) * 128 + 1 * d.val; omega

theorem cover1_6 (c : Dev nD) (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hN := hN1
  have hlt : (i 0).val / 5000 < cfg1.N := by omega
  refine ⟨⟨(i 0).val / 5000, hlt⟩, flush1_6 _, ?_⟩
  show i ∈ ((View.whole main_v45_0).slice (win1_6.rect ⟨(i 0).val / 5000, hlt⟩)).set
  rw [View.set_slice_whole, Rect.mem_set_unit]
  obtain ⟨-, -, -, -, -, -, -, -, -, -, -, -, e0, e1, -⟩ := idx1 ⟨(i 0).val / 5000, hlt⟩
  have e0' : win1_6.index ⟨(i 0).val / 5000, hlt⟩ (0 : Fin 2) = (i 0).val / 5000 := e0
  intro a
  match a with
  | ⟨0, _⟩ =>
    show win1_6.index ⟨(i 0).val / 5000, hlt⟩ (0 : Fin 2) * 5000 ≤ (i 0).val ∧ (i 0).val < win1_6.index ⟨(i 0).val / 5000, hlt⟩ (0 : Fin 2) * 5000 + 5000
    omega
  | ⟨1, _⟩ =>
    show win1_6.index ⟨(i 0).val / 5000, hlt⟩ (1 : Fin 2) * 128 ≤ (i 1).val ∧ (i 1).val < win1_6.index ⟨(i 0).val / 5000, hlt⟩ (1 : Fin 2) * 128 + 128
    omega

/-- The product array after the run. -/
theorem final1_6 (c : Dev nD) : (dat1 V c).arrAt 6 cfg1.N = H6 V c :=
  (dat1 V c).arrAt_eq_of_cover 6 (H6 V c) (fun t _ => flushed1_6 V c t) (cover1_6 c)

/-! ## The running-sum array of window 7 -/

theorem flushed1_7 (c : Dev nD) (t : Fin cfg1.N) (hf : (cfg1.win 7).flush t = true) :
    (dat1 V c).flushed 7 t = ((cfg1.win 7).blk t).view.read (Elt Ideal) (H7 V c) := by
  have h9 : t.val % 10 = 9 := (flush1_7 t).mp hf
  have hlt := t.isLt
  have hN := hN1
  show (cfg1.win 7).cut (grid1.coords t) ((dat1 V c).after 7 t) = _
  rw [after1_7]
  funext y
  obtain ⟨u0, u1, d, rfl⟩ : ∃ (u0 u1 : Fin 1) (d : Fin 128), y = ix3 u0 u1 d := ⟨y 0, y 1, y 2, eq_ix3 y⟩
  obtain rfl : u0 = 0 := Subsingleton.elim _ _
  obtain rfl : u1 = 0 := Subsingleton.elim _ _
  show (outsAt1 V c t.val t.isLt).2.1 (ix3 (0 : Fin 1) (0 : Fin 1) d) = H7 V c (((cfg1.win 7).blk t).view.emb (ix3 (0 : Fin 1) (0 : Fin 1) d))
  have hemb : ((cfg1.win 7).blk t).view.emb (ix3 (0 : Fin 1) (0 : Fin 1) d) = ix3 (⟨t.val / 10, by omega⟩ : Fin 2) (0 : Fin 1) d := by
    obtain ⟨-, -, -, -, -, -, -, -, -, -, -, -, -, -, e70, e71, e72, e80, e81, e82⟩ := idx1 t
    funext a
    apply Fin.ext
    match a with
    | ⟨0, _⟩ => show win1_7.index t (0 : Fin 3) * 1 + 1 * 0 = t.val / 10; omega
    | ⟨1, _⟩ => show win1_7.index t (1 : Fin 3) * 1 + 1 * 0 = 0; omega
    | ⟨2, _⟩ => show win1_7.index t (2 : Fin 3) * 128 + 1 * d.val = d.val; omega
  rw [hemb]
  have ht : t.val = 10 * (t.val / 10) + 9 := by omega
  have key : acc7 V c d t.val = ∑ r ∈ Finset.Ico (5000 * (10 * (t.val / 10))) (5000 * (10 * (t.val / 10 + 1))), col1 V c d r := by
    have h := acc7_last V c d (t.val / 10) (by omega)
    rwa [← ht] at h
  exact (acc7_eq V c d t.val t.isLt).symm.trans key

theorem cover1_7 (c : Dev nD) (i : S2x1x128.Idx) :
    ∃ t : Fin cfg1.N, (cfg1.win 7).flush t = true ∧ i ∈ ((cfg1.win 7).blk t).view.set := by
  have hi0 : (i 0).val < 2 := (i 0).isLt
  have hi1 : (i 1).val < 1 := (i 1).isLt
  have hi2 : (i 2).val < 128 := (i 2).isLt
  have hN := hN1
  have hlt : 10 * (i 0).val + 9 < cfg1.N := by omega
  refine ⟨⟨10 * (i 0).val + 9, hlt⟩, (flush1_7 _).mpr (by show (10 * (i 0).val + 9) % 10 = 9; omega), ?_⟩
  show i ∈ ((View.whole main_v45_1).slice (win1_7.rect ⟨10 * (i 0).val + 9, hlt⟩)).set
  rw [View.set_slice_whole, Rect.mem_set_unit]
  obtain ⟨-, -, -, -, -, -, -, -, -, -, -, -, -, -, e70, e71, e72, e80, e81, e82⟩ := idx1 ⟨10 * (i 0).val + 9, hlt⟩
  have e0' : win1_7.index ⟨10 * (i 0).val + 9, hlt⟩ (0 : Fin 3) = (10 * (i 0).val + 9) / 10 := e70
  intro a
  match a with
  | ⟨0, _⟩ =>
    show win1_7.index ⟨10 * (i 0).val + 9, hlt⟩ (0 : Fin 3) * 1 ≤ (i 0).val ∧ (i 0).val < win1_7.index ⟨10 * (i 0).val + 9, hlt⟩ (0 : Fin 3) * 1 + 1
    omega
  | ⟨1, _⟩ =>
    show win1_7.index ⟨10 * (i 0).val + 9, hlt⟩ (1 : Fin 3) * 1 ≤ (i 1).val ∧ (i 1).val < win1_7.index ⟨10 * (i 0).val + 9, hlt⟩ (1 : Fin 3) * 1 + 1
    omega
  | ⟨2, _⟩ =>
    show win1_7.index ⟨10 * (i 0).val + 9, hlt⟩ (2 : Fin 3) * 128 ≤ (i 2).val ∧ (i 2).val < win1_7.index ⟨10 * (i 0).val + 9, hlt⟩ (2 : Fin 3) * 128 + 128
    omega

theorem final1_7 (c : Dev nD) : (dat1 V c).arrAt 7 cfg1.N = H7 V c :=
  (dat1 V c).arrAt_eq_of_cover 7 (H7 V c) (fun t hf => flushed1_7 V c t hf) (cover1_7 c)

/-! ## The running-sum array of window 8 -/

theorem flushed1_8 (c : Dev nD) (t : Fin cfg1.N) (hf : (cfg1.win 8).flush t = true) :
    (dat1 V c).flushed 8 t = ((cfg1.win 8).blk t).view.read (Elt Ideal) (H8 V c) := by
  have h9 : t.val % 10 = 9 := (flush1_8 t).mp hf
  have hlt := t.isLt
  have hN := hN1
  show (cfg1.win 8).cut (grid1.coords t) ((dat1 V c).after 8 t) = _
  rw [after1_8]
  funext y
  obtain ⟨u0, u1, d, rfl⟩ : ∃ (u0 u1 : Fin 1) (d : Fin 128), y = ix3 u0 u1 d := ⟨y 0, y 1, y 2, eq_ix3 y⟩
  obtain rfl : u0 = 0 := Subsingleton.elim _ _
  obtain rfl : u1 = 0 := Subsingleton.elim _ _
  show (outsAt1 V c t.val t.isLt).2.2 (ix3 (0 : Fin 1) (0 : Fin 1) d) = H8 V c (((cfg1.win 8).blk t).view.emb (ix3 (0 : Fin 1) (0 : Fin 1) d))
  have hemb : ((cfg1.win 8).blk t).view.emb (ix3 (0 : Fin 1) (0 : Fin 1) d) = ix3 (⟨t.val / 10, by omega⟩ : Fin 2) (0 : Fin 1) d := by
    obtain ⟨-, -, -, -, -, -, -, -, -, -, -, -, -, -, e70, e71, e72, e80, e81, e82⟩ := idx1 t
    funext a
    apply Fin.ext
    match a with
    | ⟨0, _⟩ => show win1_8.index t (0 : Fin 3) * 1 + 1 * 0 = t.val / 10; omega
    | ⟨1, _⟩ => show win1_8.index t (1 : Fin 3) * 1 + 1 * 0 = 0; omega
    | ⟨2, _⟩ => show win1_8.index t (2 : Fin 3) * 128 + 1 * d.val = d.val; omega
  rw [hemb]
  have ht : t.val = 10 * (t.val / 10) + 9 := by omega
  have key : acc8 V c d t.val = ∑ r ∈ Finset.Ico (5000 * (10 * (t.val / 10))) (5000 * (10 * (t.val / 10 + 1))), colSq1 V c d r := by
    have h := acc8_last V c d (t.val / 10) (by omega)
    rwa [← ht] at h
  exact (acc8_eq V c d t.val t.isLt).symm.trans key

theorem cover1_8 (c : Dev nD) (i : S2x1x128.Idx) :
    ∃ t : Fin cfg1.N, (cfg1.win 8).flush t = true ∧ i ∈ ((cfg1.win 8).blk t).view.set := by
  have hi0 : (i 0).val < 2 := (i 0).isLt
  have hi1 : (i 1).val < 1 := (i 1).isLt
  have hi2 : (i 2).val < 128 := (i 2).isLt
  have hN := hN1
  have hlt : 10 * (i 0).val + 9 < cfg1.N := by omega
  refine ⟨⟨10 * (i 0).val + 9, hlt⟩, (flush1_8 _).mpr (by show (10 * (i 0).val + 9) % 10 = 9; omega), ?_⟩
  show i ∈ ((View.whole main_v45_2).slice (win1_8.rect ⟨10 * (i 0).val + 9, hlt⟩)).set
  rw [View.set_slice_whole, Rect.mem_set_unit]
  obtain ⟨-, -, -, -, -, -, -, -, -, -, -, -, -, -, e70, e71, e72, e80, e81, e82⟩ := idx1 ⟨10 * (i 0).val + 9, hlt⟩
  have e0' : win1_8.index ⟨10 * (i 0).val + 9, hlt⟩ (0 : Fin 3) = (10 * (i 0).val + 9) / 10 := e80
  intro a
  match a with
  | ⟨0, _⟩ =>
    show win1_8.index ⟨10 * (i 0).val + 9, hlt⟩ (0 : Fin 3) * 1 ≤ (i 0).val ∧ (i 0).val < win1_8.index ⟨10 * (i 0).val + 9, hlt⟩ (0 : Fin 3) * 1 + 1
    omega
  | ⟨1, _⟩ =>
    show win1_8.index ⟨10 * (i 0).val + 9, hlt⟩ (1 : Fin 3) * 1 ≤ (i 1).val ∧ (i 1).val < win1_8.index ⟨10 * (i 0).val + 9, hlt⟩ (1 : Fin 3) * 1 + 1
    omega
  | ⟨2, _⟩ =>
    show win1_8.index ⟨10 * (i 0).val + 9, hlt⟩ (2 : Fin 3) * 128 ≤ (i 2).val ∧ (i 2).val < win1_8.index ⟨10 * (i 0).val + 9, hlt⟩ (2 : Fin 3) * 128 + 128
    omega

theorem final1_8 (c : Dev nD) : (dat1 V c).arrAt 8 cfg1.N = H8 V c :=
  (dat1 V c).arrAt_eq_of_cover 8 (H8 V c) (fun t hf => flushed1_8 V c t hf) (cover1_8 c)

end Cert.KernelIdeal.KValue

end
-- ==== Proof.KReg2.lean ====
/-
  The final normalisation's region, read as values.

  The grid has 20 points; point t reads block t of the second map's output (rows 5000·t … 5000·t + 4999), the one-row
  mean, variance, scale and shift, and writes block t of the result:
      out(r, d) = max ((y(r,d) - mu(0,d)) · rsqrt (var(0,d) + eps) · g(0,d) + b(0,d)) 0.
  The blocks tile the result array, each written back by its own point.
-/
import proofs.«151600_j50869592655513_2_alg».proof.Proof.Gen.KernelIdeal.Frame
import proofs.«151600_j50869592655513_2_alg».proof.Proof.Spec
import proofs.«151600_j50869592655513_2_alg».proof.Proof.KPieces0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KValue

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The normalised entry from block-level vectors. -/
def act2 (v0 : Vec Ideal S5000x128 .f32) (v2 v4 v6 v8 : Vec Ideal S1x128 .f32) (p : Fin 5000) (d : Fin 128) : EReal :=
  max ((v0 (ix2 p d) - v2 (ix2 (0 : Fin 1) d)) * Ideal.rsqrt (v4 (ix2 (0 : Fin 1) d) + Cert.Spec.eps) * v6 (ix2 (0 : Fin 1) d)
    + v8 (ix2 (0 : Fin 1) d)) Cert.Spec.zero

theorem pay1_2_apply (v0 : Vec Ideal S5000x128 .f32) (v2 v4 v6 v8 : Vec Ideal S1x128 .f32) (p : Fin 5000) (d : Fin 128) :
    k2_pay1 (F := Ideal) v0 v2 v4 v6 v8 (ix2 p d) = act2 v0 v2 v4 v6 v8 p d := by
  unfold k2_pay1 act2 Cert.Spec.eps Cert.Spec.zero
  simp only [maximumf_apply, addf_apply, mulf_apply, subf_apply, shapeCast_self, broadcast_apply]
  rw [broadcastTo_1b_ab_apply, broadcastTo_1b_ab_apply, broadcastTo_1b_ab_apply, broadcastTo_1b_ab_apply]
  rfl

/-- The five arrays the region reads, as functions into the extended reals. -/
abbrev cY (c : Dev nD) : S100000x128.Idx → EReal := V c main_v45_0
abbrev cMu (c : Dev nD) : S1x128.Idx → EReal := V c main_v49
abbrev cVar (c : Dev nD) : S1x128.Idx → EReal := V c main_v55
abbrev cG (c : Dev nD) : S1x128.Idx → EReal := V c main_v32
abbrev cB (c : Dev nD) : S1x128.Idx → EReal := V c main_v33

/-- The whole result at a global row. -/
def O2 (c : Dev nD) (r : Fin 100000) (d : Fin 128) : EReal :=
  max ((cY V c (ix2 r d) - cMu V c (ix2 (0 : Fin 1) d)) * Ideal.rsqrt (cVar V c (ix2 (0 : Fin 1) d) + Cert.Spec.eps)
    * cG V c (ix2 (0 : Fin 1) d) + cB V c (ix2 (0 : Fin 1) d)) Cert.Spec.zero

theorem hN2 : cfg2.N = 20 := N_2

theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

abbrev grow2 (t : Fin cfg2.N) (p : Fin 5000) : Fin 100000 :=
  ⟨5000 * t.val + p.val, by have := t.isLt; have := hN2; have := p.isLt; omega⟩

theorem iblk2_0_apply (c : Dev nD) (t : Fin cfg2.N) (p : Fin 5000) (d : Fin 128) :
    iblk2 V c 0 t (ix2 p d) = cY V c (ix2 (grow2 t p) d) := by
  unfold iblk2
  rw [View.read_apply]
  show V c main_v45_0 (((cfg2.win 0).blk t).view.emb (ix2 p d)) = _
  congr 1
  funext a
  apply Fin.ext
  obtain ⟨e00, e01, e10, e11, e20, e21, e30, e31, e40, e41, e50, e51⟩ := idx2 t
  match a with
  | ⟨0, _⟩ => show win2_0.index t (0 : Fin 2) * 5000 + 1 * p.val = 5000 * t.val + p.val; omega
  | ⟨1, _⟩ => show win2_0.index t (1 : Fin 2) * 128 + 1 * d.val = d.val; omega

theorem iblk2_1_apply (c : Dev nD) (t : Fin cfg2.N) (u : Fin 1) (d : Fin 128) :
    iblk2 V c 1 t (ix2 u d) = cMu V c (ix2 u d) := by
  unfold iblk2
  rw [View.read_apply]
  show V c main_v49 (((cfg2.win 1).blk t).view.emb (ix2 u d)) = _
  congr 1
  funext a
  apply Fin.ext
  obtain ⟨e00, e01, e10, e11, e20, e21, e30, e31, e40, e41, e50, e51⟩ := idx2 t
  match a with
  | ⟨0, _⟩ => show win2_1.index t (0 : Fin 2) * 1 + 1 * u.val = u.val; omega
  | ⟨1, _⟩ => show win2_1.index t (1 : Fin 2) * 128 + 1 * d.val = d.val; omega

theorem iblk2_2_apply (c : Dev nD) (t : Fin cfg2.N) (u : Fin 1) (d : Fin 128) :
    iblk2 V c 2 t (ix2 u d) = cVar V c (ix2 u d) := by
  unfold iblk2
  rw [View.read_apply]
  show V c main_v55 (((cfg2.win 2).blk t).view.emb (ix2 u d)) = _
  congr 1
  funext a
  apply Fin.ext
  obtain ⟨e00, e01, e10, e11, e20, e21, e30, e31, e40, e41, e50, e51⟩ := idx2 t
  match a with
  | ⟨0, _⟩ => show win2_2.index t (0 : Fin 2) * 1 + 1 * u.val = u.val; omega
  | ⟨1, _⟩ => show win2_2.index t (1 : Fin 2) * 128 + 1 * d.val = d.val; omega

theorem iblk2_3_apply (c : Dev nD) (t : Fin cfg2.N) (u : Fin 1) (d : Fin 128) :
    iblk2 V c 3 t (ix2 u d) = cG V c (ix2 u d) := by
  unfold iblk2
  rw [View.read_apply]
  show V c main_v32 (((cfg2.win 3).blk t).view.emb (ix2 u d)) = _
  congr 1
  funext a
  apply Fin.ext
  obtain ⟨e00, e01, e10, e11, e20, e21, e30, e31, e40, e41, e50, e51⟩ := idx2 t
  match a with
  | ⟨0, _⟩ => show win2_3.index t (0 : Fin 2) * 1 + 1 * u.val = u.val; omega
  | ⟨1, _⟩ => show win2_3.index t (1 : Fin 2) * 128 + 1 * d.val = d.val; omega

theorem iblk2_4_apply (c : Dev nD) (t : Fin cfg2.N) (u : Fin 1) (d : Fin 128) :
    iblk2 V c 4 t (ix2 u d) = cB V c (ix2 u d) := by
  unfold iblk2
  rw [View.read_apply]
  show V c main_v33 (((cfg2.win 4).blk t).view.emb (ix2 u d)) = _
  congr 1
  funext a
  apply Fin.ext
  obtain ⟨e00, e01, e10, e11, e20, e21, e30, e31, e40, e41, e50, e51⟩ := idx2 t
  match a with
  | ⟨0, _⟩ => show win2_4.index t (0 : Fin 2) * 1 + 1 * u.val = u.val; omega
  | ⟨1, _⟩ => show win2_4.index t (1 : Fin 2) * 128 + 1 * d.val = d.val; omega

theorem act2_blk (c : Dev nD) (t : Fin cfg2.N) (p : Fin 5000) (d : Fin 128) :
    act2 (iblk2 V c 0 t) (iblk2 V c 1 t) (iblk2 V c 2 t) (iblk2 V c 3 t) (iblk2 V c 4 t) p d = O2 V c (grow2 t p) d := by
  unfold act2 O2
  rw [iblk2_0_apply, iblk2_1_apply, iblk2_2_apply, iblk2_3_apply, iblk2_4_apply]

/-- The result array. -/
def R5 (c : Dev nD) : S100000x128.Idx → EReal := fun i => O2 V c (i 0) (i 1)

theorem flushed2_5 (c : Dev nD) (t : Fin cfg2.N) :
    (dat2 V c).flushed 5 t = ((cfg2.win 5).blk t).view.read (Elt Ideal) (R5 V c) := by
  show (cfg2.win 5).cut (grid2.coords t) ((dat2 V c).after 5 t) = _
  rw [after2_5]
  unfold out2_5
  rw [View.canon_unit_zero hz2]
  simp only [View.ld_unit_zero (S := S5000x128) hz2, View.ld_unit_zero (S := S1x128) hz2]
  funext y
  obtain ⟨p, d, rfl⟩ : ∃ (p : Fin 5000) (d : Fin 128), y = ix2 p d := ⟨y 0, y 1, eq_ix2 y⟩
  show k2_pay1 (F := Ideal) (iblk2 V c 0 t) (iblk2 V c 1 t) (iblk2 V c 2 t) (iblk2 V c 3 t) (iblk2 V c 4 t) (ix2 p d) = R5 V c (((cfg2.win 5).blk t).view.emb (ix2 p d))
  refine (pay1_2_apply (iblk2 V c 0 t) (iblk2 V c 1 t) (iblk2 V c 2 t) (iblk2 V c 3 t) (iblk2 V c 4 t) p d).trans ?_
  rw [act2_blk]
  unfold R5
  obtain ⟨-, -, -, -, -, -, -, -, -, -, e0, e1⟩ := idx2 t
  congr 1 <;> apply Fin.ext
  · show 5000 * t.val + p.val = win2_5.index t (0 : Fin 2) * 5000 + 1 * p.val; omega
  · show d.val = win2_5.index t (1 : Fin 2) * 128 + 1 * d.val; omega

theorem cover2_5' (c : Dev nD) (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have hN := hN2
  have hlt : (i 0).val / 5000 < cfg2.N := by omega
  refine ⟨⟨(i 0).val / 5000, hlt⟩, flush2_5 _, ?_⟩
  show i ∈ ((View.whole main_v56).slice (win2_5.rect ⟨(i 0).val / 5000, hlt⟩)).set
  rw [View.set_slice_whole, Rect.mem_set_unit]
  obtain ⟨-, -, -, -, -, -, -, -, -, -, e0, e1⟩ := idx2 ⟨(i 0).val / 5000, hlt⟩
  have e0' : win2_5.index ⟨(i 0).val / 5000, hlt⟩ (0 : Fin 2) = (i 0).val / 5000 := e0
  intro a
  match a with
  | ⟨0, _⟩ =>
    show win2_5.index ⟨(i 0).val / 5000, hlt⟩ (0 : Fin 2) * 5000 ≤ (i 0).val ∧ (i 0).val < win2_5.index ⟨(i 0).val / 5000, hlt⟩ (0 : Fin 2) * 5000 + 5000
    omega
  | ⟨1, _⟩ =>
    show win2_5.index ⟨(i 0).val / 5000, hlt⟩ (1 : Fin 2) * 128 ≤ (i 1).val ∧ (i 1).val < win2_5.index ⟨(i 0).val / 5000, hlt⟩ (1 : Fin 2) * 128 + 128
    omega

/-- The result array after the run. -/
theorem final2_5 (c : Dev nD) : (dat2 V c).arrAt 5 cfg2.N = R5 V c :=
  (dat2 V c).arrAt_eq_of_cover 5 (R5 V c) (fun t _ => flushed2_5 V c t) (cover2_5' c)

end Cert.KernelIdeal.KValue

end
-- ==== Proof.BnAlgebra.lean ====
/-
  Batch normalisation over real entries.

  Over the extended reals the two spellings of the batch variance (the mean of the squared deviations, and
  the mean of the squares less the squared mean, clamped at zero) need not agree; over entries that are real
  numbers they do. With S = Σ_r z r, Q = Σ_r (z r)^2 and m = S / n over n = 100000 rows,
      (Σ_r (z r - m)^2) / n = Q / n - m^2,
  by expanding the square (Σ_r m = n * m), and the left side is a sum of squares over a positive n, so it
  is nonnegative and the clamp at zero is idle. Real entries are closed under every operation of the layer
  (sums, products, the clamp, division by the row count, the reciprocal square root of a nonnegative real
  plus a positive offset), so the law applies at both normalisations of the layer.
-/
import proofs.«151600_j50869592655513_2_alg».proof.Proof.Spec

noncomputable section

open scoped BigOperators

namespace Cert.Spec

open Idealize.ShloMosaic

/-! ## The constants as real numbers -/

/-- The row count is the real 100000 = (2^23 + 4411392) * 2^(143 - 127 - 23). -/
theorem nrows_eq : nrows = ((100000 : ℝ) : EReal) := by
  unfold nrows
  simp [Ideal.ofBits, Ideal.ieee, -EReal.coe_mul]; norm_num

/-- The floor of the clamp is the extended real zero. -/
theorem zero_eq : zero = 0 := by
  unfold zero
  simp [Ideal.ofBits, Ideal.ieee]

/-- The residual's coefficient is the real one. -/
theorem one_eq : one = ((1 : ℝ) : EReal) := by
  unfold one
  simp [Ideal.ofBits, Ideal.ieee, -EReal.coe_mul]; norm_num

/-- The variance offset is a positive real: (2^23 + 2606508) * 2^(110 - 127 - 23). -/
theorem eps_eq : ∃ e : ℝ, 0 < e ∧ eps = (e : EReal) := by
  refine ⟨10995116 * (2 : ℝ) ^ (-40 : ℤ), by positivity, ?_⟩
  unfold eps
  simp [Ideal.ofBits, Ideal.ieee, -EReal.coe_mul]

/-! ## Real entries are closed under the layer's operations -/

/-- An extended real that is a nonnegative real number. -/
def IsNonnegReal (v : EReal) : Prop := ∃ r : ℝ, 0 ≤ r ∧ v = (r : EReal)

theorem IsNonnegReal.isReal {v : EReal} (h : IsNonnegReal v) : IsReal v := by
  obtain ⟨r, _, hr⟩ := h
  exact ⟨r, hr⟩

theorem isReal_coe (r : ℝ) : IsReal (r : EReal) := ⟨r, rfl⟩

theorem isReal_zero : IsReal zero := ⟨0, by rw [zero_eq, EReal.coe_zero]⟩

theorem isReal_one : IsReal one := ⟨1, one_eq⟩

theorem IsReal.add {a b : EReal} (ha : IsReal a) (hb : IsReal b) : IsReal (a + b) := by
  obtain ⟨x, rfl⟩ := ha
  obtain ⟨y, rfl⟩ := hb
  exact ⟨x + y, (EReal.coe_add x y).symm⟩

theorem IsReal.sub {a b : EReal} (ha : IsReal a) (hb : IsReal b) : IsReal (a - b) := by
  obtain ⟨x, rfl⟩ := ha
  obtain ⟨y, rfl⟩ := hb
  exact ⟨x - y, (EReal.coe_sub x y).symm⟩

theorem IsReal.mul {a b : EReal} (ha : IsReal a) (hb : IsReal b) : IsReal (a * b) := by
  obtain ⟨x, rfl⟩ := ha
  obtain ⟨y, rfl⟩ := hb
  exact ⟨x * y, (EReal.coe_mul x y).symm⟩

/-- The larger of two reals is one of them. -/
theorem IsReal.max {a b : EReal} (ha : IsReal a) (hb : IsReal b) : IsReal (max a b) := by
  rcases max_choice a b with h | h
  · rw [h]; exact ha
  · rw [h]; exact hb

/-- A finite sum of coerced reals is the coercion of the real sum (induction on the index set). -/
theorem coe_sum {ι : Type*} (s : Finset ι) (f : ι → ℝ) :
    (∑ i ∈ s, ((f i : ℝ) : EReal)) = ((∑ i ∈ s, f i : ℝ) : EReal) := by
  classical
  refine Finset.induction_on s (by simp) ?_
  intro a s ha ih
  rw [Finset.sum_insert ha, Finset.sum_insert ha, ih, EReal.coe_add]

theorem IsReal.sum {ι : Type*} (s : Finset ι) {f : ι → EReal} (h : ∀ i, IsReal (f i)) :
    IsReal (∑ i ∈ s, f i) := by
  choose g hg using h
  refine ⟨∑ i ∈ s, g i, ?_⟩
  rw [← coe_sum]
  exact Finset.sum_congr rfl (fun i _ => hg i)

/-- Division by the row count is multiplication by the real 1/100000. -/
theorem div_nrows (a : EReal) : Ideal.div a nrows = a * (((1 / 100000 : ℝ)) : EReal) := by
  rw [nrows_eq, Ideal.div_coe (by norm_num)]

theorem IsReal.div_nrows {a : EReal} (ha : IsReal a) : IsReal (Ideal.div a nrows) := by
  rw [Cert.Spec.div_nrows]
  exact ha.mul (isReal_coe _)

/-- The reciprocal square root of a nonnegative real plus the positive offset is a real: the argument is
    a positive real, so neither corner of the reciprocal square root is met. -/
theorem isReal_rsqrt_add_eps {v : EReal} (hv : IsNonnegReal v) : IsReal (Ideal.rsqrt (v + eps)) := by
  obtain ⟨r, hr, rfl⟩ := hv
  obtain ⟨e, he, heq⟩ := eps_eq
  have hpos : 0 < r + e := by linarith
  rw [heq, ← EReal.coe_add, Ideal.rsqrt_coe, if_neg (not_lt.mpr hpos.le), if_neg hpos.ne']
  exact isReal_coe _

variable {n k c : ℕ}

theorem isReal_resid (nn : Fin n → Fin k → EReal) (e : EReal) (deg : Fin n → EReal) (x : Fin n → Fin k → EReal)
    (hnn : ∀ r t, IsReal (nn r t)) (hx : ∀ r t, IsReal (x r t)) (he : IsReal e) (hdeg : ∀ r, IsReal (deg r))
    (r : Fin n) (t : Fin k) : IsReal (resid nn e deg x r t) := by
  unfold resid
  exact (hnn r t).add (((isReal_one.add he).sub (hdeg r)).mul (hx r t))

theorem isReal_mm (a : Fin n → Fin k → EReal) (w : Fin c → Fin k → EReal)
    (ha : ∀ r t, IsReal (a r t)) (hw : ∀ j t, IsReal (w j t)) (r : Fin n) (j : Fin c) : IsReal (mm a w r j) := by
  unfold mm
  exact IsReal.sum _ (fun t => (ha r t).mul (hw j t))

theorem isReal_mean (y : Fin n → Fin c → EReal) (hy : ∀ r j, IsReal (y r j)) (j : Fin c) : IsReal (mean y j) := by
  unfold mean colSum
  exact (IsReal.sum _ (fun r => hy r j)).div_nrows

/-- The mean of the squared deviations of real entries is a nonnegative real: a sum of squares times 1/100000. -/
theorem isNonnegReal_varDev (y : Fin n → Fin c → EReal) (hy : ∀ r j, IsReal (y r j)) (j : Fin c) :
    IsNonnegReal (varDev y j) := by
  obtain ⟨m, hm⟩ := isReal_mean y hy j
  choose z hz using hy
  have hsq : ∀ r, (y r j - mean y j) * (y r j - mean y j) = (((z r j - m) * (z r j - m) : ℝ) : EReal) := by
    intro r
    rw [hz r j, hm, ← EReal.coe_sub, ← EReal.coe_mul]
  unfold varDev
  rw [div_nrows, Finset.sum_congr rfl (fun r _ => hsq r), coe_sum, ← EReal.coe_mul]
  exact ⟨_, mul_nonneg (Finset.sum_nonneg (fun r _ => mul_self_nonneg _)) (by norm_num), rfl⟩

theorem isReal_varDev (y : Fin n → Fin c → EReal) (hy : ∀ r j, IsReal (y r j)) (j : Fin c) : IsReal (varDev y j) :=
  (isNonnegReal_varDev y hy j).isReal

theorem isReal_norm (y : Fin n → Fin c → EReal) (mu var g b : Fin c → EReal) (hy : ∀ r j, IsReal (y r j))
    (hmu : ∀ j, IsReal (mu j)) (hvar : ∀ j, IsNonnegReal (var j)) (hg : ∀ j, IsReal (g j)) (hb : ∀ j, IsReal (b j))
    (r : Fin n) (j : Fin c) : IsReal (norm y mu var g b r j) := by
  unfold norm
  exact (((((hy r j).sub (hmu j)).mul (isReal_rsqrt_add_eps (hvar j))).mul (hg j)).add (hb j)).max isReal_zero

theorem isReal_bnDev (y : Fin n → Fin c → EReal) (g b : Fin c → EReal) (hy : ∀ r j, IsReal (y r j))
    (hg : ∀ j, IsReal (g j)) (hb : ∀ j, IsReal (b j)) (r : Fin n) (j : Fin c) : IsReal (bnDev y g b r j) := by
  unfold bnDev
  exact isReal_norm y _ _ g b hy (isReal_mean y hy) (isNonnegReal_varDev y hy) hg hb r j

/-! ## The two variances agree over real entries -/

/-- Expanding the square over 100000 rows: the mean of the squared deviations from the mean is the mean of the
    squares less the squared mean. -/
theorem real_var_identity (z : Fin 100000 → ℝ) :
    (∑ r, (z r - (∑ r, z r) * (1 / 100000)) * (z r - (∑ r, z r) * (1 / 100000))) * (1 / 100000)
      = (∑ r, z r * z r) * (1 / 100000) - ((∑ r, z r) * (1 / 100000)) * ((∑ r, z r) * (1 / 100000)) := by
  generalize hS : (∑ r, z r) = S
  have h1 : ∀ r, (z r - S * (1 / 100000)) * (z r - S * (1 / 100000))
      = z r * z r - (2 * (S * (1 / 100000))) * z r + (S * (1 / 100000)) * (S * (1 / 100000)) := fun r => by ring
  rw [Finset.sum_congr rfl (fun r _ => h1 r), Finset.sum_add_distrib, Finset.sum_sub_distrib, ← Finset.mul_sum, hS,
    Finset.sum_const, Finset.card_univ, Fintype.card_fin, nsmul_eq_mul]
  generalize (∑ r, z r * z r) = Q
  push_cast
  ring

theorem mean_coe (z : Fin n → Fin c → ℝ) (j : Fin c) :
    mean (fun r j => ((z r j : ℝ) : EReal)) j = (((∑ r, z r j) * (1 / 100000) : ℝ) : EReal) := by
  simp only [mean, colSum]
  rw [div_nrows, coe_sum, ← EReal.coe_mul]

theorem varDev_coe (z : Fin n → Fin c → ℝ) (j : Fin c) :
    varDev (fun r j => ((z r j : ℝ) : EReal)) j
      = (((∑ r, (z r j - (∑ r, z r j) * (1 / 100000)) * (z r j - (∑ r, z r j) * (1 / 100000))) * (1 / 100000) : ℝ) : EReal) := by
  simp only [varDev, mean_coe, ← EReal.coe_sub, ← EReal.coe_mul]
  rw [div_nrows, coe_sum, ← EReal.coe_mul]

theorem varSq_coe (z : Fin n → Fin c → ℝ) (j : Fin c) :
    varSq (fun r j => ((z r j : ℝ) : EReal)) j
      = max (((∑ r, z r j * z r j) * (1 / 100000)
          - ((∑ r, z r j) * (1 / 100000)) * ((∑ r, z r j) * (1 / 100000)) : ℝ) : EReal) 0 := by
  simp only [varSq, colSumSq, mean_coe, zero_eq, ← EReal.coe_mul]
  rw [div_nrows, coe_sum, ← EReal.coe_mul, ← EReal.coe_sub]

/-- THE LAW over coerced reals. -/
theorem varSq_eq_varDev_coe (z : Fin 100000 → Fin c → ℝ) :
    varSq (fun r j => ((z r j : ℝ) : EReal)) = varDev (fun r j => ((z r j : ℝ) : EReal)) := by
  funext j
  rw [varSq_coe, varDev_coe, ← real_var_identity (fun r => z r j)]
  exact max_eq_left (EReal.coe_nonneg.mpr
    (mul_nonneg (Finset.sum_nonneg (fun r _ => mul_self_nonneg _)) (by norm_num)))

/-- THE LAW: over entries that are real numbers the clamped variance of squares is the variance of deviations. -/
theorem varSq_eq_varDev (y : Fin 100000 → Fin c → EReal) (hy : ∀ r j, IsReal (y r j)) : varSq y = varDev y := by
  choose z hz using hy
  have hy' : y = fun r j => ((z r j : ℝ) : EReal) := funext fun r => funext fun j => hz r j
  rw [hy']
  exact varSq_eq_varDev_coe z

theorem bnSq_eq_bnDev (y : Fin 100000 → Fin c → EReal) (g b : Fin c → EReal) (hy : ∀ r j, IsReal (y r j)) :
    bnSq y g b = bnDev y g b := by
  unfold bnSq bnDev
  rw [varSq_eq_varDev y hy]

theorem isReal_varSq (y : Fin 100000 → Fin c → EReal) (hy : ∀ r j, IsReal (y r j)) (j : Fin c) : IsReal (varSq y j) := by
  rw [varSq_eq_varDev y hy]
  exact isReal_varDev y hy j

theorem isReal_bnSq (y : Fin 100000 → Fin c → EReal) (g b : Fin c → EReal) (hy : ∀ r j, IsReal (y r j))
    (hg : ∀ j, IsReal (g j)) (hb : ∀ j, IsReal (b j)) (r : Fin 100000) (j : Fin c) : IsReal (bnSq y g b r j) := by
  rw [bnSq_eq_bnDev y g b hy]
  exact isReal_bnDev y g b hy hg hb r j

/-! ## The two layers agree over real inputs -/

/-- The first normalisation's input has real entries, so its two forms agree; its output, the same on both
    sides, again has real entries, and so has the second linear map's, where the law applies once more. -/
theorem layerSq_eq_layerDev (nn x : Fin 100000 → Fin 128 → EReal) (e : EReal) (deg : Fin 100000 → EReal)
    (W1 : Fin 256 → Fin 128 → EReal) (g1 b1 : Fin 256 → EReal) (W2 : Fin 128 → Fin 256 → EReal) (g2 b2 : Fin 128 → EReal)
    (hnn : ∀ r t, IsReal (nn r t)) (hx : ∀ r t, IsReal (x r t)) (he : IsReal e) (hdeg : ∀ r, IsReal (deg r))
    (hW1 : ∀ j t, IsReal (W1 j t)) (hg1 : ∀ j, IsReal (g1 j)) (hb1 : ∀ j, IsReal (b1 j))
    (hW2 : ∀ j t, IsReal (W2 j t)) (hg2 : ∀ j, IsReal (g2 j)) (hb2 : ∀ j, IsReal (b2 j)) :
    layerSq nn e deg x W1 g1 b1 W2 g2 b2 = layerDev nn e deg x W1 g1 b1 W2 g2 b2 := by
  unfold layerSq layerDev
  have h0 : ∀ r t, IsReal (resid nn e deg x r t) := isReal_resid nn e deg x hnn hx he hdeg
  have h1 : ∀ r j, IsReal (mm (resid nn e deg x) W1 r j) := isReal_mm _ W1 h0 hW1
  rw [bnSq_eq_bnDev _ g1 b1 h1]
  have h2 : ∀ r j, IsReal (bnDev (mm (resid nn e deg x) W1) g1 b1 r j) := isReal_bnDev _ g1 b1 h1 hg1 hb1
  have h3 : ∀ r j, IsReal (mm (bnDev (mm (resid nn e deg x) W1) g1 b1) W2 r j) := isReal_mm _ W2 h2 hW2
  exact bnSq_eq_bnDev _ g2 b2 h3

end Cert.Spec

end
-- ==== Proof.KSpec.lean ====
/-
  The three regions' results as the specification's functions.

  If the first region finds the aggregated messages nn, the node features x, the residual's coefficient (1 + e) - deg r
  and the transposed first weight, its product array is  mm (resid nn e deg x) W1 ; its two per-core column sums add up,
  over the two cores, to the column sums of that product and of its square. If the second region finds an array y, its
  batch mean and clamped variance of squares, a scale, a shift and the transposed second weight, its product array is
  mm (bnSq y g b) W2. If the last region finds an array z with its mean and clamped variance of squares, a scale and a
  shift, its result is bnSq z g b.
-/
import proofs.«151600_j50869592655513_2_alg».proof.Proof.KOut0
import proofs.«151600_j50869592655513_2_alg».proof.Proof.KOut1
import proofs.«151600_j50869592655513_2_alg».proof.Proof.KReg2
import proofs.«151600_j50869592655513_2_alg».proof.Proof.BnAlgebra

set_option maxRecDepth 16384

noncomputable section

namespace Cert.KernelIdeal.KValue

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

open Cert.Spec

/-! ## Region 0 -/

theorem Y0_spec (c : Dev nD) (nn x : Fin 100000 → Fin 128 → EReal) (e : EReal) (deg : Fin 100000 → EReal)
    (w1 : Fin 256 → Fin 128 → EReal)
    (hNN : ∀ r k, aNN V c (ix2 r k) = nn r k) (hX : ∀ r k, aX V c (ix2 r k) = x r k)
    (hS : ∀ r, aS V c (ix2 r (0 : Fin 1)) = (one + e) - deg r) (hW : ∀ k j, aW V c (ix2 k j) = w1 j k)
    (r : Fin 100000) (j : Fin 256) : Y0 V c r j = mm (resid nn e deg x) w1 r j := by
  unfold Y0 mm resid
  refine Finset.sum_congr rfl fun k _ => ?_
  rw [hNN, hX, hS, hW]

/-- The two cores' column sums add up to the column sum over all rows. -/
theorem G5_two (c : Dev nD) (j : Fin 256) :
    G5 V c (ix3 (0 : Fin 2) (0 : Fin 1) j) + G5 V c (ix3 (1 : Fin 2) (0 : Fin 1) j) = ∑ r : Fin 100000, Y0 V c r j := by
  unfold G5
  exact (Cert.Accum.two_groups (col0 V c j)).trans (Cert.Accum.sum_Ico_ext _)

theorem G6_two (c : Dev nD) (j : Fin 256) :
    G6 V c (ix3 (0 : Fin 2) (0 : Fin 1) j) + G6 V c (ix3 (1 : Fin 2) (0 : Fin 1) j) = ∑ r : Fin 100000, Y0 V c r j * Y0 V c r j := by
  unfold G6
  exact (Cert.Accum.two_groups (colSq0 V c j)).trans (Cert.Accum.sum_Ico_ext _)

/-! ## Region 1 -/

theorem Z1_spec (c : Dev nD) (y : Fin 100000 → Fin 256 → EReal) (g b : Fin 256 → EReal) (w2 : Fin 128 → Fin 256 → EReal)
    (hY : ∀ r j, bY V c (ix2 r j) = y r j) (hMu : ∀ j, bMu V c (ix2 (0 : Fin 1) j) = mean y j)
    (hVar : ∀ j, bVar V c (ix2 (0 : Fin 1) j) = varSq y j) (hG : ∀ j, bG V c (ix2 (0 : Fin 1) j) = g j)
    (hB : ∀ j, bB V c (ix2 (0 : Fin 1) j) = b j) (hW : ∀ j d, bW V c (ix2 j d) = w2 d j)
    (r : Fin 100000) (d : Fin 128) : Z1 V c r d = mm (bnSq y g b) w2 r d := by
  unfold Z1 A1 mm bnSq Cert.Spec.norm
  refine Finset.sum_congr rfl fun j _ => ?_
  rw [hY, hMu, hVar, hG, hB, hW]

theorem H7_two (c : Dev nD) (d : Fin 128) :
    H7 V c (ix3 (0 : Fin 2) (0 : Fin 1) d) + H7 V c (ix3 (1 : Fin 2) (0 : Fin 1) d) = ∑ r : Fin 100000, Z1 V c r d := by
  unfold H7
  exact (Cert.Accum.two_groups (col1 V c d)).trans (Cert.Accum.sum_Ico_ext _)

theorem H8_two (c : Dev nD) (d : Fin 128) :
    H8 V c (ix3 (0 : Fin 2) (0 : Fin 1) d) + H8 V c (ix3 (1 : Fin 2) (0 : Fin 1) d) = ∑ r : Fin 100000, Z1 V c r d * Z1 V c r d := by
  unfold H8
  exact (Cert.Accum.two_groups (colSq1 V c d)).trans (Cert.Accum.sum_Ico_ext _)

/-! ## Region 2 -/

theorem O2_spec (c : Dev nD) (z : Fin 100000 → Fin 128 → EReal) (g b : Fin 128 → EReal)
    (hY : ∀ r d, cY V c (ix2 r d) = z r d) (hMu : ∀ d, cMu V c (ix2 (0 : Fin 1) d) = mean z d)
    (hVar : ∀ d, cVar V c (ix2 (0 : Fin 1) d) = varSq z d) (hG : ∀ d, cG V c (ix2 (0 : Fin 1) d) = g d)
    (hB : ∀ d, cB V c (ix2 (0 : Fin 1) d) = b d)
    (r : Fin 100000) (d : Fin 128) : O2 V c r d = bnSq z g b r d := by
  unfold O2 bnSq Cert.Spec.norm
  rw [hY, hMu, hVar, hG, hB]

/-! ## The host's mean and clamped variance of squares from the two cores' sums -/

/-- The mean as the host computes it from two per-core sums. -/
theorem mean_of_two (y : Fin 100000 → Fin 256 → EReal) (j : Fin 256) (s0 s1 : EReal) (h : s0 + s1 = ∑ r : Fin 100000, y r j) :
    Ideal.div (zero + (s0 + s1)) nrows = mean y j := by
  unfold mean colSum
  rw [h, zero_eq, zero_add]

theorem varSq_of_two (y : Fin 100000 → Fin 256 → EReal) (j : Fin 256) (s0 s1 q0 q1 : EReal)
    (h : s0 + s1 = ∑ r : Fin 100000, y r j) (hq : q0 + q1 = ∑ r : Fin 100000, y r j * y r j) :
    max (Ideal.div (zero + (q0 + q1)) nrows - Ideal.div (zero + (s0 + s1)) nrows * Ideal.div (zero + (s0 + s1)) nrows) zero
      = varSq y j := by
  have hm := mean_of_two y j s0 s1 h
  unfold varSq colSumSq
  rw [hm, hq, zero_eq, zero_add]

theorem mean_of_two' (y : Fin 100000 → Fin 128 → EReal) (j : Fin 128) (s0 s1 : EReal) (h : s0 + s1 = ∑ r : Fin 100000, y r j) :
    Ideal.div (zero + (s0 + s1)) nrows = mean y j := by
  unfold mean colSum
  rw [h, zero_eq, zero_add]

theorem varSq_of_two' (y : Fin 100000 → Fin 128 → EReal) (j : Fin 128) (s0 s1 q0 q1 : EReal)
    (h : s0 + s1 = ∑ r : Fin 100000, y r j) (hq : q0 + q1 = ∑ r : Fin 100000, y r j * y r j) :
    max (Ideal.div (zero + (q0 + q1)) nrows - Ideal.div (zero + (s0 + s1)) nrows * Ideal.div (zero + (s0 + s1)) nrows) zero
      = varSq y j := by
  have hm := mean_of_two' y j s0 s1 h
  unfold varSq colSumSq
  rw [hm, hq, zero_eq, zero_add]

end Cert.KernelIdeal.KValue

end
-- ==== Proof.NodeNew.lean ====
/-
  The aggregated messages, as the host computes them in BOTH programs before anything else:
  an index array is first wrapped the way jnp indexing wraps a negative entry (a < 0 ? a + 100000 : a),
  the rows of the node features at the wrapped source and destination indices are gathered and added
  to the edge features,  msg = x[src] + x[dst] + ea,  and the messages are summed into the rows named by
  the (unwrapped) source and by the destination indices, from zero:
      nodeNew = segment_sum(msg, src) + segment_sum(msg, dst).
  The two programs agree on this prefix operation for operation; it is named here once so that each
  side's value is stated over the same term.
-/
import proofs.«151600_j50869592655513_2_alg».proof.ReferenceIdeal
import proofs.«151600_j50869592655513_2_alg».proof.Proof.Gen.ReferenceIdeal

noncomputable section

namespace Cert.RefSide

open Idealize.ShloMosaic Cert.ReferenceIdeal Cert.ReferenceIdeal.Facts₀ Cert.ReferenceIdeal.Facts

variable {F : FTy → Type} [FloatOps F]

/-- jnp's wrap of a possibly negative index, as a column of start indices. -/
def wrap (a : (⟨S600000, .i32⟩ : BufTy).Contents (Elt F)) : (⟨S600000x1, .i32⟩ : BufTy).Contents (Elt F) :=
  broadcastInDim S600000x1 ![0] bcast_S600000_S600000x1_0
    (select (cmpi .slt a (broadcastInDim S600000 ![] bcast_S_S600000 (constantI S_ 32 0#32)))
      (addi a (broadcastInDim S600000 ![] bcast_S_S600000 (constantI S_ 32 100000#32))) a)

/-- The message on each edge: the two endpoint rows plus the edge's own features. -/
def msg (a0 : (⟨S100000x128, .f32⟩ : BufTy).Contents (Elt F)) (a1 : (⟨S600000x128, .f32⟩ : BufTy).Contents (Elt F))
    (a10 a11 : (⟨S600000, .i32⟩ : BufTy).Contents (Elt F)) : (⟨S600000x128, .f32⟩ : BufTy).Contents (Elt F) :=
  addf (addf (Host.gather gather_S100000x128_S600000x1_S600000x128_1_0_n_n_0_1_1128 a0 (wrap a10))
    (Host.gather gather_S100000x128_S600000x1_S600000x128_1_0_n_n_0_1_1128 a0 (wrap a11))) a1

/-- The messages summed into the rows an index array names, from zero. -/
def segSum (idx : (⟨S600000, .i32⟩ : BufTy).Contents (Elt F)) (u : (⟨S600000x128, .f32⟩ : BufTy).Contents (Elt F)) :
    (⟨S100000x128, .f32⟩ : BufTy).Contents (Elt F) :=
  Host.scatterAdd scatter_S100000x128_S600000x1_S600000x128_1_0_0_1
    (broadcastInDim S100000x128 ![] bcast_S_S100000x128 (constant S_ .f32 0x00000000#32))
    (broadcastInDim S600000x1 ![0] bcast_S600000_S600000x1_0 idx) u

/-- The aggregated messages. -/
def nodeNew (a0 : (⟨S100000x128, .f32⟩ : BufTy).Contents (Elt F)) (a1 : (⟨S600000x128, .f32⟩ : BufTy).Contents (Elt F))
    (a10 a11 : (⟨S600000, .i32⟩ : BufTy).Contents (Elt F)) : (⟨S100000x128, .f32⟩ : BufTy).Contents (Elt F) :=
  addf (segSum a10 (msg a0 a1 a10 a11)) (segSum a11 (msg a0 a1 a10 a11))

end Cert.RefSide

end
-- ==== Proof.KHost0.lean ====
/-
  The first stretch of host operations of the kernel program, read from ANY contents before it.

  Before the first device region the host prepares what the region reads: the aggregated messages (the rows of the node
  features gathered at the two wrapped endpoint indices, added to the edge features, and summed into the rows the source
  and the destination indices name), the coefficient column (1 + e) - deg r, the two weight matrices transposed, and the
  four scale and shift vectors viewed as one-row matrices. Each prepared buffer is read here as an explicit function of the
  argument buffers, and every buffer the stretch does not write is left as it was.
-/
import proofs.«151600_j50869592655513_2_alg».proof.Proof.Spec
import proofs.«151600_j50869592655513_2_alg».proof.Proof.Gen.KernelIdeal.Launch
import proofs.«151600_j50869592655513_2_alg».proof.Proof.NodeNew
import proofs.«151600_j50869592655513_2_alg».proof.Proof.LibColumnLayout
import Idealize.ShloMosaic.Lib.StableHlo.Run
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.KernelIdeal.KHost

open Idealize.ShloMosaic Idealize.ShloMosaic.TcCoe Idealize.SL.Sem Idealize.ShloMosaic.StableHlo Idealize.ShloMosaic.ValueIdx
open Cert.KernelIdeal Cert.KernelIdeal.Facts₀ Cert.KernelIdeal.Facts

/-! ## The buffers the stretch writes, and the ones it keeps -/

/-- The buffers the first stretch writes. -/
abbrev hostW0 : List (Ref sig .tc) :=
  [main_c, main_v0, main_v1, main_c_0, main_v2, main_v3, main_v4, main_v5, main_v6, main_c_1, main_v7, main_v8, main_c_2,
   main_v9, main_v10, main_v11, main_v12, main_v13, main_v14, main_v15, main_cst, main_v16, main_v17, main_v18, main_cst_3,
   main_v19, main_v20, main_v21, main_v22, main_cst_4, main_v23, main_v24, main_v25, main_v26, main_v27, main_v28, main_v29,
   main_v30, main_v31, main_v32, main_v33]

theorem hostOps0_writes {F : FTy → Type} [FloatOps F] :
    (Gen.hostOps0 : List (HloOp τ sig (Elt F))).Forall fun op => op.writes ⊆ (hostW0.map (Proc.devRef (τ := τ) .tc)).toFinset := by
  simp only [Gen.hostOps0, List.Forall, nullary_writes, unary_writes, binary_writes, ternary_writes, reshape_writes,
    Finset.singleton_subset_iff, List.mem_toFinset]
  repeat' apply And.intro
  all_goals exact List.mem_map_of_mem (by decide)

/-- A buffer the first stretch does not write keeps its contents. -/
theorem keep0 {F : FTy → Type} [FloatOps F] (V : Valuation τ sig (Elt F)) (r : Ref sig .tc) (h : r ∉ hostW0) :
    after Gen.hostOps0 V (Proc.devRef .tc r) = V (Proc.devRef .tc r) :=
  after_of_writes_sub Gen.hostOps0 V hostOps0_writes h

/-! ## What the stretch leaves in the buffers the first region reads -/

/-- The first weight matrix transposed: entry (k, j) is the weight's entry (j, k). -/
theorem v28_apply (V : Valuation τ sig (Elt Ideal)) (k : Fin 128) (j : Fin 256) :
    (after Gen.hostOps0 V (Proc.devRef .tc main_v28) : S128x256.Idx → EReal) (ix2 k j)
      = (V (Proc.devRef .tc main_arg4) : S256x128.Idx → EReal) (ix2 j k) := by
  have e : (after Gen.hostOps0 V (Proc.devRef .tc main_v28) : S128x256.Idx → EReal)
      = transpose S128x256 [1, 0] (V (Proc.devRef .tc main_arg4) : S256x128.Idx → EReal) transposes_S256x128_S128x256_1_0 := by
    simp only [Gen.hostOps0]
    after_results_simp <;> rfl
  rw [e]
  exact transpose_ix2_apply _ _ k j

/-- The second weight matrix transposed: entry (j, d) is the weight's entry (d, j). -/
theorem v29_apply (V : Valuation τ sig (Elt Ideal)) (j : Fin 256) (d : Fin 128) :
    (after Gen.hostOps0 V (Proc.devRef .tc main_v29) : S256x128.Idx → EReal) (ix2 j d)
      = (V (Proc.devRef .tc main_arg7) : S128x256.Idx → EReal) (ix2 d j) := by
  have e : (after Gen.hostOps0 V (Proc.devRef .tc main_v29) : S256x128.Idx → EReal)
      = transpose S256x128 [1, 0] (V (Proc.devRef .tc main_arg7) : S128x256.Idx → EReal) transposes_S128x256_S256x128_1_0 := by
    simp only [Gen.hostOps0]
    after_results_simp <;> rfl
  rw [e]
  exact transpose_ix2_apply _ _ j d

/-- The first scale vector as a one-row matrix. -/
theorem v30_apply (V : Valuation τ sig (Elt Ideal)) (u : Fin 1) (j : Fin 256) :
    (after Gen.hostOps0 V (Proc.devRef .tc main_v30) : S1x256.Idx → EReal) (ix2 u j)
      = (V (Proc.devRef .tc main_arg5) : S256.Idx → EReal) (ix1 j) := by
  have e : (after Gen.hostOps0 V (Proc.devRef .tc main_v30) : S1x256.Idx → EReal)
      = shapeCast S1x256 (V (Proc.devRef .tc main_arg5) : S256.Idx → EReal) shapeCasts_S256_S1x256 := by
    simp only [Gen.hostOps0]
    after_results_simp <;> rfl
  rw [e]
  exact shapeCast_a_1a_apply _ _ u j

/-- The first shift vector as a one-row matrix. -/
theorem v31_apply (V : Valuation τ sig (Elt Ideal)) (u : Fin 1) (j : Fin 256) :
    (after Gen.hostOps0 V (Proc.devRef .tc main_v31) : S1x256.Idx → EReal) (ix2 u j)
      = (V (Proc.devRef .tc main_arg6) : S256.Idx → EReal) (ix1 j) := by
  have e : (after Gen.hostOps0 V (Proc.devRef .tc main_v31) : S1x256.Idx → EReal)
      = shapeCast S1x256 (V (Proc.devRef .tc main_arg6) : S256.Idx → EReal) shapeCasts_S256_S1x256 := by
    simp only [Gen.hostOps0]
    after_results_simp <;> rfl
  rw [e]
  exact shapeCast_a_1a_apply _ _ u j

/-- The second scale vector as a one-row matrix. -/
theorem v32_apply (V : Valuation τ sig (Elt Ideal)) (u : Fin 1) (d : Fin 128) :
    (after Gen.hostOps0 V (Proc.devRef .tc main_v32) : S1x128.Idx → EReal) (ix2 u d)
      = (V (Proc.devRef .tc main_arg8) : S128.Idx → EReal) (ix1 d) := by
  have e : (after Gen.hostOps0 V (Proc.devRef .tc main_v32) : S1x128.Idx → EReal)
      = shapeCast S1x128 (V (Proc.devRef .tc main_arg8) : S128.Idx → EReal) shapeCasts_S128_S1x128 := by
    simp only [Gen.hostOps0]
    after_results_simp <;> rfl
  rw [e]
  exact shapeCast_a_1a_apply _ _ u d

/-- The second shift vector as a one-row matrix. -/
theorem v33_apply (V : Valuation τ sig (Elt Ideal)) (u : Fin 1) (d : Fin 128) :
    (after Gen.hostOps0 V (Proc.devRef .tc main_v33) : S1x128.Idx → EReal) (ix2 u d)
      = (V (Proc.devRef .tc main_arg9) : S128.Idx → EReal) (ix1 d) := by
  have e : (after Gen.hostOps0 V (Proc.devRef .tc main_v33) : S1x128.Idx → EReal)
      = shapeCast S1x128 (V (Proc.devRef .tc main_arg9) : S128.Idx → EReal) shapeCasts_S128_S1x128 := by
    simp only [Gen.hostOps0]
    after_results_simp <;> rfl
  rw [e]
  exact shapeCast_a_1a_apply _ _ u d

/-- The coefficient column: in row r, (1 + e) - deg r, with e the one entry of the fourth argument. -/
theorem v27_apply (V : Valuation τ sig (Elt Ideal)) (r : Fin 100000) (u : Fin 1) :
    (after Gen.hostOps0 V (Proc.devRef .tc main_v27) : S100000x1.Idx → EReal) (ix2 r u)
      = (Cert.Spec.one + (V (Proc.devRef .tc main_arg3) : S1.Idx → EReal) (ix1 0))
          - (V (Proc.devRef .tc main_arg2) : S100000.Idx → EReal) (ix1 r) := by
  have e : (after Gen.hostOps0 V (Proc.devRef .tc main_v27) : S100000x1.Idx → EReal)
      = shapeCast S100000x1
          (subf (broadcastInDim S100000 ![0] bcast_S1_S100000_0
              (addf (broadcastInDim S1 ![] bcast_S_S1 (constant (F := Ideal) S_ .f32 0x3F800000#32))
                (V (Proc.devRef .tc main_arg3) : S1.Idx → EReal)))
            (V (Proc.devRef .tc main_arg2) : S100000.Idx → EReal))
          shapeCasts_S100000_S100000x1 := by
    simp only [Gen.hostOps0]
    after_results_simp <;> rfl
  rw [e, Cert.Lib.ColumnLayout.shapeCast_a_a1_apply _ _ r u, subf_apply]
  congr 1
  rw [broadcastInDim_apply (![0] : Fin 1 → Fin 1) bcast_S1_S100000_0 _ (ix1 r) (ix1 0) (fun a => by
    match a with | ⟨0, _⟩ => rfl)]
  rw [addf_apply, broadcastInDim_scalar_apply, constant_apply]
  rfl

set_option maxHeartbeats 2000000 in
/-- The aggregated messages: the reference-side definition, at the kernel program's argument buffers. -/
theorem v22_eq (V : Valuation τ sig (Elt Ideal)) :
    (after Gen.hostOps0 V (Proc.devRef .tc main_v22) : S100000x128.Idx → EReal)
      = Cert.RefSide.nodeNew (F := Ideal) (V (Proc.devRef .tc main_arg0)) (V (Proc.devRef .tc main_arg1))
          (V (Proc.devRef .tc main_arg10)) (V (Proc.devRef .tc main_arg11)) := by
  simp only [Gen.hostOps0]
  after_results_simp <;> rfl

end Cert.KernelIdeal.KHost

end
-- ==== Proof.KHost12.lean ====
/-
  The second and third stretches of host operations of the kernel program, read from ANY contents before them.

  Each device region leaves, per column, two partial sums of a block's entries and two partial sums of their squares, one
  pair per half of the rows. Between two regions the host adds the two halves from the float zero, divides by the float
  row count to get the batch mean M and the mean of the squares Q, and forms the variance max (Q - M * M) 0. Both
  results are read here at an entry, as explicit functions of the partial sums, and every buffer a stretch does not write is
  left as it was.
-/
import proofs.«151600_j50869592655513_2_alg».proof.Proof.Spec
import proofs.«151600_j50869592655513_2_alg».proof.Proof.Gen.KernelIdeal.Launch
import Idealize.ShloMosaic.Lib.StableHlo.Run
import Idealize.ShloMosaic.Lib.ValueIdx
import Idealize.ShloMosaic.Lib.Pipeline.Value
import Idealize.ShloMosaic.Lib.IdealHost
import Idealize.ShloMosaic.PureOps.Ideal.Laws

noncomputable section

namespace Cert.KernelIdeal.KHost

open Idealize.ShloMosaic Idealize.ShloMosaic.TcCoe Idealize.SL.Sem Idealize.ShloMosaic.StableHlo Idealize.ShloMosaic.ValueIdx
open Cert.KernelIdeal Cert.KernelIdeal.Facts₀ Cert.KernelIdeal.Facts
open scoped BigOperators

/-! ## The sum of the two halves, at an entry -/

/-- The host's sum over the leading axis of extent two of a [2, 1, 256] array, from a given start value: at column j the
    start value plus the two halves' entries. -/
theorem reduce2_256 (x : S2x1x256.Idx → EReal) (init : EReal) (u : Fin 1) (j : Fin 256) :
    Ideal.hostReduceAdd reducesTo_S2x1x256_S1x256_d0 x init (ix2 u j) = init + (x (ix3 0 0 j) + x (ix3 1 0 j)) := by
  obtain rfl : u = 0 := Subsingleton.elim _ _
  have hR : S2x1x256.Reduces [0] S1x256 := by decide
  rw [Ideal.hostReduceAdd_single reducesTo_S2x1x256_S1x256_d0 hR]
  have hl : ∀ k : Fin 2, hR.lift (ix2 (0 : Fin 1) j) k = ix3 k (0 : Fin 1) j := fun k => funext fun a =>
    match a with | ⟨0, _⟩ => Fin.ext rfl | ⟨1, _⟩ => Fin.ext rfl | ⟨2, _⟩ => Fin.ext rfl
  show init + ∑ k : Fin 2, x (hR.lift (ix2 (0 : Fin 1) j) k) = _
  rw [Fin.sum_univ_two, hl 0, hl 1]

/-- The same over a [2, 1, 128] array. -/
theorem reduce2_128 (x : S2x1x128.Idx → EReal) (init : EReal) (u : Fin 1) (j : Fin 128) :
    Ideal.hostReduceAdd reducesTo_S2x1x128_S1x128_d0 x init (ix2 u j) = init + (x (ix3 0 0 j) + x (ix3 1 0 j)) := by
  obtain rfl : u = 0 := Subsingleton.elim _ _
  have hR : S2x1x128.Reduces [0] S1x128 := by decide
  rw [Ideal.hostReduceAdd_single reducesTo_S2x1x128_S1x128_d0 hR]
  have hl : ∀ k : Fin 2, hR.lift (ix2 (0 : Fin 1) j) k = ix3 k (0 : Fin 1) j := fun k => funext fun a =>
    match a with | ⟨0, _⟩ => Fin.ext rfl | ⟨1, _⟩ => Fin.ext rfl | ⟨2, _⟩ => Fin.ext rfl
  show init + ∑ k : Fin 2, x (hR.lift (ix2 (0 : Fin 1) j) k) = _
  rw [Fin.sum_univ_two, hl 0, hl 1]

/-! ## The second stretch: the first batch normalisation's mean and variance -/

/-- The mean the host forms from the two partial sums S(0, 0, ·) and S(1, 0, ·) of a column: their sum from the float
    zero, over the float row count. -/
def mean2_256 (S : S2x1x256.Idx → EReal) (j : Fin 256) : EReal :=
  Ideal.div (Cert.Spec.zero + (S (ix3 0 0 j) + S (ix3 1 0 j))) Cert.Spec.nrows

/-- The variance the host forms from the partial sums S of the entries and Q of their squares: the mean of the squares
    less the squared mean, clamped at the float zero. -/
def var2_256 (S Q : S2x1x256.Idx → EReal) (j : Fin 256) : EReal :=
  max (mean2_256 Q j - mean2_256 S j * mean2_256 S j) Cert.Spec.zero

/-- The buffers the stretch writes. -/
abbrev hostW1 : List (Ref sig .tc) :=
  [main_cst_5, main_v35, main_cst_6, main_v36, main_cst_7, main_v37, main_v38, main_cst_8, main_v39, main_v40, main_v41, main_v42, main_cst_9, main_v43, main_v44]

theorem hostOps1_writes {F : FTy → Type} [FloatOps F] :
    (Gen.hostOps1 : List (HloOp τ sig (Elt F))).Forall fun op => op.writes ⊆ (hostW1.map (Proc.devRef (τ := τ) .tc)).toFinset := by
  simp only [Gen.hostOps1, List.Forall, nullary_writes, unary_writes, binary_writes, ternary_writes, reshape_writes,
    Finset.singleton_subset_iff, List.mem_toFinset]
  repeat' apply And.intro
  all_goals exact List.mem_map_of_mem (by decide)

/-- A buffer the stretch does not write keeps its contents. -/
theorem keep1 {F : FTy → Type} [FloatOps F] (V : Valuation τ sig (Elt F)) (r : Ref sig .tc) (h : r ∉ hostW1) :
    after Gen.hostOps1 V (Proc.devRef .tc r) = V (Proc.devRef .tc r) :=
  after_of_writes_sub Gen.hostOps1 V hostOps1_writes h

/-- The batch mean, at an entry of its one-row matrix. -/
theorem v38_apply (V : Valuation τ sig (Elt Ideal)) (u : Fin 1) (j : Fin 256) :
    (after Gen.hostOps1 V (Proc.devRef .tc main_v38) : S1x256.Idx → EReal) (ix2 u j)
      = mean2_256 (V (Proc.devRef .tc main_v34_1)) j := by
  have e : (after Gen.hostOps1 V (Proc.devRef .tc main_v38) : S1x256.Idx → EReal)
      = Host.divf (Host.reduceAdd (V (Proc.devRef .tc main_v34_1) : S2x1x256.Idx → EReal) (constant (F := Ideal) S_ .f32 0x00000000#32)
            reducesTo_S2x1x256_S1x256_d0 h_S_)
          (broadcastInDim S1x256 ![] bcast_S_S1x256 (constant (F := Ideal) S_ .f32 0x47C35000#32)) := by
    simp only [Gen.hostOps1]
    after_results_simp <;> rfl
  rw [e, hostDivf_apply, broadcastInDim_scalar_apply, constant_apply, hostReduceAdd_apply, constant_apply, reduce2_256]
  rfl

/-- The batch variance, at an entry of its one-row matrix. -/
theorem v44_apply (V : Valuation τ sig (Elt Ideal)) (u : Fin 1) (j : Fin 256) :
    (after Gen.hostOps1 V (Proc.devRef .tc main_v44) : S1x256.Idx → EReal) (ix2 u j)
      = var2_256 (V (Proc.devRef .tc main_v34_1)) (V (Proc.devRef .tc main_v34_2)) j := by
  have e : (after Gen.hostOps1 V (Proc.devRef .tc main_v44) : S1x256.Idx → EReal)
      = maximumf
          (subf
            (Host.divf (Host.reduceAdd (V (Proc.devRef .tc main_v34_2) : S2x1x256.Idx → EReal) (constant (F := Ideal) S_ .f32 0x00000000#32)
                reducesTo_S2x1x256_S1x256_d0 h_S_)
              (broadcastInDim S1x256 ![] bcast_S_S1x256 (constant (F := Ideal) S_ .f32 0x47C35000#32)))
            (mulf
              (Host.divf (Host.reduceAdd (V (Proc.devRef .tc main_v34_1) : S2x1x256.Idx → EReal) (constant (F := Ideal) S_ .f32 0x00000000#32)
                  reducesTo_S2x1x256_S1x256_d0 h_S_)
                (broadcastInDim S1x256 ![] bcast_S_S1x256 (constant (F := Ideal) S_ .f32 0x47C35000#32)))
              (Host.divf (Host.reduceAdd (V (Proc.devRef .tc main_v34_1) : S2x1x256.Idx → EReal) (constant (F := Ideal) S_ .f32 0x00000000#32)
                  reducesTo_S2x1x256_S1x256_d0 h_S_)
                (broadcastInDim S1x256 ![] bcast_S_S1x256 (constant (F := Ideal) S_ .f32 0x47C35000#32)))))
          (broadcastInDim S1x256 ![] bcast_S_S1x256 (constant (F := Ideal) S_ .f32 0x00000000#32)) := by
    simp only [Gen.hostOps1]
    after_results_simp <;> rfl
  rw [e, maximumf_apply, subf_apply, mulf_apply, hostDivf_apply, hostDivf_apply]
  simp only [broadcastInDim_scalar_apply, constant_apply, hostReduceAdd_apply, reduce2_256]
  rfl

/-! ## The third stretch: the second batch normalisation's mean and variance -/

/-- The mean the host forms from the two partial sums S(0, 0, ·) and S(1, 0, ·) of a column: their sum from the float
    zero, over the float row count. -/
def mean2_128 (S : S2x1x128.Idx → EReal) (j : Fin 128) : EReal :=
  Ideal.div (Cert.Spec.zero + (S (ix3 0 0 j) + S (ix3 1 0 j))) Cert.Spec.nrows

/-- The variance the host forms from the partial sums S of the entries and Q of their squares: the mean of the squares
    less the squared mean, clamped at the float zero. -/
def var2_128 (S Q : S2x1x128.Idx → EReal) (j : Fin 128) : EReal :=
  max (mean2_128 Q j - mean2_128 S j * mean2_128 S j) Cert.Spec.zero

/-- The buffers the stretch writes. -/
abbrev hostW2 : List (Ref sig .tc) :=
  [main_cst_10, main_v46, main_cst_11, main_v47, main_cst_12, main_v48, main_v49, main_cst_13, main_v50, main_v51, main_v52, main_v53, main_cst_14, main_v54, main_v55]

theorem hostOps2_writes {F : FTy → Type} [FloatOps F] :
    (Gen.hostOps2 : List (HloOp τ sig (Elt F))).Forall fun op => op.writes ⊆ (hostW2.map (Proc.devRef (τ := τ) .tc)).toFinset := by
  simp only [Gen.hostOps2, List.Forall, nullary_writes, unary_writes, binary_writes, ternary_writes, reshape_writes,
    Finset.singleton_subset_iff, List.mem_toFinset]
  repeat' apply And.intro
  all_goals exact List.mem_map_of_mem (by decide)

/-- A buffer the stretch does not write keeps its contents. -/
theorem keep2 {F : FTy → Type} [FloatOps F] (V : Valuation τ sig (Elt F)) (r : Ref sig .tc) (h : r ∉ hostW2) :
    after Gen.hostOps2 V (Proc.devRef .tc r) = V (Proc.devRef .tc r) :=
  after_of_writes_sub Gen.hostOps2 V hostOps2_writes h

/-- The batch mean, at an entry of its one-row matrix. -/
theorem v49_apply (V : Valuation τ sig (Elt Ideal)) (u : Fin 1) (j : Fin 128) :
    (after Gen.hostOps2 V (Proc.devRef .tc main_v49) : S1x128.Idx → EReal) (ix2 u j)
      = mean2_128 (V (Proc.devRef .tc main_v45_1)) j := by
  have e : (after Gen.hostOps2 V (Proc.devRef .tc main_v49) : S1x128.Idx → EReal)
      = Host.divf (Host.reduceAdd (V (Proc.devRef .tc main_v45_1) : S2x1x128.Idx → EReal) (constant (F := Ideal) S_ .f32 0x00000000#32)
            reducesTo_S2x1x128_S1x128_d0 h_S_)
          (broadcastInDim S1x128 ![] bcast_S_S1x128 (constant (F := Ideal) S_ .f32 0x47C35000#32)) := by
    simp only [Gen.hostOps2]
    after_results_simp <;> rfl
  rw [e, hostDivf_apply, broadcastInDim_scalar_apply, constant_apply, hostReduceAdd_apply, constant_apply, reduce2_128]
  rfl

/-- The batch variance, at an entry of its one-row matrix. -/
theorem v55_apply (V : Valuation τ sig (Elt Ideal)) (u : Fin 1) (j : Fin 128) :
    (after Gen.hostOps2 V (Proc.devRef .tc main_v55) : S1x128.Idx → EReal) (ix2 u j)
      = var2_128 (V (Proc.devRef .tc main_v45_1)) (V (Proc.devRef .tc main_v45_2)) j := by
  have e : (after Gen.hostOps2 V (Proc.devRef .tc main_v55) : S1x128.Idx → EReal)
      = maximumf
          (subf
            (Host.divf (Host.reduceAdd (V (Proc.devRef .tc main_v45_2) : S2x1x128.Idx → EReal) (constant (F := Ideal) S_ .f32 0x00000000#32)
                reducesTo_S2x1x128_S1x128_d0 h_S_)
              (broadcastInDim S1x128 ![] bcast_S_S1x128 (constant (F := Ideal) S_ .f32 0x47C35000#32)))
            (mulf
              (Host.divf (Host.reduceAdd (V (Proc.devRef .tc main_v45_1) : S2x1x128.Idx → EReal) (constant (F := Ideal) S_ .f32 0x00000000#32)
                  reducesTo_S2x1x128_S1x128_d0 h_S_)
                (broadcastInDim S1x128 ![] bcast_S_S1x128 (constant (F := Ideal) S_ .f32 0x47C35000#32)))
              (Host.divf (Host.reduceAdd (V (Proc.devRef .tc main_v45_1) : S2x1x128.Idx → EReal) (constant (F := Ideal) S_ .f32 0x00000000#32)
                  reducesTo_S2x1x128_S1x128_d0 h_S_)
                (broadcastInDim S1x128 ![] bcast_S_S1x128 (constant (F := Ideal) S_ .f32 0x47C35000#32)))))
          (broadcastInDim S1x128 ![] bcast_S_S1x128 (constant (F := Ideal) S_ .f32 0x00000000#32)) := by
    simp only [Gen.hostOps2]
    after_results_simp <;> rfl
  rw [e, maximumf_apply, subf_apply, mulf_apply, hostDivf_apply, hostDivf_apply]
  simp only [broadcastInDim_scalar_apply, constant_apply, hostReduceAdd_apply, reduce2_128]
  rfl

end Cert.KernelIdeal.KHost

end
-- ==== Proof.KRun.lean ====
/-
  The tiled program's run with its result array named.

  @main is six segments: a stretch of host operations, the first linear map's region, a second stretch (the batch
  statistics of the first map), the second map's region, a third stretch (the statistics of the second map) and the
  final normalisation's region. The contents of every unscoped buffer at the six boundaries are folded through @main from
  the launch memory; after the last region they are W6. Every weakly fair execution terminates, without a fault, in a state
  whose unscoped buffers hold W6: in particular the result array holds W6 at its reference, and the twelve argument arrays
  hold what they held at launch. The later modules read W6 at the result array back through the three regions.
-/
import proofs.«151600_j50869592655513_2_alg».proof.Proof.Gen.KernelIdeal.Frame

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding plain
-- definitions in a metavariable's type
set_option backward.isDefEq.respectTransparency.types false in
/-- Every weakly fair execution of @main terminates, nothing faulting, with the result array at the last boundary's
    contents and the argument arrays as launched. -/
theorem run_result : θ_run defs (onTc (τ := τ) (main (F := F))) ⟨m, fun _ => 0, ρ⟩ (fun r => ∀ c : Dev nD,
      r.2.mem ((c.tc : Thread nD τ).loc main_v56) = W6 m ρ c (Proc.devRef .tc main_v56)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v56 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c)⟩)

end Cert.KernelIdeal.KValue

end
-- ==== Proof.Result.lean ====
/-
  The layer's result array as a function of the twelve argument arrays: the specification's layer applied to
  the arguments read by coordinates — the aggregated messages, the residual's eps (its one entry), the
  degrees, the node features, and the two linear maps' weights with their normalisation scales and shifts.
  Stated twice: with the variance of deviations (what the plain jnp program computes) and with the clamped
  variance of squares (what the tiled program computes from its running sums).
-/
import proofs.«151600_j50869592655513_2_alg».proof.Proof.Spec
import proofs.«151600_j50869592655513_2_alg».proof.Proof.NodeNew

noncomputable section

namespace Cert.RefSide

open Idealize.ShloMosaic Idealize.ShloMosaic.ValueIdx Cert.ReferenceIdeal

/-- The aggregated messages by coordinates. -/
def nnC (a0 : (⟨S100000x128, .f32⟩ : BufTy).Contents (Elt Ideal)) (a1 : (⟨S600000x128, .f32⟩ : BufTy).Contents (Elt Ideal))
    (a10 a11 : (⟨S600000, .i32⟩ : BufTy).Contents (Elt Ideal)) : Fin 100000 → Fin 128 → EReal :=
  fun r t => nodeNew (F := Ideal) a0 a1 a10 a11 (ix2 r t)

/-- The result with the variance of deviations. -/
def outDev (a0 : (⟨S100000x128, .f32⟩ : BufTy).Contents (Elt Ideal)) (a1 : (⟨S600000x128, .f32⟩ : BufTy).Contents (Elt Ideal))
    (a2 : (⟨S100000, .f32⟩ : BufTy).Contents (Elt Ideal)) (a3 : (⟨S1, .f32⟩ : BufTy).Contents (Elt Ideal))
    (a4 : (⟨S256x128, .f32⟩ : BufTy).Contents (Elt Ideal)) (a5 a6 : (⟨S256, .f32⟩ : BufTy).Contents (Elt Ideal))
    (a7 : (⟨S128x256, .f32⟩ : BufTy).Contents (Elt Ideal)) (a8 a9 : (⟨S128, .f32⟩ : BufTy).Contents (Elt Ideal))
    (a10 a11 : (⟨S600000, .i32⟩ : BufTy).Contents (Elt Ideal)) : (⟨S100000x128, .f32⟩ : BufTy).Contents (Elt Ideal) :=
  fun i => Cert.Spec.layerDev (nnC a0 a1 a10 a11) (a3 (ix1 0)) (fun r => a2 (ix1 r)) (fun r t => a0 (ix2 r t))
    (fun j t => a4 (ix2 j t)) (fun j => a5 (ix1 j)) (fun j => a6 (ix1 j))
    (fun j t => a7 (ix2 j t)) (fun j => a8 (ix1 j)) (fun j => a9 (ix1 j)) (i 0) (i 1)

/-- The result with the clamped variance of squares. -/
def outSq (a0 : (⟨S100000x128, .f32⟩ : BufTy).Contents (Elt Ideal)) (a1 : (⟨S600000x128, .f32⟩ : BufTy).Contents (Elt Ideal))
    (a2 : (⟨S100000, .f32⟩ : BufTy).Contents (Elt Ideal)) (a3 : (⟨S1, .f32⟩ : BufTy).Contents (Elt Ideal))
    (a4 : (⟨S256x128, .f32⟩ : BufTy).Contents (Elt Ideal)) (a5 a6 : (⟨S256, .f32⟩ : BufTy).Contents (Elt Ideal))
    (a7 : (⟨S128x256, .f32⟩ : BufTy).Contents (Elt Ideal)) (a8 a9 : (⟨S128, .f32⟩ : BufTy).Contents (Elt Ideal))
    (a10 a11 : (⟨S600000, .i32⟩ : BufTy).Contents (Elt Ideal)) : (⟨S100000x128, .f32⟩ : BufTy).Contents (Elt Ideal) :=
  fun i => Cert.Spec.layerSq (nnC a0 a1 a10 a11) (a3 (ix1 0)) (fun r => a2 (ix1 r)) (fun r t => a0 (ix2 r t))
    (fun j t => a4 (ix2 j t)) (fun j => a5 (ix1 j)) (fun j => a6 (ix1 j))
    (fun j t => a7 (ix2 j t)) (fun j => a8 (ix1 j)) (fun j => a9 (ix1 j)) (i 0) (i 1)

end Cert.RefSide

end
-- ==== Proof.KChain.lean ====
/-
  The tiled program's result array as the specification's layer of the argument arrays.

  The contents of the unscoped buffers at @main's six boundaries are read back from the last to the first: the result array
  is the final region's array, a function of that region's entry contents; those are the second region's product array
  and the host's mean and clamped variance of squares of its two per-core sums, beside the scale and shift reshaped by
  the first stretch; the second region's entry contents are in turn the first region's arrays and the first stretch's
  results; and the first stretch computes the aggregated messages, the residual's coefficient and the transposed weights
  from the launch contents of the arguments. Composed, the result array is  layerSq  of the arguments by coordinates.
-/
import proofs.«151600_j50869592655513_2_alg».proof.Proof.KSpec
import proofs.«151600_j50869592655513_2_alg».proof.Proof.KHost0
import proofs.«151600_j50869592655513_2_alg».proof.Proof.KHost12
import proofs.«151600_j50869592655513_2_alg».proof.Proof.KRun
import proofs.«151600_j50869592655513_2_alg».proof.Proof.Result

set_option maxRecDepth 16384

noncomputable section

namespace Cert.KernelIdeal.KValue

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

open Cert.Spec

variable (m : (ℓ : Loc nD τ sig) → Buf (Elt Ideal) ℓ) (ρ : Dev nD → PrngReg) (c : Dev nD)

/-! ## The arguments by coordinates -/

abbrev nnF : Fin 100000 → Fin 128 → EReal :=
  Cert.RefSide.nnC (m ((c.tc : Thread nD τ).loc main_arg0)) (m ((c.tc : Thread nD τ).loc main_arg1))
    (m ((c.tc : Thread nD τ).loc main_arg10)) (m ((c.tc : Thread nD τ).loc main_arg11))
abbrev xF : Fin 100000 → Fin 128 → EReal := fun r k => (m ((c.tc : Thread nD τ).loc main_arg0) : S100000x128.Idx → EReal) (ix2 r k)
abbrev degF : Fin 100000 → EReal := fun r => (m ((c.tc : Thread nD τ).loc main_arg2) : S100000.Idx → EReal) (ix1 r)
abbrev eF : EReal := (m ((c.tc : Thread nD τ).loc main_arg3) : S1.Idx → EReal) (ix1 (0 : Fin 1))
abbrev w1F : Fin 256 → Fin 128 → EReal := fun j k => (m ((c.tc : Thread nD τ).loc main_arg4) : S256x128.Idx → EReal) (ix2 j k)
abbrev g1F : Fin 256 → EReal := fun j => (m ((c.tc : Thread nD τ).loc main_arg5) : S256.Idx → EReal) (ix1 j)
abbrev b1F : Fin 256 → EReal := fun j => (m ((c.tc : Thread nD τ).loc main_arg6) : S256.Idx → EReal) (ix1 j)
abbrev w2F : Fin 128 → Fin 256 → EReal := fun d j => (m ((c.tc : Thread nD τ).loc main_arg7) : S128x256.Idx → EReal) (ix2 d j)
abbrev g2F : Fin 128 → EReal := fun d => (m ((c.tc : Thread nD τ).loc main_arg8) : S128.Idx → EReal) (ix1 d)
abbrev b2F : Fin 128 → EReal := fun d => (m ((c.tc : Thread nD τ).loc main_arg9) : S128.Idx → EReal) (ix1 d)

/-- The first map's output, its normalisation, the second map's output. -/
abbrev Yf : Fin 100000 → Fin 256 → EReal := mm (resid (nnF m c) (eF m c) (degF m c) (xF m c)) (w1F m c)
abbrev Af : Fin 100000 → Fin 256 → EReal := bnSq (Yf m c) (g1F m c) (b1F m c)
abbrev Zf : Fin 100000 → Fin 128 → EReal := mm (Af m c) (w2F m c)

/-! ## The first region's entry contents and arrays -/

theorem hY0 (r : Fin 100000) (j : Fin 256) : Y0 (V1 m ρ) c r j = Yf m c r j :=
  Y0_spec (V1 m ρ) c (nnF m c) (xF m c) (eF m c) (degF m c) (w1F m c)
    (fun r k => congrFun (KHost.v22_eq (W0 m ρ c)) (ix2 r k))
    (fun r k => congrFun (KHost.keep0 (W0 m ρ c) main_arg0 (by decide)) (ix2 r k))
    (fun r => KHost.v27_apply (W0 m ρ c) r 0)
    (fun k j => KHost.v28_apply (W0 m ρ c) k j) r j

/-- The first region's three arrays at its exit. -/
theorem W2_y : (W2 m ρ c (Proc.devRef .tc main_v34_0) : S100000x256.Idx → EReal) = G4 (V1 m ρ) c :=
  (W2_arr m ρ c 4).trans (final4 (V1 m ρ) c)
theorem W2_s : (W2 m ρ c (Proc.devRef .tc main_v34_1) : S2x1x256.Idx → EReal) = G5 (V1 m ρ) c :=
  (W2_arr m ρ c 5).trans (final5 (V1 m ρ) c)
theorem W2_q : (W2 m ρ c (Proc.devRef .tc main_v34_2) : S2x1x256.Idx → EReal) = G6 (V1 m ρ) c :=
  (W2_arr m ρ c 6).trans (final6 (V1 m ρ) c)

theorem sumY (j : Fin 256) :
    G5 (V1 m ρ) c (ix3 (0 : Fin 2) (0 : Fin 1) j) + G5 (V1 m ρ) c (ix3 (1 : Fin 2) (0 : Fin 1) j) = ∑ r : Fin 100000, Yf m c r j :=
  (G5_two (V1 m ρ) c j).trans (Finset.sum_congr rfl fun r _ => hY0 m ρ c r j)
theorem sumYsq (j : Fin 256) :
    G6 (V1 m ρ) c (ix3 (0 : Fin 2) (0 : Fin 1) j) + G6 (V1 m ρ) c (ix3 (1 : Fin 2) (0 : Fin 1) j)
      = ∑ r : Fin 100000, Yf m c r j * Yf m c r j :=
  (G6_two (V1 m ρ) c j).trans (Finset.sum_congr rfl fun r _ => by rw [hY0 m ρ c r j])

/-! ## The second region's entry contents and arrays -/

/-- A buffer the first stretch wrote and neither the first region nor the second stretch touches. -/
theorem V3_of_W1 (b : Ref sig .tc) (h1 : b ∉ KHost.hostW1) (h0 : ∀ w, Pipeline.arrRef spec0 w ≠ b) :
    W3 m ρ c (Proc.devRef .tc b) = W1 m ρ c (Proc.devRef .tc b) :=
  (KHost.keep1 (W2 m ρ c) b h1).trans (W2_of_ne m ρ c b h0)

theorem hZ1 (r : Fin 100000) (d : Fin 128) : Z1 (V3 m ρ) c r d = Zf m c r d :=
  Z1_spec (V3 m ρ) c (Yf m c) (g1F m c) (b1F m c) (w2F m c)
    (fun r j => (congrFun ((KHost.keep1 (W2 m ρ c) main_v34_0 (by decide)).trans (W2_y m ρ c)) (ix2 r j)).trans (hY0 m ρ c r j))
    (fun j => by
      refine (KHost.v38_apply (W2 m ρ c) 0 j).trans ?_
      rw [W2_s]
      unfold KHost.mean2_256
      exact mean_of_two (Yf m c) j _ _ (sumY m ρ c j))
    (fun j => by
      refine (KHost.v44_apply (W2 m ρ c) 0 j).trans ?_
      rw [W2_s, W2_q]
      unfold KHost.var2_256 KHost.mean2_256
      exact varSq_of_two (Yf m c) j _ _ _ _ (sumY m ρ c j) (sumYsq m ρ c j))
    (fun j => (congrFun (V3_of_W1 m ρ c main_v30 (by decide) (by decide)) (ix2 (0 : Fin 1) j)).trans (KHost.v30_apply (W0 m ρ c) 0 j))
    (fun j => (congrFun (V3_of_W1 m ρ c main_v31 (by decide) (by decide)) (ix2 (0 : Fin 1) j)).trans (KHost.v31_apply (W0 m ρ c) 0 j))
    (fun j d => (congrFun (V3_of_W1 m ρ c main_v29 (by decide) (by decide)) (ix2 j d)).trans (KHost.v29_apply (W0 m ρ c) j d)) r d

/-- The second region's three arrays at its exit. -/
theorem W4_y : (W4 m ρ c (Proc.devRef .tc main_v45_0) : S100000x128.Idx → EReal) = H6 (V3 m ρ) c :=
  (W4_arr m ρ c 6).trans (final1_6 (V3 m ρ) c)
theorem W4_s : (W4 m ρ c (Proc.devRef .tc main_v45_1) : S2x1x128.Idx → EReal) = H7 (V3 m ρ) c :=
  (W4_arr m ρ c 7).trans (final1_7 (V3 m ρ) c)
theorem W4_q : (W4 m ρ c (Proc.devRef .tc main_v45_2) : S2x1x128.Idx → EReal) = H8 (V3 m ρ) c :=
  (W4_arr m ρ c 8).trans (final1_8 (V3 m ρ) c)

theorem sumZ (d : Fin 128) :
    H7 (V3 m ρ) c (ix3 (0 : Fin 2) (0 : Fin 1) d) + H7 (V3 m ρ) c (ix3 (1 : Fin 2) (0 : Fin 1) d) = ∑ r : Fin 100000, Zf m c r d :=
  (H7_two (V3 m ρ) c d).trans (Finset.sum_congr rfl fun r _ => hZ1 m ρ c r d)
theorem sumZsq (d : Fin 128) :
    H8 (V3 m ρ) c (ix3 (0 : Fin 2) (0 : Fin 1) d) + H8 (V3 m ρ) c (ix3 (1 : Fin 2) (0 : Fin 1) d)
      = ∑ r : Fin 100000, Zf m c r d * Zf m c r d :=
  (H8_two (V3 m ρ) c d).trans (Finset.sum_congr rfl fun r _ => by rw [hZ1 m ρ c r d])

/-! ## The last region's entry contents and the result -/

theorem V5_of_W1 (b : Ref sig .tc) (h2 : b ∉ KHost.hostW2) (h1' : ∀ w, Pipeline.arrRef spec1 w ≠ b) (h1 : b ∉ KHost.hostW1)
    (h0 : ∀ w, Pipeline.arrRef spec0 w ≠ b) : W5 m ρ c (Proc.devRef .tc b) = W1 m ρ c (Proc.devRef .tc b) :=
  ((KHost.keep2 (W4 m ρ c) b h2).trans (W4_of_ne m ρ c b h1')).trans (V3_of_W1 m ρ c b h1 h0)

theorem hO2 (r : Fin 100000) (d : Fin 128) : O2 (V5 m ρ) c r d = bnSq (Zf m c) (g2F m c) (b2F m c) r d :=
  O2_spec (V5 m ρ) c (Zf m c) (g2F m c) (b2F m c)
    (fun r d => (congrFun ((KHost.keep2 (W4 m ρ c) main_v45_0 (by decide)).trans (W4_y m ρ c)) (ix2 r d)).trans (hZ1 m ρ c r d))
    (fun d => by
      refine (KHost.v49_apply (W4 m ρ c) 0 d).trans ?_
      rw [W4_s]
      unfold KHost.mean2_128
      exact mean_of_two' (Zf m c) d _ _ (sumZ m ρ c d))
    (fun d => by
      refine (KHost.v55_apply (W4 m ρ c) 0 d).trans ?_
      rw [W4_s, W4_q]
      unfold KHost.var2_128 KHost.mean2_128
      exact varSq_of_two' (Zf m c) d _ _ _ _ (sumZ m ρ c d) (sumZsq m ρ c d))
    (fun d => (congrFun (V5_of_W1 m ρ c main_v32 (by decide) (by decide) (by decide) (by decide)) (ix2 (0 : Fin 1) d)).trans (KHost.v32_apply (W0 m ρ c) 0 d))
    (fun d => (congrFun (V5_of_W1 m ρ c main_v33 (by decide) (by decide) (by decide) (by decide)) (ix2 (0 : Fin 1) d)).trans (KHost.v33_apply (W0 m ρ c) 0 d)) r d

/-- The result array after the last region: the layer, with the clamped variance of squares, of the arguments. -/
theorem W6_result :
    (W6 m ρ c (Proc.devRef .tc main_v56) : S100000x128.Idx → EReal)
      = Cert.RefSide.outSq (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11)) := by
  refine ((W6_arr m ρ c 5).trans (final2_5 (V5 m ρ) c)).trans ?_
  funext i
  obtain ⟨r, d, rfl⟩ : ∃ (r : Fin 100000) (d : Fin 128), i = ix2 r d := ⟨i 0, i 1, eq_ix2 i⟩
  exact hO2 m ρ c r d

end Cert.KernelIdeal.KValue

end
-- ==== Proof.RefRun.lean ====
/-
  The plain jnp program's host function as a list of its 107 StableHLO operations, in order (a called
  function's three operations — the zero, its broadcast, the maximum — in place of its call), and its run:
  every weakly fair execution terminates with each buffer at the operations' results folded over the launch
  contents. The value that fold leaves in the result buffer is read in stages in the modules after this one.
-/
import proofs.«151600_j50869592655513_2_alg».proof.ReferenceIdeal
import proofs.«151600_j50869592655513_2_alg».proof.Proof.Gen.ReferenceIdeal
import Idealize.ShloMosaic.Lib.StableHlo.Run

noncomputable section

namespace Cert.RefSide

open Idealize.ShloMosaic Idealize.ShloMosaic.TcCoe Idealize.SL.Sem Idealize.ShloMosaic.StableHlo
open Cert.ReferenceIdeal Cert.ReferenceIdeal.Facts₀ Cert.ReferenceIdeal.Facts

variable {F : FTy → Type} [FloatOps F]

/-- The host function's 107 operations, in order. -/
abbrev ops : List (HloOp τ sig (Elt F)) :=
  [
    nullary main_c (constantI S_ 32 0#32),
    unary main_c main_v0 (broadcastInDim S600000 ![] bcast_S_S600000 : (⟨S_, .i32⟩ : BufTy).Contents (Elt F) → (⟨S600000, .i32⟩ : BufTy).Contents (Elt F)),
    binary main_arg10 main_v0 main_v1 (cmpi .slt : (⟨S600000, .i32⟩ : BufTy).Contents (Elt F) → (⟨S600000, .i32⟩ : BufTy).Contents (Elt F) → (⟨S600000, .i1⟩ : BufTy).Contents (Elt F)),
    nullary main_c_0 (constantI S_ 32 100000#32),
    unary main_c_0 main_v2 (broadcastInDim S600000 ![] bcast_S_S600000 : (⟨S_, .i32⟩ : BufTy).Contents (Elt F) → (⟨S600000, .i32⟩ : BufTy).Contents (Elt F)),
    binary main_arg10 main_v2 main_v3 (addi : (⟨S600000, .i32⟩ : BufTy).Contents (Elt F) → (⟨S600000, .i32⟩ : BufTy).Contents (Elt F) → (⟨S600000, .i32⟩ : BufTy).Contents (Elt F)),
    ternary main_v1 main_v3 main_arg10 main_v4 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v4 main_v5 (broadcastInDim S600000x1 ![0] bcast_S600000_S600000x1_0 : (⟨S600000, .i32⟩ : BufTy).Contents (Elt F) → (⟨S600000x1, .i32⟩ : BufTy).Contents (Elt F)),
    binary main_arg0 main_v5 main_v6 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    nullary main_c_1 (constantI S_ 32 0#32),
    unary main_c_1 main_v7 (broadcastInDim S600000 ![] bcast_S_S600000 : (⟨S_, .i32⟩ : BufTy).Contents (Elt F) → (⟨S600000, .i32⟩ : BufTy).Contents (Elt F)),
    binary main_arg11 main_v7 main_v8 (cmpi .slt : (⟨S600000, .i32⟩ : BufTy).Contents (Elt F) → (⟨S600000, .i32⟩ : BufTy).Contents (Elt F) → (⟨S600000, .i1⟩ : BufTy).Contents (Elt F)),
    nullary main_c_2 (constantI S_ 32 100000#32),
    unary main_c_2 main_v9 (broadcastInDim S600000 ![] bcast_S_S600000 : (⟨S_, .i32⟩ : BufTy).Contents (Elt F) → (⟨S600000, .i32⟩ : BufTy).Contents (Elt F)),
    binary main_arg11 main_v9 main_v10 (addi : (⟨S600000, .i32⟩ : BufTy).Contents (Elt F) → (⟨S600000, .i32⟩ : BufTy).Contents (Elt F) → (⟨S600000, .i32⟩ : BufTy).Contents (Elt F)),
    ternary main_v8 main_v10 main_arg11 main_v11 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v11 main_v12 (broadcastInDim S600000x1 ![0] bcast_S600000_S600000x1_0 : (⟨S600000, .i32⟩ : BufTy).Contents (Elt F) → (⟨S600000x1, .i32⟩ : BufTy).Contents (Elt F)),
    binary main_arg0 main_v12 main_v13 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    binary main_v6 main_v13 main_v14 (addf : (⟨S600000x128, .f32⟩ : BufTy).Contents (Elt F) → (⟨S600000x128, .f32⟩ : BufTy).Contents (Elt F) → (⟨S600000x128, .f32⟩ : BufTy).Contents (Elt F)),
    binary main_v14 main_arg1 main_v15 (addf : (⟨S600000x128, .f32⟩ : BufTy).Contents (Elt F) → (⟨S600000x128, .f32⟩ : BufTy).Contents (Elt F) → (⟨S600000x128, .f32⟩ : BufTy).Contents (Elt F)),
    nullary main_cst (constant S_ .f32 0x00000000#32),
    unary main_cst main_v16 (broadcastInDim S100000x128 ![] bcast_S_S100000x128 : (⟨S_, .f32⟩ : BufTy).Contents (Elt F) → (⟨S100000x128, .f32⟩ : BufTy).Contents (Elt F)),
    unary main_arg10 main_v17 (broadcastInDim S600000x1 ![0] bcast_S600000_S600000x1_0 : (⟨S600000, .i32⟩ : BufTy).Contents (Elt F) → (⟨S600000x1, .i32⟩ : BufTy).Contents (Elt F)),
    ternary main_v16 main_v17 main_v15 main_v18 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    nullary main_cst_3 (constant S_ .f32 0x00000000#32),
    unary main_cst_3 main_v19 (broadcastInDim S100000x128 ![] bcast_S_S100000x128 : (⟨S_, .f32⟩ : BufTy).Contents (Elt F) → (⟨S100000x128, .f32⟩ : BufTy).Contents (Elt F)),
    unary main_arg11 main_v20 (broadcastInDim S600000x1 ![0] bcast_S600000_S600000x1_0 : (⟨S600000, .i32⟩ : BufTy).Contents (Elt F) → (⟨S600000x1, .i32⟩ : BufTy).Contents (Elt F)),
    ternary main_v19 main_v20 main_v15 main_v21 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    binary main_v18 main_v21 main_v22 (addf : (⟨S100000x128, .f32⟩ : BufTy).Contents (Elt F) → (⟨S100000x128, .f32⟩ : BufTy).Contents (Elt F) → (⟨S100000x128, .f32⟩ : BufTy).Contents (Elt F)),
    nullary main_cst_4 (constant S_ .f32 0x3F800000#32),
    unary main_cst_4 main_v23 (broadcastInDim S1 ![] bcast_S_S1 : (⟨S_, .f32⟩ : BufTy).Contents (Elt F) → (⟨S1, .f32⟩ : BufTy).Contents (Elt F)),
    binary main_v23 main_arg3 main_v24 (addf : (⟨S1, .f32⟩ : BufTy).Contents (Elt F) → (⟨S1, .f32⟩ : BufTy).Contents (Elt F) → (⟨S1, .f32⟩ : BufTy).Contents (Elt F)),
    unary main_arg2 main_v25 (broadcastInDim S100000x1 ![0] bcast_S100000_S100000x1_0 : (⟨S100000, .f32⟩ : BufTy).Contents (Elt F) → (⟨S100000x1, .f32⟩ : BufTy).Contents (Elt F)),
    unary main_v24 main_v26 (broadcastInDim S1x1 ![1] bcast_S1_S1x1_1 : (⟨S1, .f32⟩ : BufTy).Contents (Elt F) → (⟨S1x1, .f32⟩ : BufTy).Contents (Elt F)),
    unary main_v26 main_v27 (broadcastInDim S100000x1 ![0, 1] bcast_S1x1_S100000x1_0_1 : (⟨S1x1, .f32⟩ : BufTy).Contents (Elt F) → (⟨S100000x1, .f32⟩ : BufTy).Contents (Elt F)),
    binary main_v27 main_v25 main_v28 (subf : (⟨S100000x1, .f32⟩ : BufTy).Contents (Elt F) → (⟨S100000x1, .f32⟩ : BufTy).Contents (Elt F) → (⟨S100000x1, .f32⟩ : BufTy).Contents (Elt F)),
    unary main_v28 main_v29 (broadcastInDim S100000x128 ![0, 1] bcast_S100000x1_S100000x128_0_1 : (⟨S100000x1, .f32⟩ : BufTy).Contents (Elt F) → (⟨S100000x128, .f32⟩ : BufTy).Contents (Elt F)),
    binary main_v29 main_arg0 main_v30 (mulf : (⟨S100000x128, .f32⟩ : BufTy).Contents (Elt F) → (⟨S100000x128, .f32⟩ : BufTy).Contents (Elt F) → (⟨S100000x128, .f32⟩ : BufTy).Contents (Elt F)),
    binary main_v22 main_v30 main_v31 (addf : (⟨S100000x128, .f32⟩ : BufTy).Contents (Elt F) → (⟨S100000x128, .f32⟩ : BufTy).Contents (Elt F) → (⟨S100000x128, .f32⟩ : BufTy).Contents (Elt F)),
    binary main_v31 main_arg4 main_v32 ((fun l r => Host.dotGeneral dot_S100000x128_S256x128_S100000x256_1_1_0_0_n_n none l r) : (⟨S100000x128, .f32⟩ : BufTy).Contents (Elt F) → (⟨S256x128, .f32⟩ : BufTy).Contents (Elt F) → (⟨S100000x256, .f32⟩ : BufTy).Contents (Elt F)),
    nullary main_cst_5 (constant S_ .f32 0x00000000#32),
    binary main_v32 main_cst_5 main_v33 ((fun x v => Host.reduceAdd x v reducesTo_S100000x256_S256_d0 h_S_) : (⟨S100000x256, .f32⟩ : BufTy).Contents (Elt F) → (⟨S_, .f32⟩ : BufTy).Contents (Elt F) → (⟨S256, .f32⟩ : BufTy).Contents (Elt F)),
    nullary main_cst_6 (constant S_ .f32 0x47C35000#32),
    unary main_cst_6 main_v34 (broadcastInDim S256 ![] bcast_S_S256 : (⟨S_, .f32⟩ : BufTy).Contents (Elt F) → (⟨S256, .f32⟩ : BufTy).Contents (Elt F)),
    binary main_v33 main_v34 main_v35 (Host.divf : (⟨S256, .f32⟩ : BufTy).Contents (Elt F) → (⟨S256, .f32⟩ : BufTy).Contents (Elt F) → (⟨S256, .f32⟩ : BufTy).Contents (Elt F)),
    unary main_v35 main_v36 (broadcastInDim S1x256 ![1] bcast_S256_S1x256_1 : (⟨S256, .f32⟩ : BufTy).Contents (Elt F) → (⟨S1x256, .f32⟩ : BufTy).Contents (Elt F)),
    unary main_v36 main_v37 (broadcastInDim S100000x256 ![0, 1] bcast_S1x256_S100000x256_0_1 : (⟨S1x256, .f32⟩ : BufTy).Contents (Elt F) → (⟨S100000x256, .f32⟩ : BufTy).Contents (Elt F)),
    binary main_v32 main_v37 main_v38 (subf : (⟨S100000x256, .f32⟩ : BufTy).Contents (Elt F) → (⟨S100000x256, .f32⟩ : BufTy).Contents (Elt F) → (⟨S100000x256, .f32⟩ : BufTy).Contents (Elt F)),
    binary main_v38 main_v38 main_v39 (mulf : (⟨S100000x256, .f32⟩ : BufTy).Contents (Elt F) → (⟨S100000x256, .f32⟩ : BufTy).Contents (Elt F) → (⟨S100000x256, .f32⟩ : BufTy).Contents (Elt F)),
    nullary main_cst_7 (constant S_ .f32 0x00000000#32),
    binary main_v39 main_cst_7 main_v40 ((fun x v => Host.reduceAdd x v reducesTo_S100000x256_S256_d0 h_S_) : (⟨S100000x256, .f32⟩ : BufTy).Contents (Elt F) → (⟨S_, .f32⟩ : BufTy).Contents (Elt F) → (⟨S256, .f32⟩ : BufTy).Contents (Elt F)),
    nullary main_cst_8 (constant S_ .f32 0x47C35000#32),
    unary main_cst_8 main_v41 (broadcastInDim S256 ![] bcast_S_S256 : (⟨S_, .f32⟩ : BufTy).Contents (Elt F) → (⟨S256, .f32⟩ : BufTy).Contents (Elt F)),
    binary main_v40 main_v41 main_v42 (Host.divf : (⟨S256, .f32⟩ : BufTy).Contents (Elt F) → (⟨S256, .f32⟩ : BufTy).Contents (Elt F) → (⟨S256, .f32⟩ : BufTy).Contents (Elt F)),
    unary main_v35 main_v43 (broadcastInDim S1x256 ![1] bcast_S256_S1x256_1 : (⟨S256, .f32⟩ : BufTy).Contents (Elt F) → (⟨S1x256, .f32⟩ : BufTy).Contents (Elt F)),
    unary main_v43 main_v44 (broadcastInDim S100000x256 ![0, 1] bcast_S1x256_S100000x256_0_1 : (⟨S1x256, .f32⟩ : BufTy).Contents (Elt F) → (⟨S100000x256, .f32⟩ : BufTy).Contents (Elt F)),
    binary main_v32 main_v44 main_v45 (subf : (⟨S100000x256, .f32⟩ : BufTy).Contents (Elt F) → (⟨S100000x256, .f32⟩ : BufTy).Contents (Elt F) → (⟨S100000x256, .f32⟩ : BufTy).Contents (Elt F)),
    nullary main_cst_9 (constant S_ .f32 0x3727C5AC#32),
    unary main_cst_9 main_v46 (broadcastInDim S256 ![] bcast_S_S256 : (⟨S_, .f32⟩ : BufTy).Contents (Elt F) → (⟨S256, .f32⟩ : BufTy).Contents (Elt F)),
    binary main_v42 main_v46 main_v47 (addf : (⟨S256, .f32⟩ : BufTy).Contents (Elt F) → (⟨S256, .f32⟩ : BufTy).Contents (Elt F) → (⟨S256, .f32⟩ : BufTy).Contents (Elt F)),
    unary main_v47 main_v48 (Host.rsqrt : (⟨S256, .f32⟩ : BufTy).Contents (Elt F) → (⟨S256, .f32⟩ : BufTy).Contents (Elt F)),
    unary main_v48 main_v49 (broadcastInDim S1x256 ![1] bcast_S256_S1x256_1 : (⟨S256, .f32⟩ : BufTy).Contents (Elt F) → (⟨S1x256, .f32⟩ : BufTy).Contents (Elt F)),
    unary main_v49 main_v50 (broadcastInDim S100000x256 ![0, 1] bcast_S1x256_S100000x256_0_1 : (⟨S1x256, .f32⟩ : BufTy).Contents (Elt F) → (⟨S100000x256, .f32⟩ : BufTy).Contents (Elt F)),
    binary main_v45 main_v50 main_v51 (mulf : (⟨S100000x256, .f32⟩ : BufTy).Contents (Elt F) → (⟨S100000x256, .f32⟩ : BufTy).Contents (Elt F) → (⟨S100000x256, .f32⟩ : BufTy).Contents (Elt F)),
    unary main_arg5 main_v52 (broadcastInDim S1x256 ![1] bcast_S256_S1x256_1 : (⟨S256, .f32⟩ : BufTy).Contents (Elt F) → (⟨S1x256, .f32⟩ : BufTy).Contents (Elt F)),
    unary main_v52 main_v53 (broadcastInDim S100000x256 ![0, 1] bcast_S1x256_S100000x256_0_1 : (⟨S1x256, .f32⟩ : BufTy).Contents (Elt F) → (⟨S100000x256, .f32⟩ : BufTy).Contents (Elt F)),
    binary main_v51 main_v53 main_v54 (mulf : (⟨S100000x256, .f32⟩ : BufTy).Contents (Elt F) → (⟨S100000x256, .f32⟩ : BufTy).Contents (Elt F) → (⟨S100000x256, .f32⟩ : BufTy).Contents (Elt F)),
    unary main_arg6 main_v55 (broadcastInDim S1x256 ![1] bcast_S256_S1x256_1 : (⟨S256, .f32⟩ : BufTy).Contents (Elt F) → (⟨S1x256, .f32⟩ : BufTy).Contents (Elt F)),
    unary main_v55 main_v56 (broadcastInDim S100000x256 ![0, 1] bcast_S1x256_S100000x256_0_1 : (⟨S1x256, .f32⟩ : BufTy).Contents (Elt F) → (⟨S100000x256, .f32⟩ : BufTy).Contents (Elt F)),
    binary main_v54 main_v56 main_v57 (addf : (⟨S100000x256, .f32⟩ : BufTy).Contents (Elt F) → (⟨S100000x256, .f32⟩ : BufTy).Contents (Elt F) → (⟨S100000x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x256, .f32⟩) main_call0_v0) (broadcastInDim S100000x256 ![] bcast_S_S100000x256),
    TRef.binary (TRef.of (T := ⟨S100000x256, .f32⟩) main_v57) (TRef.of (T := ⟨S100000x256, .f32⟩) main_call0_v0) (TRef.of (T := ⟨S100000x256, .f32⟩) main_v58) maximumf,
    binary main_v58 main_arg7 main_v59 ((fun l r => Host.dotGeneral dot_S100000x256_S128x256_S100000x128_1_1_0_0_n_n none l r) : (⟨S100000x256, .f32⟩ : BufTy).Contents (Elt F) → (⟨S128x256, .f32⟩ : BufTy).Contents (Elt F) → (⟨S100000x128, .f32⟩ : BufTy).Contents (Elt F)),
    nullary main_cst_10 (constant S_ .f32 0x00000000#32),
    binary main_v59 main_cst_10 main_v60 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_11 (constant S_ .f32 0x47C35000#32),
    unary main_cst_11 main_v61 (broadcastInDim S128 ![] bcast_S_S128 : (⟨S_, .f32⟩ : BufTy).Contents (Elt F) → (⟨S128, .f32⟩ : BufTy).Contents (Elt F)),
    binary main_v60 main_v61 main_v62 (Host.divf : (⟨S128, .f32⟩ : BufTy).Contents (Elt F) → (⟨S128, .f32⟩ : BufTy).Contents (Elt F) → (⟨S128, .f32⟩ : BufTy).Contents (Elt F)),
    unary main_v62 main_v63 (broadcastInDim S1x128 ![1] bcast_S128_S1x128_1 : (⟨S128, .f32⟩ : BufTy).Contents (Elt F) → (⟨S1x128, .f32⟩ : BufTy).Contents (Elt F)),
    unary main_v63 main_v64 (broadcastInDim S100000x128 ![0, 1] bcast_S1x128_S100000x128_0_1 : (⟨S1x128, .f32⟩ : BufTy).Contents (Elt F) → (⟨S100000x128, .f32⟩ : BufTy).Contents (Elt F)),
    binary main_v59 main_v64 main_v65 (subf : (⟨S100000x128, .f32⟩ : BufTy).Contents (Elt F) → (⟨S100000x128, .f32⟩ : BufTy).Contents (Elt F) → (⟨S100000x128, .f32⟩ : BufTy).Contents (Elt F)),
    binary main_v65 main_v65 main_v66 (mulf : (⟨S100000x128, .f32⟩ : BufTy).Contents (Elt F) → (⟨S100000x128, .f32⟩ : BufTy).Contents (Elt F) → (⟨S100000x128, .f32⟩ : BufTy).Contents (Elt F)),
    nullary main_cst_12 (constant S_ .f32 0x00000000#32),
    binary main_v66 main_cst_12 main_v67 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_13 (constant S_ .f32 0x47C35000#32),
    unary main_cst_13 main_v68 (broadcastInDim S128 ![] bcast_S_S128 : (⟨S_, .f32⟩ : BufTy).Contents (Elt F) → (⟨S128, .f32⟩ : BufTy).Contents (Elt F)),
    binary main_v67 main_v68 main_v69 (Host.divf : (⟨S128, .f32⟩ : BufTy).Contents (Elt F) → (⟨S128, .f32⟩ : BufTy).Contents (Elt F) → (⟨S128, .f32⟩ : BufTy).Contents (Elt F)),
    unary main_v62 main_v70 (broadcastInDim S1x128 ![1] bcast_S128_S1x128_1 : (⟨S128, .f32⟩ : BufTy).Contents (Elt F) → (⟨S1x128, .f32⟩ : BufTy).Contents (Elt F)),
    unary main_v70 main_v71 (broadcastInDim S100000x128 ![0, 1] bcast_S1x128_S100000x128_0_1 : (⟨S1x128, .f32⟩ : BufTy).Contents (Elt F) → (⟨S100000x128, .f32⟩ : BufTy).Contents (Elt F)),
    binary main_v59 main_v71 main_v72 (subf : (⟨S100000x128, .f32⟩ : BufTy).Contents (Elt F) → (⟨S100000x128, .f32⟩ : BufTy).Contents (Elt F) → (⟨S100000x128, .f32⟩ : BufTy).Contents (Elt F)),
    nullary main_cst_14 (constant S_ .f32 0x3727C5AC#32),
    unary main_cst_14 main_v73 (broadcastInDim S128 ![] bcast_S_S128 : (⟨S_, .f32⟩ : BufTy).Contents (Elt F) → (⟨S128, .f32⟩ : BufTy).Contents (Elt F)),
    binary main_v69 main_v73 main_v74 (addf : (⟨S128, .f32⟩ : BufTy).Contents (Elt F) → (⟨S128, .f32⟩ : BufTy).Contents (Elt F) → (⟨S128, .f32⟩ : BufTy).Contents (Elt F)),
    unary main_v74 main_v75 (Host.rsqrt : (⟨S128, .f32⟩ : BufTy).Contents (Elt F) → (⟨S128, .f32⟩ : BufTy).Contents (Elt F)),
    unary main_v75 main_v76 (broadcastInDim S1x128 ![1] bcast_S128_S1x128_1 : (⟨S128, .f32⟩ : BufTy).Contents (Elt F) → (⟨S1x128, .f32⟩ : BufTy).Contents (Elt F)),
    unary main_v76 main_v77 (broadcastInDim S100000x128 ![0, 1] bcast_S1x128_S100000x128_0_1 : (⟨S1x128, .f32⟩ : BufTy).Contents (Elt F) → (⟨S100000x128, .f32⟩ : BufTy).Contents (Elt F)),
    binary main_v72 main_v77 main_v78 (mulf : (⟨S100000x128, .f32⟩ : BufTy).Contents (Elt F) → (⟨S100000x128, .f32⟩ : BufTy).Contents (Elt F) → (⟨S100000x128, .f32⟩ : BufTy).Contents (Elt F)),
    unary main_arg8 main_v79 (broadcastInDim S1x128 ![1] bcast_S128_S1x128_1 : (⟨S128, .f32⟩ : BufTy).Contents (Elt F) → (⟨S1x128, .f32⟩ : BufTy).Contents (Elt F)),
    unary main_v79 main_v80 (broadcastInDim S100000x128 ![0, 1] bcast_S1x128_S100000x128_0_1 : (⟨S1x128, .f32⟩ : BufTy).Contents (Elt F) → (⟨S100000x128, .f32⟩ : BufTy).Contents (Elt F)),
    binary main_v78 main_v80 main_v81 (mulf : (⟨S100000x128, .f32⟩ : BufTy).Contents (Elt F) → (⟨S100000x128, .f32⟩ : BufTy).Contents (Elt F) → (⟨S100000x128, .f32⟩ : BufTy).Contents (Elt F)),
    unary main_arg9 main_v82 (broadcastInDim S1x128 ![1] bcast_S128_S1x128_1 : (⟨S128, .f32⟩ : BufTy).Contents (Elt F) → (⟨S1x128, .f32⟩ : BufTy).Contents (Elt F)),
    unary main_v82 main_v83 (broadcastInDim S100000x128 ![0, 1] bcast_S1x128_S100000x128_0_1 : (⟨S1x128, .f32⟩ : BufTy).Contents (Elt F) → (⟨S100000x128, .f32⟩ : BufTy).Contents (Elt F)),
    binary main_v81 main_v83 main_v84 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v84) (TRef.of (T := ⟨S100000x128, .f32⟩) main_call1_v0) (TRef.of (T := ⟨S100000x128, .f32⟩) main_v85) maximumf ]

set_option maxRecDepth 8192 in
set_option maxHeartbeats 4000000 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., unary_bufs_sub .., ternary_bufs_sub .., nullary_bufs_sub .., unary_bufs_sub .., unary_bufs_sub .., ternary_bufs_sub .., binary_bufs_sub .., nullary_bufs_sub .., unary_bufs_sub .., binary_bufs_sub .., unary_bufs_sub .., unary_bufs_sub .., unary_bufs_sub .., binary_bufs_sub .., unary_bufs_sub .., binary_bufs_sub .., binary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

set_option maxRecDepth 8192 in
set_option maxHeartbeats 4000000 in
/-- On every device, from any memory with zero counters: every weakly fair execution of the host function
    terminates with each buffer at the fold of the operations' results over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = StableHlo.after ops (launchContents m c) (Proc.devRef .tc b) :=
  run_seq scopedRefs_eq scopedSems_eq defs main (fun _ => ops) main_eq (fun _ => ops_sub) m ρ

end Cert.RefSide

end
-- ==== Proof.LibAfterAppend.lean ====
/-
  Host operations run one after the other, read in stages.

  `StableHlo.after ops V` is the contents of the buffers after the list `ops` of host operations has run from the contents
  `V`: each operation's result folded in, in order. Over a list cut in two it composes: the contents after `l₁ ++ l₂` are
  the contents after `l₂`, run from the contents after `l₁`. A long straight-line host program can therefore be read stage by
  stage — cut at the buffers a later stage reads (for a literal list, `ops = ops.take n ++ ops.drop n` holds by `rfl`), each
  stage read on its own from ANY contents before it, and the readings composed — instead of as one composed term of the whole
  program, which for a program of a hundred operations with reductions over large arrays is too large to compare in one step.
-/
import Idealize.ShloMosaic.Lib.StableHlo.Run

namespace Idealize.ShloMosaic.StableHlo

variable {τ : Topo} {sig : RefSig} {Val : EltTy → Type}

/-- The contents after two lists of host operations run one after the other. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- A list of host operations cut at position `n`: the contents after the whole list are those after its tail, run from the
    contents after its first `n` operations. -/
theorem after_take_drop (n : Nat) (l : List (HloOp τ sig Val)) (V : Valuation τ sig Val) :
    after l V = after (l.drop n) (after (l.take n) V) := by
  rw [← after_append, List.take_append_drop]

end Idealize.ShloMosaic.StableHlo
-- ==== Proof.RefStages.lean ====
/-
  The host function's 107 operations cut into ten consecutive stages, at the buffers later stages read: the
  aggregated messages, the residual, each linear map's output, each batch mean and variance, each normalised
  and clamped array. Each stage is read on its own, from ANY contents before it: the one buffer it hands on
  is an explicit function of the buffers it reads, and every buffer it does not write is left as it was. The
  contents after the whole list are the stages' contents composed.
-/
import proofs.«151600_j50869592655513_2_alg».proof.Proof.RefRun
import proofs.«151600_j50869592655513_2_alg».proof.Proof.NodeNew
import proofs.«151600_j50869592655513_2_alg».proof.Proof.LibAfterAppend

noncomputable section

namespace Cert.RefSide

open Idealize.ShloMosaic Idealize.ShloMosaic.TcCoe Idealize.SL.Sem Idealize.ShloMosaic.StableHlo
open Cert.ReferenceIdeal Cert.ReferenceIdeal.Facts₀ Cert.ReferenceIdeal.Facts

variable {F : FTy → Type} [FloatOps F]

/-! ## What each stage computes, as the host spells it -/

/-- The residual: the aggregated messages plus ((1 + e) − deg r) · x(r, ·), the coefficient built as a column and spread over the 128 lanes. -/
def residH (n22 a0 : (⟨S100000x128, .f32⟩ : BufTy).Contents (Elt F)) (a2 : (⟨S100000, .f32⟩ : BufTy).Contents (Elt F)) (a3 : (⟨S1, .f32⟩ : BufTy).Contents (Elt F)) : (⟨S100000x128, .f32⟩ : BufTy).Contents (Elt F) :=
  addf n22 (mulf (broadcastInDim S100000x128 ![0, 1] bcast_S100000x1_S100000x128_0_1
      (subf (broadcastInDim S100000x1 ![0, 1] bcast_S1x1_S100000x1_0_1 (broadcastInDim S1x1 ![1] bcast_S1_S1x1_1
          (addf (broadcastInDim S1 ![] bcast_S_S1 (constant S_ .f32 0x3F800000#32)) a3)))
        (broadcastInDim S100000x1 ![0] bcast_S100000_S100000x1_0 a2))) a0)

/-- A length-256 vector laid along every one of the 100000 rows. -/
def rows256 (x : (⟨S256, .f32⟩ : BufTy).Contents (Elt F)) : (⟨S100000x256, .f32⟩ : BufTy).Contents (Elt F) :=
  broadcastInDim S100000x256 ![0, 1] bcast_S1x256_S100000x256_0_1 (broadcastInDim S1x256 ![1] bcast_S256_S1x256_1 x)

/-- The column means as the host spells them: the column sums from the float zero, over the float 100000. -/
def meanH256 (y : (⟨S100000x256, .f32⟩ : BufTy).Contents (Elt F)) : (⟨S256, .f32⟩ : BufTy).Contents (Elt F) :=
  Host.divf (Host.reduceAdd y (constant S_ .f32 0x00000000#32) reducesTo_S100000x256_S256_d0 h_S_)
    (broadcastInDim S256 ![] bcast_S_S256 (constant S_ .f32 0x47C35000#32))

/-- The column variances as the host spells them: the column sums of the squared deviations from a given mean, over the float 100000. -/
def varH256 (y : (⟨S100000x256, .f32⟩ : BufTy).Contents (Elt F)) (mu : (⟨S256, .f32⟩ : BufTy).Contents (Elt F)) : (⟨S256, .f32⟩ : BufTy).Contents (Elt F) :=
  Host.divf (Host.reduceAdd (mulf (subf y (rows256 mu)) (subf y (rows256 mu))) (constant S_ .f32 0x00000000#32) reducesTo_S100000x256_S256_d0 h_S_)
    (broadcastInDim S256 ![] bcast_S_S256 (constant S_ .f32 0x47C35000#32))

/-- Normalise by a given mean and variance, scale, shift and clamp at zero, as the host spells it. -/
def normH256 (y : (⟨S100000x256, .f32⟩ : BufTy).Contents (Elt F)) (mu var g b : (⟨S256, .f32⟩ : BufTy).Contents (Elt F)) : (⟨S100000x256, .f32⟩ : BufTy).Contents (Elt F) :=
  maximumf (addf (mulf (mulf (subf y (rows256 mu))
      (rows256 (Host.rsqrt (addf var (broadcastInDim S256 ![] bcast_S_S256 (constant S_ .f32 0x3727C5AC#32)))))) (rows256 g)) (rows256 b))
    (broadcastInDim S100000x256 ![] bcast_S_S100000x256 (constant S_ .f32 0x00000000#32))

/-- A length-128 vector laid along every one of the 100000 rows. -/
def rows128 (x : (⟨S128, .f32⟩ : BufTy).Contents (Elt F)) : (⟨S100000x128, .f32⟩ : BufTy).Contents (Elt F) :=
  broadcastInDim S100000x128 ![0, 1] bcast_S1x128_S100000x128_0_1 (broadcastInDim S1x128 ![1] bcast_S128_S1x128_1 x)

/-- The column means as the host spells them: the column sums from the float zero, over the float 100000. -/
def meanH128 (y : (⟨S100000x128, .f32⟩ : BufTy).Contents (Elt F)) : (⟨S128, .f32⟩ : BufTy).Contents (Elt F) :=
  Host.divf (Host.reduceAdd y (constant S_ .f32 0x00000000#32) reducesTo_S100000x128_S128_d0 h_S_)
    (broadcastInDim S128 ![] bcast_S_S128 (constant S_ .f32 0x47C35000#32))

/-- The column variances as the host spells them: the column sums of the squared deviations from a given mean, over the float 100000. -/
def varH128 (y : (⟨S100000x128, .f32⟩ : BufTy).Contents (Elt F)) (mu : (⟨S128, .f32⟩ : BufTy).Contents (Elt F)) : (⟨S128, .f32⟩ : BufTy).Contents (Elt F) :=
  Host.divf (Host.reduceAdd (mulf (subf y (rows128 mu)) (subf y (rows128 mu))) (constant S_ .f32 0x00000000#32) reducesTo_S100000x128_S128_d0 h_S_)
    (broadcastInDim S128 ![] bcast_S_S128 (constant S_ .f32 0x47C35000#32))

/-- Normalise by a given mean and variance, scale, shift and clamp at zero, as the host spells it. -/
def normH128 (y : (⟨S100000x128, .f32⟩ : BufTy).Contents (Elt F)) (mu var g b : (⟨S128, .f32⟩ : BufTy).Contents (Elt F)) : (⟨S100000x128, .f32⟩ : BufTy).Contents (Elt F) :=
  maximumf (addf (mulf (mulf (subf y (rows128 mu))
      (rows128 (Host.rsqrt (addf var (broadcastInDim S128 ![] bcast_S_S128 (constant S_ .f32 0x3727C5AC#32)))))) (rows128 g)) (rows128 b))
    (broadcastInDim S100000x128 ![] bcast_S_S100000x128 (constant S_ .f32 0x00000000#32))

/-! ## The stages -/

/-- Operations 1 … 29. -/
abbrev segA : List (HloOp τ sig (Elt F)) :=
  [
    nullary main_c (constantI S_ 32 0#32),
    unary main_c main_v0 (broadcastInDim S600000 ![] bcast_S_S600000 : (⟨S_, .i32⟩ : BufTy).Contents (Elt F) → (⟨S600000, .i32⟩ : BufTy).Contents (Elt F)),
    binary main_arg10 main_v0 main_v1 (cmpi .slt : (⟨S600000, .i32⟩ : BufTy).Contents (Elt F) → (⟨S600000, .i32⟩ : BufTy).Contents (Elt F) → (⟨S600000, .i1⟩ : BufTy).Contents (Elt F)),
    nullary main_c_0 (constantI S_ 32 100000#32),
    unary main_c_0 main_v2 (broadcastInDim S600000 ![] bcast_S_S600000 : (⟨S_, .i32⟩ : BufTy).Contents (Elt F) → (⟨S600000, .i32⟩ : BufTy).Contents (Elt F)),
    binary main_arg10 main_v2 main_v3 (addi : (⟨S600000, .i32⟩ : BufTy).Contents (Elt F) → (⟨S600000, .i32⟩ : BufTy).Contents (Elt F) → (⟨S600000, .i32⟩ : BufTy).Contents (Elt F)),
    ternary main_v1 main_v3 main_arg10 main_v4 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v4 main_v5 (broadcastInDim S600000x1 ![0] bcast_S600000_S600000x1_0 : (⟨S600000, .i32⟩ : BufTy).Contents (Elt F) → (⟨S600000x1, .i32⟩ : BufTy).Contents (Elt F)),
    binary main_arg0 main_v5 main_v6 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    nullary main_c_1 (constantI S_ 32 0#32),
    unary main_c_1 main_v7 (broadcastInDim S600000 ![] bcast_S_S600000 : (⟨S_, .i32⟩ : BufTy).Contents (Elt F) → (⟨S600000, .i32⟩ : BufTy).Contents (Elt F)),
    binary main_arg11 main_v7 main_v8 (cmpi .slt : (⟨S600000, .i32⟩ : BufTy).Contents (Elt F) → (⟨S600000, .i32⟩ : BufTy).Contents (Elt F) → (⟨S600000, .i1⟩ : BufTy).Contents (Elt F)),
    nullary main_c_2 (constantI S_ 32 100000#32),
    unary main_c_2 main_v9 (broadcastInDim S600000 ![] bcast_S_S600000 : (⟨S_, .i32⟩ : BufTy).Contents (Elt F) → (⟨S600000, .i32⟩ : BufTy).Contents (Elt F)),
    binary main_arg11 main_v9 main_v10 (addi : (⟨S600000, .i32⟩ : BufTy).Contents (Elt F) → (⟨S600000, .i32⟩ : BufTy).Contents (Elt F) → (⟨S600000, .i32⟩ : BufTy).Contents (Elt F)),
    ternary main_v8 main_v10 main_arg11 main_v11 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v11 main_v12 (broadcastInDim S600000x1 ![0] bcast_S600000_S600000x1_0 : (⟨S600000, .i32⟩ : BufTy).Contents (Elt F) → (⟨S600000x1, .i32⟩ : BufTy).Contents (Elt F)),
    binary main_arg0 main_v12 main_v13 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    binary main_v6 main_v13 main_v14 (addf : (⟨S600000x128, .f32⟩ : BufTy).Contents (Elt F) → (⟨S600000x128, .f32⟩ : BufTy).Contents (Elt F) → (⟨S600000x128, .f32⟩ : BufTy).Contents (Elt F)),
    binary main_v14 main_arg1 main_v15 (addf : (⟨S600000x128, .f32⟩ : BufTy).Contents (Elt F) → (⟨S600000x128, .f32⟩ : BufTy).Contents (Elt F) → (⟨S600000x128, .f32⟩ : BufTy).Contents (Elt F)),
    nullary main_cst (constant S_ .f32 0x00000000#32),
    unary main_cst main_v16 (broadcastInDim S100000x128 ![] bcast_S_S100000x128 : (⟨S_, .f32⟩ : BufTy).Contents (Elt F) → (⟨S100000x128, .f32⟩ : BufTy).Contents (Elt F)),
    unary main_arg10 main_v17 (broadcastInDim S600000x1 ![0] bcast_S600000_S600000x1_0 : (⟨S600000, .i32⟩ : BufTy).Contents (Elt F) → (⟨S600000x1, .i32⟩ : BufTy).Contents (Elt F)),
    ternary main_v16 main_v17 main_v15 main_v18 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    nullary main_cst_3 (constant S_ .f32 0x00000000#32),
    unary main_cst_3 main_v19 (broadcastInDim S100000x128 ![] bcast_S_S100000x128 : (⟨S_, .f32⟩ : BufTy).Contents (Elt F) → (⟨S100000x128, .f32⟩ : BufTy).Contents (Elt F)),
    unary main_arg11 main_v20 (broadcastInDim S600000x1 ![0] bcast_S600000_S600000x1_0 : (⟨S600000, .i32⟩ : BufTy).Contents (Elt F) → (⟨S600000x1, .i32⟩ : BufTy).Contents (Elt F)),
    ternary main_v19 main_v20 main_v15 main_v21 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    binary main_v18 main_v21 main_v22 (addf : (⟨S100000x128, .f32⟩ : BufTy).Contents (Elt F) → (⟨S100000x128, .f32⟩ : BufTy).Contents (Elt F) → (⟨S100000x128, .f32⟩ : BufTy).Contents (Elt F)) ]
/-- The buffers they write. -/
abbrev segA_W : List (Ref sig .tc) := [main_c, main_v0, main_v1, main_c_0, main_v2, main_v3, main_v4, main_v5, main_v6, main_c_1, main_v7, main_v8, main_c_2, main_v9, main_v10, main_v11, main_v12, main_v13, main_v14, main_v15, main_cst, main_v16, main_v17, main_v18, main_cst_3, main_v19, main_v20, main_v21, main_v22]
theorem segA_writes : (segA : List (HloOp τ sig (Elt F))).Forall fun op => op.writes ⊆ (segA_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer they do not write keeps its contents. -/
theorem segA_keep (V : Valuation τ sig (Elt F)) (r : Ref sig .tc) (h : r ∉ segA_W) :
    after segA V (Proc.devRef .tc r) = V (Proc.devRef .tc r) :=
  after_of_writes_sub segA V segA_writes h
set_option maxHeartbeats 2000000 in
/-- What they leave in the buffer later operations read, from any contents. -/
theorem segA_out (V : Valuation τ sig (Elt F)) :
    after segA V (Proc.devRef .tc main_v22) = nodeNew (V (Proc.devRef .tc main_arg0)) (V (Proc.devRef .tc main_arg1)) (V (Proc.devRef .tc main_arg10)) (V (Proc.devRef .tc main_arg11)) := by
  simp only [segA]
  after_results_simp <;> rfl

/-- Operations 30 … 39. -/
abbrev segB : List (HloOp τ sig (Elt F)) :=
  [
    nullary main_cst_4 (constant S_ .f32 0x3F800000#32),
    unary main_cst_4 main_v23 (broadcastInDim S1 ![] bcast_S_S1 : (⟨S_, .f32⟩ : BufTy).Contents (Elt F) → (⟨S1, .f32⟩ : BufTy).Contents (Elt F)),
    binary main_v23 main_arg3 main_v24 (addf : (⟨S1, .f32⟩ : BufTy).Contents (Elt F) → (⟨S1, .f32⟩ : BufTy).Contents (Elt F) → (⟨S1, .f32⟩ : BufTy).Contents (Elt F)),
    unary main_arg2 main_v25 (broadcastInDim S100000x1 ![0] bcast_S100000_S100000x1_0 : (⟨S100000, .f32⟩ : BufTy).Contents (Elt F) → (⟨S100000x1, .f32⟩ : BufTy).Contents (Elt F)),
    unary main_v24 main_v26 (broadcastInDim S1x1 ![1] bcast_S1_S1x1_1 : (⟨S1, .f32⟩ : BufTy).Contents (Elt F) → (⟨S1x1, .f32⟩ : BufTy).Contents (Elt F)),
    unary main_v26 main_v27 (broadcastInDim S100000x1 ![0, 1] bcast_S1x1_S100000x1_0_1 : (⟨S1x1, .f32⟩ : BufTy).Contents (Elt F) → (⟨S100000x1, .f32⟩ : BufTy).Contents (Elt F)),
    binary main_v27 main_v25 main_v28 (subf : (⟨S100000x1, .f32⟩ : BufTy).Contents (Elt F) → (⟨S100000x1, .f32⟩ : BufTy).Contents (Elt F) → (⟨S100000x1, .f32⟩ : BufTy).Contents (Elt F)),
    unary main_v28 main_v29 (broadcastInDim S100000x128 ![0, 1] bcast_S100000x1_S100000x128_0_1 : (⟨S100000x1, .f32⟩ : BufTy).Contents (Elt F) → (⟨S100000x128, .f32⟩ : BufTy).Contents (Elt F)),
    binary main_v29 main_arg0 main_v30 (mulf : (⟨S100000x128, .f32⟩ : BufTy).Contents (Elt F) → (⟨S100000x128, .f32⟩ : BufTy).Contents (Elt F) → (⟨S100000x128, .f32⟩ : BufTy).Contents (Elt F)),
    binary main_v22 main_v30 main_v31 (addf : (⟨S100000x128, .f32⟩ : BufTy).Contents (Elt F) → (⟨S100000x128, .f32⟩ : BufTy).Contents (Elt F) → (⟨S100000x128, .f32⟩ : BufTy).Contents (Elt F)) ]
/-- The buffers they write. -/
abbrev segB_W : List (Ref sig .tc) := [main_cst_4, main_v23, main_v24, main_v25, main_v26, main_v27, main_v28, main_v29, main_v30, main_v31]
theorem segB_writes : (segB : List (HloOp τ sig (Elt F))).Forall fun op => op.writes ⊆ (segB_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer they do not write keeps its contents. -/
theorem segB_keep (V : Valuation τ sig (Elt F)) (r : Ref sig .tc) (h : r ∉ segB_W) :
    after segB V (Proc.devRef .tc r) = V (Proc.devRef .tc r) :=
  after_of_writes_sub segB V segB_writes h
set_option maxHeartbeats 2000000 in
/-- What they leave in the buffer later operations read, from any contents. -/
theorem segB_out (V : Valuation τ sig (Elt F)) :
    after segB V (Proc.devRef .tc main_v31) = residH (V (Proc.devRef .tc main_v22)) (V (Proc.devRef .tc main_arg0)) (V (Proc.devRef .tc main_arg2)) (V (Proc.devRef .tc main_arg3)) := by
  simp only [segB]
  after_results_simp <;> rfl

/-- Operations 40 … 40. -/
abbrev segC : List (HloOp τ sig (Elt F)) :=
  [
    binary main_v31 main_arg4 main_v32 ((fun l r => Host.dotGeneral dot_S100000x128_S256x128_S100000x256_1_1_0_0_n_n none l r) : (⟨S100000x128, .f32⟩ : BufTy).Contents (Elt F) → (⟨S256x128, .f32⟩ : BufTy).Contents (Elt F) → (⟨S100000x256, .f32⟩ : BufTy).Contents (Elt F)) ]
/-- The buffers they write. -/
abbrev segC_W : List (Ref sig .tc) := [main_v32]
theorem segC_writes : (segC : List (HloOp τ sig (Elt F))).Forall fun op => op.writes ⊆ (segC_W.map (Proc.devRef (τ := τ) .tc)).toFinset := by
  simp only [List.Forall]; exact (by simp only [nullary_writes, unary_writes, binary_writes, ternary_writes, Finset.singleton_subset_iff, List.mem_toFinset]; exact List.mem_map_of_mem (by decide))
/-- A buffer they do not write keeps its contents. -/
theorem segC_keep (V : Valuation τ sig (Elt F)) (r : Ref sig .tc) (h : r ∉ segC_W) :
    after segC V (Proc.devRef .tc r) = V (Proc.devRef .tc r) :=
  after_of_writes_sub segC V segC_writes h
set_option maxHeartbeats 2000000 in
/-- What they leave in the buffer later operations read, from any contents. -/
theorem segC_out (V : Valuation τ sig (Elt F)) :
    after segC V (Proc.devRef .tc main_v32) = Host.dotGeneral dot_S100000x128_S256x128_S100000x256_1_1_0_0_n_n none (V (Proc.devRef .tc main_v31)) (V (Proc.devRef .tc main_arg4)) := by
  simp only [segC]
  after_results_simp <;> rfl

/-- Operations 41 … 45. -/
abbrev segD : List (HloOp τ sig (Elt F)) :=
  [
    nullary main_cst_5 (constant S_ .f32 0x00000000#32),
    binary main_v32 main_cst_5 main_v33 ((fun x v => Host.reduceAdd x v reducesTo_S100000x256_S256_d0 h_S_) : (⟨S100000x256, .f32⟩ : BufTy).Contents (Elt F) → (⟨S_, .f32⟩ : BufTy).Contents (Elt F) → (⟨S256, .f32⟩ : BufTy).Contents (Elt F)),
    nullary main_cst_6 (constant S_ .f32 0x47C35000#32),
    unary main_cst_6 main_v34 (broadcastInDim S256 ![] bcast_S_S256 : (⟨S_, .f32⟩ : BufTy).Contents (Elt F) → (⟨S256, .f32⟩ : BufTy).Contents (Elt F)),
    binary main_v33 main_v34 main_v35 (Host.divf : (⟨S256, .f32⟩ : BufTy).Contents (Elt F) → (⟨S256, .f32⟩ : BufTy).Contents (Elt F) → (⟨S256, .f32⟩ : BufTy).Contents (Elt F)) ]
/-- The buffers they write. -/
abbrev segD_W : List (Ref sig .tc) := [main_cst_5, main_v33, main_cst_6, main_v34, main_v35]
theorem segD_writes : (segD : List (HloOp τ sig (Elt F))).Forall fun op => op.writes ⊆ (segD_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer they do not write keeps its contents. -/
theorem segD_keep (V : Valuation τ sig (Elt F)) (r : Ref sig .tc) (h : r ∉ segD_W) :
    after segD V (Proc.devRef .tc r) = V (Proc.devRef .tc r) :=
  after_of_writes_sub segD V segD_writes h
set_option maxHeartbeats 2000000 in
/-- What they leave in the buffer later operations read, from any contents. -/
theorem segD_out (V : Valuation τ sig (Elt F)) :
    after segD V (Proc.devRef .tc main_v35) = meanH256 (V (Proc.devRef .tc main_v32)) := by
  simp only [segD]
  after_results_simp <;> rfl

/-- Operations 46 … 54. -/
abbrev segE : List (HloOp τ sig (Elt F)) :=
  [
    unary main_v35 main_v36 (broadcastInDim S1x256 ![1] bcast_S256_S1x256_1 : (⟨S256, .f32⟩ : BufTy).Contents (Elt F) → (⟨S1x256, .f32⟩ : BufTy).Contents (Elt F)),
    unary main_v36 main_v37 (broadcastInDim S100000x256 ![0, 1] bcast_S1x256_S100000x256_0_1 : (⟨S1x256, .f32⟩ : BufTy).Contents (Elt F) → (⟨S100000x256, .f32⟩ : BufTy).Contents (Elt F)),
    binary main_v32 main_v37 main_v38 (subf : (⟨S100000x256, .f32⟩ : BufTy).Contents (Elt F) → (⟨S100000x256, .f32⟩ : BufTy).Contents (Elt F) → (⟨S100000x256, .f32⟩ : BufTy).Contents (Elt F)),
    binary main_v38 main_v38 main_v39 (mulf : (⟨S100000x256, .f32⟩ : BufTy).Contents (Elt F) → (⟨S100000x256, .f32⟩ : BufTy).Contents (Elt F) → (⟨S100000x256, .f32⟩ : BufTy).Contents (Elt F)),
    nullary main_cst_7 (constant S_ .f32 0x00000000#32),
    binary main_v39 main_cst_7 main_v40 ((fun x v => Host.reduceAdd x v reducesTo_S100000x256_S256_d0 h_S_) : (⟨S100000x256, .f32⟩ : BufTy).Contents (Elt F) → (⟨S_, .f32⟩ : BufTy).Contents (Elt F) → (⟨S256, .f32⟩ : BufTy).Contents (Elt F)),
    nullary main_cst_8 (constant S_ .f32 0x47C35000#32),
    unary main_cst_8 main_v41 (broadcastInDim S256 ![] bcast_S_S256 : (⟨S_, .f32⟩ : BufTy).Contents (Elt F) → (⟨S256, .f32⟩ : BufTy).Contents (Elt F)),
    binary main_v40 main_v41 main_v42 (Host.divf : (⟨S256, .f32⟩ : BufTy).Contents (Elt F) → (⟨S256, .f32⟩ : BufTy).Contents (Elt F) → (⟨S256, .f32⟩ : BufTy).Contents (Elt F)) ]
/-- The buffers they write. -/
abbrev segE_W : List (Ref sig .tc) := [main_v36, main_v37, main_v38, main_v39, main_cst_7, main_v40, main_cst_8, main_v41, main_v42]
theorem segE_writes : (segE : List (HloOp τ sig (Elt F))).Forall fun op => op.writes ⊆ (segE_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer they do not write keeps its contents. -/
theorem segE_keep (V : Valuation τ sig (Elt F)) (r : Ref sig .tc) (h : r ∉ segE_W) :
    after segE V (Proc.devRef .tc r) = V (Proc.devRef .tc r) :=
  after_of_writes_sub segE V segE_writes h
set_option maxHeartbeats 2000000 in
/-- What they leave in the buffer later operations read, from any contents. -/
theorem segE_out (V : Valuation τ sig (Elt F)) :
    after segE V (Proc.devRef .tc main_v42) = varH256 (V (Proc.devRef .tc main_v32)) (V (Proc.devRef .tc main_v35)) := by
  simp only [segE]
  after_results_simp <;> rfl

/-- Operations 55 … 73. -/
abbrev segF : List (HloOp τ sig (Elt F)) :=
  [
    unary main_v35 main_v43 (broadcastInDim S1x256 ![1] bcast_S256_S1x256_1 : (⟨S256, .f32⟩ : BufTy).Contents (Elt F) → (⟨S1x256, .f32⟩ : BufTy).Contents (Elt F)),
    unary main_v43 main_v44 (broadcastInDim S100000x256 ![0, 1] bcast_S1x256_S100000x256_0_1 : (⟨S1x256, .f32⟩ : BufTy).Contents (Elt F) → (⟨S100000x256, .f32⟩ : BufTy).Contents (Elt F)),
    binary main_v32 main_v44 main_v45 (subf : (⟨S100000x256, .f32⟩ : BufTy).Contents (Elt F) → (⟨S100000x256, .f32⟩ : BufTy).Contents (Elt F) → (⟨S100000x256, .f32⟩ : BufTy).Contents (Elt F)),
    nullary main_cst_9 (constant S_ .f32 0x3727C5AC#32),
    unary main_cst_9 main_v46 (broadcastInDim S256 ![] bcast_S_S256 : (⟨S_, .f32⟩ : BufTy).Contents (Elt F) → (⟨S256, .f32⟩ : BufTy).Contents (Elt F)),
    binary main_v42 main_v46 main_v47 (addf : (⟨S256, .f32⟩ : BufTy).Contents (Elt F) → (⟨S256, .f32⟩ : BufTy).Contents (Elt F) → (⟨S256, .f32⟩ : BufTy).Contents (Elt F)),
    unary main_v47 main_v48 (Host.rsqrt : (⟨S256, .f32⟩ : BufTy).Contents (Elt F) → (⟨S256, .f32⟩ : BufTy).Contents (Elt F)),
    unary main_v48 main_v49 (broadcastInDim S1x256 ![1] bcast_S256_S1x256_1 : (⟨S256, .f32⟩ : BufTy).Contents (Elt F) → (⟨S1x256, .f32⟩ : BufTy).Contents (Elt F)),
    unary main_v49 main_v50 (broadcastInDim S100000x256 ![0, 1] bcast_S1x256_S100000x256_0_1 : (⟨S1x256, .f32⟩ : BufTy).Contents (Elt F) → (⟨S100000x256, .f32⟩ : BufTy).Contents (Elt F)),
    binary main_v45 main_v50 main_v51 (mulf : (⟨S100000x256, .f32⟩ : BufTy).Contents (Elt F) → (⟨S100000x256, .f32⟩ : BufTy).Contents (Elt F) → (⟨S100000x256, .f32⟩ : BufTy).Contents (Elt F)),
    unary main_arg5 main_v52 (broadcastInDim S1x256 ![1] bcast_S256_S1x256_1 : (⟨S256, .f32⟩ : BufTy).Contents (Elt F) → (⟨S1x256, .f32⟩ : BufTy).Contents (Elt F)),
    unary main_v52 main_v53 (broadcastInDim S100000x256 ![0, 1] bcast_S1x256_S100000x256_0_1 : (⟨S1x256, .f32⟩ : BufTy).Contents (Elt F) → (⟨S100000x256, .f32⟩ : BufTy).Contents (Elt F)),
    binary main_v51 main_v53 main_v54 (mulf : (⟨S100000x256, .f32⟩ : BufTy).Contents (Elt F) → (⟨S100000x256, .f32⟩ : BufTy).Contents (Elt F) → (⟨S100000x256, .f32⟩ : BufTy).Contents (Elt F)),
    unary main_arg6 main_v55 (broadcastInDim S1x256 ![1] bcast_S256_S1x256_1 : (⟨S256, .f32⟩ : BufTy).Contents (Elt F) → (⟨S1x256, .f32⟩ : BufTy).Contents (Elt F)),
    unary main_v55 main_v56 (broadcastInDim S100000x256 ![0, 1] bcast_S1x256_S100000x256_0_1 : (⟨S1x256, .f32⟩ : BufTy).Contents (Elt F) → (⟨S100000x256, .f32⟩ : BufTy).Contents (Elt F)),
    binary main_v54 main_v56 main_v57 (addf : (⟨S100000x256, .f32⟩ : BufTy).Contents (Elt F) → (⟨S100000x256, .f32⟩ : BufTy).Contents (Elt F) → (⟨S100000x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x256, .f32⟩) main_call0_v0) (broadcastInDim S100000x256 ![] bcast_S_S100000x256),
    TRef.binary (TRef.of (T := ⟨S100000x256, .f32⟩) main_v57) (TRef.of (T := ⟨S100000x256, .f32⟩) main_call0_v0) (TRef.of (T := ⟨S100000x256, .f32⟩) main_v58) maximumf ]
/-- The buffers they write. -/
abbrev segF_W : List (Ref sig .tc) := [main_v43, main_v44, main_v45, main_cst_9, main_v46, main_v47, main_v48, main_v49, main_v50, main_v51, main_v52, main_v53, main_v54, main_v55, main_v56, main_v57, main_call0_cst, main_call0_v0, main_v58]
theorem segF_writes : (segF : List (HloOp τ sig (Elt F))).Forall fun op => op.writes ⊆ (segF_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer they do not write keeps its contents. -/
theorem segF_keep (V : Valuation τ sig (Elt F)) (r : Ref sig .tc) (h : r ∉ segF_W) :
    after segF V (Proc.devRef .tc r) = V (Proc.devRef .tc r) :=
  after_of_writes_sub segF V segF_writes h
set_option maxHeartbeats 2000000 in
/-- What they leave in the buffer later operations read, from any contents. -/
theorem segF_out (V : Valuation τ sig (Elt F)) :
    after segF V (Proc.devRef .tc main_v58) = normH256 (V (Proc.devRef .tc main_v32)) (V (Proc.devRef .tc main_v35)) (V (Proc.devRef .tc main_v42)) (V (Proc.devRef .tc main_arg5)) (V (Proc.devRef .tc main_arg6)) := by
  simp only [segF]
  after_results_simp <;> rfl

/-- Operations 74 … 74. -/
abbrev segG : List (HloOp τ sig (Elt F)) :=
  [
    binary main_v58 main_arg7 main_v59 ((fun l r => Host.dotGeneral dot_S100000x256_S128x256_S100000x128_1_1_0_0_n_n none l r) : (⟨S100000x256, .f32⟩ : BufTy).Contents (Elt F) → (⟨S128x256, .f32⟩ : BufTy).Contents (Elt F) → (⟨S100000x128, .f32⟩ : BufTy).Contents (Elt F)) ]
/-- The buffers they write. -/
abbrev segG_W : List (Ref sig .tc) := [main_v59]
theorem segG_writes : (segG : List (HloOp τ sig (Elt F))).Forall fun op => op.writes ⊆ (segG_W.map (Proc.devRef (τ := τ) .tc)).toFinset := by
  simp only [List.Forall]; exact (by simp only [nullary_writes, unary_writes, binary_writes, ternary_writes, Finset.singleton_subset_iff, List.mem_toFinset]; exact List.mem_map_of_mem (by decide))
/-- A buffer they do not write keeps its contents. -/
theorem segG_keep (V : Valuation τ sig (Elt F)) (r : Ref sig .tc) (h : r ∉ segG_W) :
    after segG V (Proc.devRef .tc r) = V (Proc.devRef .tc r) :=
  after_of_writes_sub segG V segG_writes h
set_option maxHeartbeats 2000000 in
/-- What they leave in the buffer later operations read, from any contents. -/
theorem segG_out (V : Valuation τ sig (Elt F)) :
    after segG V (Proc.devRef .tc main_v59) = Host.dotGeneral dot_S100000x256_S128x256_S100000x128_1_1_0_0_n_n none (V (Proc.devRef .tc main_v58)) (V (Proc.devRef .tc main_arg7)) := by
  simp only [segG]
  after_results_simp <;> rfl

/-- Operations 75 … 79. -/
abbrev segH : List (HloOp τ sig (Elt F)) :=
  [
    nullary main_cst_10 (constant S_ .f32 0x00000000#32),
    binary main_v59 main_cst_10 main_v60 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_11 (constant S_ .f32 0x47C35000#32),
    unary main_cst_11 main_v61 (broadcastInDim S128 ![] bcast_S_S128 : (⟨S_, .f32⟩ : BufTy).Contents (Elt F) → (⟨S128, .f32⟩ : BufTy).Contents (Elt F)),
    binary main_v60 main_v61 main_v62 (Host.divf : (⟨S128, .f32⟩ : BufTy).Contents (Elt F) → (⟨S128, .f32⟩ : BufTy).Contents (Elt F) → (⟨S128, .f32⟩ : BufTy).Contents (Elt F)) ]
/-- The buffers they write. -/
abbrev segH_W : List (Ref sig .tc) := [main_cst_10, main_v60, main_cst_11, main_v61, main_v62]
theorem segH_writes : (segH : List (HloOp τ sig (Elt F))).Forall fun op => op.writes ⊆ (segH_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer they do not write keeps its contents. -/
theorem segH_keep (V : Valuation τ sig (Elt F)) (r : Ref sig .tc) (h : r ∉ segH_W) :
    after segH V (Proc.devRef .tc r) = V (Proc.devRef .tc r) :=
  after_of_writes_sub segH V segH_writes h
set_option maxHeartbeats 2000000 in
/-- What they leave in the buffer later operations read, from any contents. -/
theorem segH_out (V : Valuation τ sig (Elt F)) :
    after segH V (Proc.devRef .tc main_v62) = meanH128 (V (Proc.devRef .tc main_v59)) := by
  simp only [segH]
  after_results_simp <;> rfl

/-- Operations 80 … 88. -/
abbrev segI : List (HloOp τ sig (Elt F)) :=
  [
    unary main_v62 main_v63 (broadcastInDim S1x128 ![1] bcast_S128_S1x128_1 : (⟨S128, .f32⟩ : BufTy).Contents (Elt F) → (⟨S1x128, .f32⟩ : BufTy).Contents (Elt F)),
    unary main_v63 main_v64 (broadcastInDim S100000x128 ![0, 1] bcast_S1x128_S100000x128_0_1 : (⟨S1x128, .f32⟩ : BufTy).Contents (Elt F) → (⟨S100000x128, .f32⟩ : BufTy).Contents (Elt F)),
    binary main_v59 main_v64 main_v65 (subf : (⟨S100000x128, .f32⟩ : BufTy).Contents (Elt F) → (⟨S100000x128, .f32⟩ : BufTy).Contents (Elt F) → (⟨S100000x128, .f32⟩ : BufTy).Contents (Elt F)),
    binary main_v65 main_v65 main_v66 (mulf : (⟨S100000x128, .f32⟩ : BufTy).Contents (Elt F) → (⟨S100000x128, .f32⟩ : BufTy).Contents (Elt F) → (⟨S100000x128, .f32⟩ : BufTy).Contents (Elt F)),
    nullary main_cst_12 (constant S_ .f32 0x00000000#32),
    binary main_v66 main_cst_12 main_v67 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_13 (constant S_ .f32 0x47C35000#32),
    unary main_cst_13 main_v68 (broadcastInDim S128 ![] bcast_S_S128 : (⟨S_, .f32⟩ : BufTy).Contents (Elt F) → (⟨S128, .f32⟩ : BufTy).Contents (Elt F)),
    binary main_v67 main_v68 main_v69 (Host.divf : (⟨S128, .f32⟩ : BufTy).Contents (Elt F) → (⟨S128, .f32⟩ : BufTy).Contents (Elt F) → (⟨S128, .f32⟩ : BufTy).Contents (Elt F)) ]
/-- The buffers they write. -/
abbrev segI_W : List (Ref sig .tc) := [main_v63, main_v64, main_v65, main_v66, main_cst_12, main_v67, main_cst_13, main_v68, main_v69]
theorem segI_writes : (segI : List (HloOp τ sig (Elt F))).Forall fun op => op.writes ⊆ (segI_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer they do not write keeps its contents. -/
theorem segI_keep (V : Valuation τ sig (Elt F)) (r : Ref sig .tc) (h : r ∉ segI_W) :
    after segI V (Proc.devRef .tc r) = V (Proc.devRef .tc r) :=
  after_of_writes_sub segI V segI_writes h
set_option maxHeartbeats 2000000 in
/-- What they leave in the buffer later operations read, from any contents. -/
theorem segI_out (V : Valuation τ sig (Elt F)) :
    after segI V (Proc.devRef .tc main_v69) = varH128 (V (Proc.devRef .tc main_v59)) (V (Proc.devRef .tc main_v62)) := by
  simp only [segI]
  after_results_simp <;> rfl

/-- Operations 89 … 107. -/
abbrev segJ : List (HloOp τ sig (Elt F)) :=
  [
    unary main_v62 main_v70 (broadcastInDim S1x128 ![1] bcast_S128_S1x128_1 : (⟨S128, .f32⟩ : BufTy).Contents (Elt F) → (⟨S1x128, .f32⟩ : BufTy).Contents (Elt F)),
    unary main_v70 main_v71 (broadcastInDim S100000x128 ![0, 1] bcast_S1x128_S100000x128_0_1 : (⟨S1x128, .f32⟩ : BufTy).Contents (Elt F) → (⟨S100000x128, .f32⟩ : BufTy).Contents (Elt F)),
    binary main_v59 main_v71 main_v72 (subf : (⟨S100000x128, .f32⟩ : BufTy).Contents (Elt F) → (⟨S100000x128, .f32⟩ : BufTy).Contents (Elt F) → (⟨S100000x128, .f32⟩ : BufTy).Contents (Elt F)),
    nullary main_cst_14 (constant S_ .f32 0x3727C5AC#32),
    unary main_cst_14 main_v73 (broadcastInDim S128 ![] bcast_S_S128 : (⟨S_, .f32⟩ : BufTy).Contents (Elt F) → (⟨S128, .f32⟩ : BufTy).Contents (Elt F)),
    binary main_v69 main_v73 main_v74 (addf : (⟨S128, .f32⟩ : BufTy).Contents (Elt F) → (⟨S128, .f32⟩ : BufTy).Contents (Elt F) → (⟨S128, .f32⟩ : BufTy).Contents (Elt F)),
    unary main_v74 main_v75 (Host.rsqrt : (⟨S128, .f32⟩ : BufTy).Contents (Elt F) → (⟨S128, .f32⟩ : BufTy).Contents (Elt F)),
    unary main_v75 main_v76 (broadcastInDim S1x128 ![1] bcast_S128_S1x128_1 : (⟨S128, .f32⟩ : BufTy).Contents (Elt F) → (⟨S1x128, .f32⟩ : BufTy).Contents (Elt F)),
    unary main_v76 main_v77 (broadcastInDim S100000x128 ![0, 1] bcast_S1x128_S100000x128_0_1 : (⟨S1x128, .f32⟩ : BufTy).Contents (Elt F) → (⟨S100000x128, .f32⟩ : BufTy).Contents (Elt F)),
    binary main_v72 main_v77 main_v78 (mulf : (⟨S100000x128, .f32⟩ : BufTy).Contents (Elt F) → (⟨S100000x128, .f32⟩ : BufTy).Contents (Elt F) → (⟨S100000x128, .f32⟩ : BufTy).Contents (Elt F)),
    unary main_arg8 main_v79 (broadcastInDim S1x128 ![1] bcast_S128_S1x128_1 : (⟨S128, .f32⟩ : BufTy).Contents (Elt F) → (⟨S1x128, .f32⟩ : BufTy).Contents (Elt F)),
    unary main_v79 main_v80 (broadcastInDim S100000x128 ![0, 1] bcast_S1x128_S100000x128_0_1 : (⟨S1x128, .f32⟩ : BufTy).Contents (Elt F) → (⟨S100000x128, .f32⟩ : BufTy).Contents (Elt F)),
    binary main_v78 main_v80 main_v81 (mulf : (⟨S100000x128, .f32⟩ : BufTy).Contents (Elt F) → (⟨S100000x128, .f32⟩ : BufTy).Contents (Elt F) → (⟨S100000x128, .f32⟩ : BufTy).Contents (Elt F)),
    unary main_arg9 main_v82 (broadcastInDim S1x128 ![1] bcast_S128_S1x128_1 : (⟨S128, .f32⟩ : BufTy).Contents (Elt F) → (⟨S1x128, .f32⟩ : BufTy).Contents (Elt F)),
    unary main_v82 main_v83 (broadcastInDim S100000x128 ![0, 1] bcast_S1x128_S100000x128_0_1 : (⟨S1x128, .f32⟩ : BufTy).Contents (Elt F) → (⟨S100000x128, .f32⟩ : BufTy).Contents (Elt F)),
    binary main_v81 main_v83 main_v84 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v84) (TRef.of (T := ⟨S100000x128, .f32⟩) main_call1_v0) (TRef.of (T := ⟨S100000x128, .f32⟩) main_v85) maximumf ]
/-- The buffers they write. -/
abbrev segJ_W : List (Ref sig .tc) := [main_v70, main_v71, main_v72, main_cst_14, main_v73, main_v74, main_v75, main_v76, main_v77, main_v78, main_v79, main_v80, main_v81, main_v82, main_v83, main_v84, main_call1_cst, main_call1_v0, main_v85]
theorem segJ_writes : (segJ : List (HloOp τ sig (Elt F))).Forall fun op => op.writes ⊆ (segJ_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer they do not write keeps its contents. -/
theorem segJ_keep (V : Valuation τ sig (Elt F)) (r : Ref sig .tc) (h : r ∉ segJ_W) :
    after segJ V (Proc.devRef .tc r) = V (Proc.devRef .tc r) :=
  after_of_writes_sub segJ V segJ_writes h
set_option maxHeartbeats 2000000 in
/-- What they leave in the buffer later operations read, from any contents. -/
theorem segJ_out (V : Valuation τ sig (Elt F)) :
    after segJ V (Proc.devRef .tc main_v85) = normH128 (V (Proc.devRef .tc main_v59)) (V (Proc.devRef .tc main_v62)) (V (Proc.devRef .tc main_v69)) (V (Proc.devRef .tc main_arg8)) (V (Proc.devRef .tc main_arg9)) := by
  simp only [segJ]
  after_results_simp <;> rfl

/-! ## The whole list -/

set_option maxRecDepth 8192 in
theorem ops_eq : (ops : List (HloOp τ sig (Elt F))) = segA ++ (segB ++ (segC ++ (segD ++ (segE ++ (segF ++ (segG ++ (segH ++ (segI ++ (segJ))))))))) := rfl

/-- The contents after the whole list: the ten stages' contents composed. -/
theorem after_ops (V : Valuation τ sig (Elt F)) :
    after ops V = after segJ (after segI (after segH (after segG (after segF (after segE (after segD (after segC (after segB (after segA (V)))))))))) := by
  rw [ops_eq]; simp only [after_append]

end Cert.RefSide

end
-- ==== Proof.LibTransposedDot.lean ====
/-
  A two-dimensional matrix product with the right operand transposed — `M × K` by `N × K`, both operands contracted
  on their LAST axis, no batch axis (`DotDims.transposedRhs M K N`, the dimension numbers `<[1], [1], [0], [0]>`) — read
  at an output index over the extended reals: a kernel's `tpu.matmul` into a zero accumulator and the host's
  `dot_general` are the finite sum `Σ_{k < K} lhs (r, k) · rhs (c, k)`: the inner product of row `r` of the left
  operand with row `c` of the right one. In particular entry `(r, c)` reads the right operand at its row `c` only.
  A printed record `dot_S…_1_1_0_0_n_n` of these dimension numbers IS `DotDims.transposedRhs M K N` (`rfl`).
-/
import Idealize.ShloMosaic.PureOps.Ideal.Laws
import Idealize.ShloMosaic.Lib.ValueIdx

namespace Idealize.ShloMosaic.TransposedDot

open Idealize.ShloMosaic.ValueIdx

variable {M K N : Nat}

theorem contr_rank : (DotDims.transposedRhs M K N).contr.rank = 1 := rfl
theorem contr_size : (DotDims.transposedRhs M K N).contr.size ⟨0, by rw [contr_rank]; exact Nat.one_pos⟩ = K := rfl

/-- The left operand's row coordinate is the output's row. -/
theorem lhsIdx_val0 (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column coordinate is the contraction position. -/
theorem lhsIdx_val1 (j : (⟨2, ![M, N]⟩ : Shape).Idx) (q : (DotDims.transposedRhs M K N).contr.Idx) :
    ((DotDims.transposedRhs M K N).lhsIdx j q 1).val = (q ⟨0, by rw [contr_rank]; exact Nat.one_pos⟩).val :=
  (DotDims.transposedRhs M K N).lhsIdx_val_of_single (cl := (1 : Fin 2)) rfl j q

/-- The right operand's row coordinate is the output's column. -/
theorem rhsIdx_val0 (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column coordinate is the contraction position. -/
theorem rhsIdx_val1 (j : (⟨2, ![M, N]⟩ : Shape).Idx) (q : (DotDims.transposedRhs M K N).contr.Idx) :
    ((DotDims.transposedRhs M K N).rhsIdx j q 1).val = (q ⟨0, by rw [contr_rank]; exact Nat.one_pos⟩).val :=
  (DotDims.transposedRhs M K N).rhsIdx_val_of_single (cr := (1 : Fin 2)) rfl j q

/-- The left operand's index at output index `j` and contraction position `k` is `(j₀, k)`. -/
theorem lhsIdx_eq (j : (⟨2, ![M, N]⟩ : Shape).Idx) (k : Fin K) :
    (DotDims.transposedRhs M K N).lhsIdx j ((contrEquiv1 (DotDims.transposedRhs M K N) K contr_rank contr_size).symm k)
      = ix2 ⟨(j 0).val, idx2_lt0 j⟩ k := by
  have hk := contrEquiv1_symm_val (DotDims.transposedRhs M K N) K contr_rank contr_size k
  funext a
  apply Fin.ext
  match a with
  | ⟨0, _⟩ => exact lhsIdx_val0 j _
  | ⟨1, _⟩ => exact (lhsIdx_val1 j _).trans hk

/-- The right operand's index there is `(j₁, k)`. -/
theorem rhsIdx_eq (j : (⟨2, ![M, N]⟩ : Shape).Idx) (k : Fin K) :
    (DotDims.transposedRhs M K N).rhsIdx j ((contrEquiv1 (DotDims.transposedRhs M K N) K contr_rank contr_size).symm k)
      = ix2 ⟨(j 1).val, idx2_lt1 j⟩ k := by
  have hk := contrEquiv1_symm_val (DotDims.transposedRhs M K N) K contr_rank contr_size k
  funext a
  apply Fin.ext
  match a with
  | ⟨0, _⟩ => exact rhsIdx_val0 j _
  | ⟨1, _⟩ => exact (rhsIdx_val1 j _).trans hk

/-- A kernel's product into the zero accumulator, at an output index: the inner product of a left row and a right row. -/
theorem matmul_apply {φ₁ φ₂ : FTy} (prec : Option ContractPrecision) (lhs : FVec Ideal ⟨2, ![M, K]⟩ φ₁)
    (rhs : FVec Ideal ⟨2, ![N, K]⟩ φ₂) (j : (⟨2, ![M, N]⟩ : Shape).Idx) :
    FloatOps.matmul (DotDims.transposedRhs M K N) prec lhs rhs (constant ⟨2, ![M, N]⟩ .f32 0x00000000#32) j
      = ∑ k : Fin K, lhs (ix2 ⟨(j 0).val, idx2_lt0 j⟩ k) * rhs (ix2 ⟨(j 1).val, idx2_lt1 j⟩ k) := by
  rw [Ideal.matmul_constant_zero_apply,
    ← Equiv.sum_comp (contrEquiv1 (DotDims.transposedRhs M K N) K contr_rank contr_size).symm]
  refine Finset.sum_congr rfl fun k _ => ?_
  rw [lhsIdx_eq, rhsIdx_eq]

/-- The host's `dot_general` with these dimension numbers at an output index: the same sum. -/
theorem dotGeneral_apply {φ₁ φ₂ : FTy} (prec : Option ContractPrecision) (sched : HostSchedule)
    (lhs : FVec Ideal ⟨2, ![M, K]⟩ φ₁) (rhs : FVec Ideal ⟨2, ![N, K]⟩ φ₂) (j : (⟨2, ![M, N]⟩ : Shape).Idx) :
    FloatOps.dotGeneral (DotDims.transposedRhs M K N) prec sched lhs rhs j
      = ∑ k : Fin K, lhs (ix2 ⟨(j 0).val, idx2_lt0 j⟩ k) * rhs (ix2 ⟨(j 1).val, idx2_lt1 j⟩ k) := by
  rw [Ideal.dotGeneral_apply,
    ← Equiv.sum_comp (contrEquiv1 (DotDims.transposedRhs M K N) K contr_rank contr_size).symm]
  refine Finset.sum_congr rfl fun k _ => ?_
  rw [lhsIdx_eq, rhsIdx_eq]

/-- At an index given by coordinates. -/
theorem matmul_apply_ix2 {φ₁ φ₂ : FTy} (prec : Option ContractPrecision) (lhs : FVec Ideal ⟨2, ![M, K]⟩ φ₁)
    (rhs : FVec Ideal ⟨2, ![N, K]⟩ φ₂) (r : Fin M) (c : Fin N) :
    FloatOps.matmul (DotDims.transposedRhs M K N) prec lhs rhs (constant ⟨2, ![M, N]⟩ .f32 0x00000000#32) (ix2 r c)
      = ∑ k : Fin K, lhs (ix2 r k) * rhs (ix2 c k) :=
  matmul_apply prec lhs rhs (ix2 r c)

end Idealize.ShloMosaic.TransposedDot
-- ==== Proof.RefValue.lean ====
/-
  The value the plain jnp program leaves in its result buffer: the specification's layer of the twelve
  argument arrays. Each stage's array, as the host spells it, is read at an index into the specification's
  function of the arrays it reads — a broadcast reads one entry of its operand, a sum over the rows from the
  float zero is the column's sum, the quotient by the broadcast float 100000 is the division by the row count,
  a dot_general against a weight contracted on its last axis is the product against the transposed weight —
  and the ten stages are composed from the launch contents on.
-/
import proofs.«151600_j50869592655513_2_alg».proof.Proof.RefStages
import proofs.«151600_j50869592655513_2_alg».proof.Proof.Result
import proofs.«151600_j50869592655513_2_alg».proof.Proof.LibTransposedDot
import Idealize.ShloMosaic.Lib.IdealHost
import Idealize.ShloMosaic.Lib.KernelVsHost
import Idealize.ShloMosaic.Lib.Pipeline.Value
import Idealize.ShloMosaic.PureOps.Ideal.Laws

noncomputable section

namespace Cert.RefSide

open Idealize.ShloMosaic Idealize.ShloMosaic.ValueIdx Idealize.ShloMosaic.TcCoe Idealize.SL.Sem Idealize.ShloMosaic.StableHlo
open Cert.ReferenceIdeal Cert.ReferenceIdeal.Facts₀ Cert.ReferenceIdeal.Facts
open scoped BigOperators

/-! ## Arrays given by coordinates -/

/-- The rank-2 array with entry f r j at (r, j). -/
def arr2 {m n : ℕ} (f : Fin m → Fin n → EReal) : (⟨2, ![m, n]⟩ : Shape).Idx → EReal := fun i => f (i 0) (i 1)
/-- The rank-1 array with entry f j at j. -/
def arr1 {n : ℕ} (f : Fin n → EReal) : (⟨1, ![n]⟩ : Shape).Idx → EReal := fun i => f (i 0)

/-! ## Layout operations read at an index -/

section Layout
variable {α : Type}

/-- A one-entry vector as a 1 × 1 matrix reads its entry. -/
theorem unit_apply (h : S1.BroadcastsInDim S1x1 ![1]) (x : S1.Idx → α) (j : S1x1.Idx) :
    broadcastInDim S1x1 ![1] h x j = x (ix1 0) :=
  broadcastInDim_apply ![1] h x j (ix1 0) fun a => match a with | ⟨0, _⟩ => rfl

/-- A 1 × 1 matrix spread down a column reads its entry. -/
theorem unitCol_apply (h : S1x1.BroadcastsInDim S100000x1 ![0, 1]) (y : S1x1.Idx → α) (j : S100000x1.Idx) :
    broadcastInDim S100000x1 ![0, 1] h y j = y (ix2 0 0) :=
  broadcastInDim_apply ![0, 1] h y j (ix2 0 0) fun a => match a with | ⟨0, _⟩ => rfl | ⟨1, _⟩ => rfl

/-- A vector as a column reads, in row r, the vector at r. -/
theorem vecCol_apply (h : S100000.BroadcastsInDim S100000x1 ![0]) (x : S100000.Idx → α) (r : Fin 100000) (u : Fin 1) :
    broadcastInDim S100000x1 ![0] h x (ix2 r u) = x (ix1 r) :=
  broadcastInDim_apply ![0] h x (ix2 r u) (ix1 r) fun a => match a with | ⟨0, _⟩ => rfl

/-- A column spread over the 128 lanes reads, at (r, t), the column in row r. -/
theorem colLanes_apply (h : S100000x1.BroadcastsInDim S100000x128 ![0, 1]) (y : S100000x1.Idx → α) (r : Fin 100000) (t : Fin 128) :
    broadcastInDim S100000x128 ![0, 1] h y (ix2 r t) = y (ix2 r 0) :=
  broadcastInDim_apply ![0, 1] h y (ix2 r t) (ix2 r 0) fun a => match a with | ⟨0, _⟩ => rfl | ⟨1, _⟩ => rfl

end Layout

/-- A length-256 vector laid along every row reads, at (r, t), the vector at t. -/
theorem rows256_apply (x : (⟨S256, .f32⟩ : BufTy).Contents (Elt Ideal)) (r : Fin 100000) (t : Fin 256) :
    rows256 (F := Ideal) x (ix2 r t) = x (ix1 t) := by
  unfold rows256
  rw [broadcastInDim_oneRow_apply]
  exact broadcastInDim_apply ![1] _ x (ix2 0 t) (ix1 t) fun a => match a with | ⟨0, _⟩ => rfl

/-- The host's sum over the rows from the float zero, read at a column: the column's sum. -/
theorem colSum256_apply (y : (⟨S100000x256, .f32⟩ : BufTy).Contents (Elt Ideal)) (j : Fin 256) :
    Host.reduceAdd (F := Ideal) y (constant (F := Ideal) S_ .f32 0x00000000#32) reducesTo_S100000x256_S256_d0 h_S_ (ix1 j)
      = ∑ r : Fin 100000, y (ix2 r j) := by
  have h : S100000x256.Reduces [0] S256 := by decide
  rw [hostReduceAdd_apply, Ideal.hostReduceAdd_single reducesTo_S100000x256_S256_d0 h, constant_apply, Ideal.ofBits_zero_f32, zero_add]
  refine Finset.sum_congr rfl fun k _ => congrArg y (funext fun c => Fin.ext ?_)
  match c with
  | ⟨0, _⟩ => rfl
  | ⟨1, _⟩ => rfl

/-- The host's column means are the specification's. -/
theorem meanH256_eq (y : (⟨S100000x256, .f32⟩ : BufTy).Contents (Elt Ideal)) :
    meanH256 (F := Ideal) y = arr1 (Spec.mean fun r j => y (ix2 r j)) := by
  funext i
  obtain ⟨j, rfl⟩ : ∃ j, i = ix1 j := ⟨i 0, eq_ix1 i⟩
  unfold meanH256
  rw [hostDivf_apply, colSum256_apply, broadcastInDim_scalar_apply, constant_apply]
  rfl

/-- The host's column variances about a given mean: the mean of the squared deviations. -/
theorem varH256_eq (y : (⟨S100000x256, .f32⟩ : BufTy).Contents (Elt Ideal)) (mu : (⟨S256, .f32⟩ : BufTy).Contents (Elt Ideal)) :
    varH256 (F := Ideal) y mu
      = arr1 fun j => Ideal.div (∑ r : Fin 100000, (y (ix2 r j) - mu (ix1 j)) * (y (ix2 r j) - mu (ix1 j))) Spec.nrows := by
  funext i
  obtain ⟨j, rfl⟩ : ∃ j, i = ix1 j := ⟨i 0, eq_ix1 i⟩
  unfold varH256
  rw [hostDivf_apply, colSum256_apply, broadcastInDim_scalar_apply, constant_apply]
  simp only [mulf_apply, subf_apply, rows256_apply]
  rfl

/-- The host's normalise-scale-shift-clamp is the specification's. -/
theorem normH256_eq (y : (⟨S100000x256, .f32⟩ : BufTy).Contents (Elt Ideal)) (mu var g b : (⟨S256, .f32⟩ : BufTy).Contents (Elt Ideal)) :
    normH256 (F := Ideal) y mu var g b = arr2 (Spec.norm (fun r j => y (ix2 r j)) (fun j => mu (ix1 j)) (fun j => var (ix1 j))
      (fun j => g (ix1 j)) (fun j => b (ix1 j))) := by
  funext i
  obtain ⟨r, j, rfl⟩ : ∃ r j, i = ix2 r j := ⟨i 0, i 1, eq_ix2 i⟩
  unfold normH256
  simp only [maximumf_apply, addf_apply, mulf_apply, subf_apply, rows256_apply, broadcastInDim_scalar_apply, constant_apply]
  rfl

/-- A length-128 vector laid along every row reads, at (r, t), the vector at t. -/
theorem rows128_apply (x : (⟨S128, .f32⟩ : BufTy).Contents (Elt Ideal)) (r : Fin 100000) (t : Fin 128) :
    rows128 (F := Ideal) x (ix2 r t) = x (ix1 t) := by
  unfold rows128
  rw [broadcastInDim_oneRow_apply]
  exact broadcastInDim_apply ![1] _ x (ix2 0 t) (ix1 t) fun a => match a with | ⟨0, _⟩ => rfl

/-- The host's sum over the rows from the float zero, read at a column: the column's sum. -/
theorem colSum128_apply (y : (⟨S100000x128, .f32⟩ : BufTy).Contents (Elt Ideal)) (j : Fin 128) :
    Host.reduceAdd (F := Ideal) y (constant (F := Ideal) S_ .f32 0x00000000#32) reducesTo_S100000x128_S128_d0 h_S_ (ix1 j)
      = ∑ r : Fin 100000, y (ix2 r j) := by
  have h : S100000x128.Reduces [0] S128 := by decide
  rw [hostReduceAdd_apply, Ideal.hostReduceAdd_single reducesTo_S100000x128_S128_d0 h, constant_apply, Ideal.ofBits_zero_f32, zero_add]
  refine Finset.sum_congr rfl fun k _ => congrArg y (funext fun c => Fin.ext ?_)
  match c with
  | ⟨0, _⟩ => rfl
  | ⟨1, _⟩ => rfl

/-- The host's column means are the specification's. -/
theorem meanH128_eq (y : (⟨S100000x128, .f32⟩ : BufTy).Contents (Elt Ideal)) :
    meanH128 (F := Ideal) y = arr1 (Spec.mean fun r j => y (ix2 r j)) := by
  funext i
  obtain ⟨j, rfl⟩ : ∃ j, i = ix1 j := ⟨i 0, eq_ix1 i⟩
  unfold meanH128
  rw [hostDivf_apply, colSum128_apply, broadcastInDim_scalar_apply, constant_apply]
  rfl

/-- The host's column variances about a given mean: the mean of the squared deviations. -/
theorem varH128_eq (y : (⟨S100000x128, .f32⟩ : BufTy).Contents (Elt Ideal)) (mu : (⟨S128, .f32⟩ : BufTy).Contents (Elt Ideal)) :
    varH128 (F := Ideal) y mu
      = arr1 fun j => Ideal.div (∑ r : Fin 100000, (y (ix2 r j) - mu (ix1 j)) * (y (ix2 r j) - mu (ix1 j))) Spec.nrows := by
  funext i
  obtain ⟨j, rfl⟩ : ∃ j, i = ix1 j := ⟨i 0, eq_ix1 i⟩
  unfold varH128
  rw [hostDivf_apply, colSum128_apply, broadcastInDim_scalar_apply, constant_apply]
  simp only [mulf_apply, subf_apply, rows128_apply]
  rfl

/-- The host's normalise-scale-shift-clamp is the specification's. -/
theorem normH128_eq (y : (⟨S100000x128, .f32⟩ : BufTy).Contents (Elt Ideal)) (mu var g b : (⟨S128, .f32⟩ : BufTy).Contents (Elt Ideal)) :
    normH128 (F := Ideal) y mu var g b = arr2 (Spec.norm (fun r j => y (ix2 r j)) (fun j => mu (ix1 j)) (fun j => var (ix1 j))
      (fun j => g (ix1 j)) (fun j => b (ix1 j))) := by
  funext i
  obtain ⟨r, j, rfl⟩ : ∃ r j, i = ix2 r j := ⟨i 0, i 1, eq_ix2 i⟩
  unfold normH128
  simp only [maximumf_apply, addf_apply, mulf_apply, subf_apply, rows128_apply, broadcastInDim_scalar_apply, constant_apply]
  rfl

/-- The residual as the host spells it is the specification's. -/
theorem residH_eq (n22 a0 : (⟨S100000x128, .f32⟩ : BufTy).Contents (Elt Ideal)) (a2 : (⟨S100000, .f32⟩ : BufTy).Contents (Elt Ideal)) (a3 : (⟨S1, .f32⟩ : BufTy).Contents (Elt Ideal)) :
    residH (F := Ideal) n22 a0 a2 a3
      = arr2 (Spec.resid (fun r t => n22 (ix2 r t)) (a3 (ix1 0)) (fun r => a2 (ix1 r)) (fun r t => a0 (ix2 r t))) := by
  funext i
  obtain ⟨r, t, rfl⟩ : ∃ r t, i = ix2 r t := ⟨i 0, i 1, eq_ix2 i⟩
  unfold residH
  rw [addf_apply, mulf_apply, colLanes_apply, subf_apply, unitCol_apply, unit_apply, addf_apply, vecCol_apply,
    broadcastInDim_scalar_apply, constant_apply]
  rfl

/-- The first linear map: the host's dot_general is the product against the transposed weight. -/
theorem dot1_eq (l : (⟨S100000x128, .f32⟩ : BufTy).Contents (Elt Ideal)) (w : (⟨S256x128, .f32⟩ : BufTy).Contents (Elt Ideal)) :
    Host.dotGeneral (F := Ideal) (φ₁ := .f32) (φ₂ := .f32) dot_S100000x128_S256x128_S100000x256_1_1_0_0_n_n none l w
      = arr2 (Spec.mm (fun r t => l (ix2 r t)) (fun j t => w (ix2 j t))) := by
  funext i
  obtain ⟨r, j, rfl⟩ : ∃ r j, i = ix2 r j := ⟨i 0, i 1, eq_ix2 i⟩
  exact TransposedDot.dotGeneral_apply (M := 100000) (K := 128) (N := 256) none .single l w (ix2 r j)

/-- The second linear map likewise. -/
theorem dot2_eq (l : (⟨S100000x256, .f32⟩ : BufTy).Contents (Elt Ideal)) (w : (⟨S128x256, .f32⟩ : BufTy).Contents (Elt Ideal)) :
    Host.dotGeneral (F := Ideal) (φ₁ := .f32) (φ₂ := .f32) dot_S100000x256_S128x256_S100000x128_1_1_0_0_n_n none l w
      = arr2 (Spec.mm (fun r t => l (ix2 r t)) (fun j t => w (ix2 j t))) := by
  funext i
  obtain ⟨r, j, rfl⟩ : ∃ r j, i = ix2 r j := ⟨i 0, i 1, eq_ix2 i⟩
  exact TransposedDot.dotGeneral_apply (M := 100000) (K := 256) (N := 128) none .single l w (ix2 r j)

/-! ## The stages composed from the launch contents -/

section Compose
variable (W : Valuation τ sig (Elt Ideal))

/-- The residual input of the first linear map, of the launch contents. -/
def X0 : Fin 100000 → Fin 128 → EReal :=
  Spec.resid (nnC (W (Proc.devRef .tc main_arg0)) (W (Proc.devRef .tc main_arg1)) (W (Proc.devRef .tc main_arg10)) (W (Proc.devRef .tc main_arg11))) ((W (Proc.devRef .tc main_arg3)) (ix1 0)) (fun r => (W (Proc.devRef .tc main_arg2)) (ix1 r)) (fun r t => (W (Proc.devRef .tc main_arg0)) (ix2 r t))
/-- The first linear map's output. -/
def Y1 : Fin 100000 → Fin 256 → EReal := Spec.mm (X0 W) (fun j t => (W (Proc.devRef .tc main_arg4)) (ix2 j t))
/-- The first normalised and clamped array. -/
def Z1 : Fin 100000 → Fin 256 → EReal := Spec.bnDev (Y1 W) (fun j => (W (Proc.devRef .tc main_arg5)) (ix1 j)) (fun j => (W (Proc.devRef .tc main_arg6)) (ix1 j))
/-- The second linear map's output. -/
def Y2 : Fin 100000 → Fin 128 → EReal := Spec.mm (Z1 W) (fun j t => (W (Proc.devRef .tc main_arg7)) (ix2 j t))

/-- The contents at launch. -/
def val0 : Valuation τ sig (Elt Ideal) := W
theorem val0_arg0 : val0 W (Proc.devRef .tc main_arg0) = W (Proc.devRef .tc main_arg0) := rfl
theorem val0_arg1 : val0 W (Proc.devRef .tc main_arg1) = W (Proc.devRef .tc main_arg1) := rfl
theorem val0_arg2 : val0 W (Proc.devRef .tc main_arg2) = W (Proc.devRef .tc main_arg2) := rfl
theorem val0_arg3 : val0 W (Proc.devRef .tc main_arg3) = W (Proc.devRef .tc main_arg3) := rfl
theorem val0_arg4 : val0 W (Proc.devRef .tc main_arg4) = W (Proc.devRef .tc main_arg4) := rfl
theorem val0_arg5 : val0 W (Proc.devRef .tc main_arg5) = W (Proc.devRef .tc main_arg5) := rfl
theorem val0_arg6 : val0 W (Proc.devRef .tc main_arg6) = W (Proc.devRef .tc main_arg6) := rfl
theorem val0_arg7 : val0 W (Proc.devRef .tc main_arg7) = W (Proc.devRef .tc main_arg7) := rfl
theorem val0_arg8 : val0 W (Proc.devRef .tc main_arg8) = W (Proc.devRef .tc main_arg8) := rfl
theorem val0_arg9 : val0 W (Proc.devRef .tc main_arg9) = W (Proc.devRef .tc main_arg9) := rfl
theorem val0_arg10 : val0 W (Proc.devRef .tc main_arg10) = W (Proc.devRef .tc main_arg10) := rfl
theorem val0_arg11 : val0 W (Proc.devRef .tc main_arg11) = W (Proc.devRef .tc main_arg11) := rfl

/-- The contents after the first 1 stage. -/
def val1 : Valuation τ sig (Elt Ideal) := after segA (val0 W)
theorem val1_arg0 : val1 W (Proc.devRef .tc main_arg0) = W (Proc.devRef .tc main_arg0) :=
  (segA_keep (val0 W) main_arg0 (by decide)).trans (val0_arg0 W)
theorem val1_arg2 : val1 W (Proc.devRef .tc main_arg2) = W (Proc.devRef .tc main_arg2) :=
  (segA_keep (val0 W) main_arg2 (by decide)).trans (val0_arg2 W)
theorem val1_arg3 : val1 W (Proc.devRef .tc main_arg3) = W (Proc.devRef .tc main_arg3) :=
  (segA_keep (val0 W) main_arg3 (by decide)).trans (val0_arg3 W)
theorem val1_arg4 : val1 W (Proc.devRef .tc main_arg4) = W (Proc.devRef .tc main_arg4) :=
  (segA_keep (val0 W) main_arg4 (by decide)).trans (val0_arg4 W)
theorem val1_arg5 : val1 W (Proc.devRef .tc main_arg5) = W (Proc.devRef .tc main_arg5) :=
  (segA_keep (val0 W) main_arg5 (by decide)).trans (val0_arg5 W)
theorem val1_arg6 : val1 W (Proc.devRef .tc main_arg6) = W (Proc.devRef .tc main_arg6) :=
  (segA_keep (val0 W) main_arg6 (by decide)).trans (val0_arg6 W)
theorem val1_arg7 : val1 W (Proc.devRef .tc main_arg7) = W (Proc.devRef .tc main_arg7) :=
  (segA_keep (val0 W) main_arg7 (by decide)).trans (val0_arg7 W)
theorem val1_arg8 : val1 W (Proc.devRef .tc main_arg8) = W (Proc.devRef .tc main_arg8) :=
  (segA_keep (val0 W) main_arg8 (by decide)).trans (val0_arg8 W)
theorem val1_arg9 : val1 W (Proc.devRef .tc main_arg9) = W (Proc.devRef .tc main_arg9) :=
  (segA_keep (val0 W) main_arg9 (by decide)).trans (val0_arg9 W)
theorem val1_v22 : val1 W (Proc.devRef .tc main_v22) = nodeNew (F := Ideal) (W (Proc.devRef .tc main_arg0)) (W (Proc.devRef .tc main_arg1)) (W (Proc.devRef .tc main_arg10)) (W (Proc.devRef .tc main_arg11)) := by
  unfold val1
  rw [segA_out, val0_arg0, val0_arg1, val0_arg10, val0_arg11]

/-- The contents after the first 2 stages. -/
def val2 : Valuation τ sig (Elt Ideal) := after segB (val1 W)
theorem val2_arg4 : val2 W (Proc.devRef .tc main_arg4) = W (Proc.devRef .tc main_arg4) :=
  (segB_keep (val1 W) main_arg4 (by decide)).trans (val1_arg4 W)
theorem val2_arg5 : val2 W (Proc.devRef .tc main_arg5) = W (Proc.devRef .tc main_arg5) :=
  (segB_keep (val1 W) main_arg5 (by decide)).trans (val1_arg5 W)
theorem val2_arg6 : val2 W (Proc.devRef .tc main_arg6) = W (Proc.devRef .tc main_arg6) :=
  (segB_keep (val1 W) main_arg6 (by decide)).trans (val1_arg6 W)
theorem val2_arg7 : val2 W (Proc.devRef .tc main_arg7) = W (Proc.devRef .tc main_arg7) :=
  (segB_keep (val1 W) main_arg7 (by decide)).trans (val1_arg7 W)
theorem val2_arg8 : val2 W (Proc.devRef .tc main_arg8) = W (Proc.devRef .tc main_arg8) :=
  (segB_keep (val1 W) main_arg8 (by decide)).trans (val1_arg8 W)
theorem val2_arg9 : val2 W (Proc.devRef .tc main_arg9) = W (Proc.devRef .tc main_arg9) :=
  (segB_keep (val1 W) main_arg9 (by decide)).trans (val1_arg9 W)
theorem val2_v31 : val2 W (Proc.devRef .tc main_v31) = arr2 (X0 W) := by
  unfold val2
  rw [segB_out, val1_v22, val1_arg0, val1_arg2, val1_arg3, residH_eq]
  rfl

/-- The contents after the first 3 stages. -/
def val3 : Valuation τ sig (Elt Ideal) := after segC (val2 W)
theorem val3_arg5 : val3 W (Proc.devRef .tc main_arg5) = W (Proc.devRef .tc main_arg5) :=
  (segC_keep (val2 W) main_arg5 (by decide)).trans (val2_arg5 W)
theorem val3_arg6 : val3 W (Proc.devRef .tc main_arg6) = W (Proc.devRef .tc main_arg6) :=
  (segC_keep (val2 W) main_arg6 (by decide)).trans (val2_arg6 W)
theorem val3_arg7 : val3 W (Proc.devRef .tc main_arg7) = W (Proc.devRef .tc main_arg7) :=
  (segC_keep (val2 W) main_arg7 (by decide)).trans (val2_arg7 W)
theorem val3_arg8 : val3 W (Proc.devRef .tc main_arg8) = W (Proc.devRef .tc main_arg8) :=
  (segC_keep (val2 W) main_arg8 (by decide)).trans (val2_arg8 W)
theorem val3_arg9 : val3 W (Proc.devRef .tc main_arg9) = W (Proc.devRef .tc main_arg9) :=
  (segC_keep (val2 W) main_arg9 (by decide)).trans (val2_arg9 W)
theorem val3_v32 : val3 W (Proc.devRef .tc main_v32) = arr2 (Y1 W) := by
  unfold val3
  rw [segC_out, val2_v31, val2_arg4, dot1_eq]
  rfl

/-- The contents after the first 4 stages. -/
def val4 : Valuation τ sig (Elt Ideal) := after segD (val3 W)
theorem val4_arg5 : val4 W (Proc.devRef .tc main_arg5) = W (Proc.devRef .tc main_arg5) :=
  (segD_keep (val3 W) main_arg5 (by decide)).trans (val3_arg5 W)
theorem val4_arg6 : val4 W (Proc.devRef .tc main_arg6) = W (Proc.devRef .tc main_arg6) :=
  (segD_keep (val3 W) main_arg6 (by decide)).trans (val3_arg6 W)
theorem val4_arg7 : val4 W (Proc.devRef .tc main_arg7) = W (Proc.devRef .tc main_arg7) :=
  (segD_keep (val3 W) main_arg7 (by decide)).trans (val3_arg7 W)
theorem val4_arg8 : val4 W (Proc.devRef .tc main_arg8) = W (Proc.devRef .tc main_arg8) :=
  (segD_keep (val3 W) main_arg8 (by decide)).trans (val3_arg8 W)
theorem val4_arg9 : val4 W (Proc.devRef .tc main_arg9) = W (Proc.devRef .tc main_arg9) :=
  (segD_keep (val3 W) main_arg9 (by decide)).trans (val3_arg9 W)
theorem val4_v32 : val4 W (Proc.devRef .tc main_v32) = arr2 (Y1 W) :=
  (segD_keep (val3 W) main_v32 (by decide)).trans (val3_v32 W)
theorem val4_v35 : val4 W (Proc.devRef .tc main_v35) = arr1 (Spec.mean (Y1 W)) := by
  unfold val4
  rw [segD_out, val3_v32, meanH256_eq]
  rfl

/-- The contents after the first 5 stages. -/
def val5 : Valuation τ sig (Elt Ideal) := after segE (val4 W)
theorem val5_arg5 : val5 W (Proc.devRef .tc main_arg5) = W (Proc.devRef .tc main_arg5) :=
  (segE_keep (val4 W) main_arg5 (by decide)).trans (val4_arg5 W)
theorem val5_arg6 : val5 W (Proc.devRef .tc main_arg6) = W (Proc.devRef .tc main_arg6) :=
  (segE_keep (val4 W) main_arg6 (by decide)).trans (val4_arg6 W)
theorem val5_arg7 : val5 W (Proc.devRef .tc main_arg7) = W (Proc.devRef .tc main_arg7) :=
  (segE_keep (val4 W) main_arg7 (by decide)).trans (val4_arg7 W)
theorem val5_arg8 : val5 W (Proc.devRef .tc main_arg8) = W (Proc.devRef .tc main_arg8) :=
  (segE_keep (val4 W) main_arg8 (by decide)).trans (val4_arg8 W)
theorem val5_arg9 : val5 W (Proc.devRef .tc main_arg9) = W (Proc.devRef .tc main_arg9) :=
  (segE_keep (val4 W) main_arg9 (by decide)).trans (val4_arg9 W)
theorem val5_v32 : val5 W (Proc.devRef .tc main_v32) = arr2 (Y1 W) :=
  (segE_keep (val4 W) main_v32 (by decide)).trans (val4_v32 W)
theorem val5_v35 : val5 W (Proc.devRef .tc main_v35) = arr1 (Spec.mean (Y1 W)) :=
  (segE_keep (val4 W) main_v35 (by decide)).trans (val4_v35 W)
theorem val5_v42 : val5 W (Proc.devRef .tc main_v42) = arr1 (Spec.varDev (Y1 W)) := by
  unfold val5
  rw [segE_out, val4_v32, val4_v35, varH256_eq]
  rfl

/-- The contents after the first 6 stages. -/
def val6 : Valuation τ sig (Elt Ideal) := after segF (val5 W)
theorem val6_arg7 : val6 W (Proc.devRef .tc main_arg7) = W (Proc.devRef .tc main_arg7) :=
  (segF_keep (val5 W) main_arg7 (by decide)).trans (val5_arg7 W)
theorem val6_arg8 : val6 W (Proc.devRef .tc main_arg8) = W (Proc.devRef .tc main_arg8) :=
  (segF_keep (val5 W) main_arg8 (by decide)).trans (val5_arg8 W)
theorem val6_arg9 : val6 W (Proc.devRef .tc main_arg9) = W (Proc.devRef .tc main_arg9) :=
  (segF_keep (val5 W) main_arg9 (by decide)).trans (val5_arg9 W)
theorem val6_v58 : val6 W (Proc.devRef .tc main_v58) = arr2 (Z1 W) := by
  unfold val6
  rw [segF_out, val5_v32, val5_v35, val5_v42, val5_arg5, val5_arg6, normH256_eq]
  rfl

/-- The contents after the first 7 stages. -/
def val7 : Valuation τ sig (Elt Ideal) := after segG (val6 W)
theorem val7_arg8 : val7 W (Proc.devRef .tc main_arg8) = W (Proc.devRef .tc main_arg8) :=
  (segG_keep (val6 W) main_arg8 (by decide)).trans (val6_arg8 W)
theorem val7_arg9 : val7 W (Proc.devRef .tc main_arg9) = W (Proc.devRef .tc main_arg9) :=
  (segG_keep (val6 W) main_arg9 (by decide)).trans (val6_arg9 W)
theorem val7_v59 : val7 W (Proc.devRef .tc main_v59) = arr2 (Y2 W) := by
  unfold val7
  rw [segG_out, val6_v58, val6_arg7, dot2_eq]
  rfl

/-- The contents after the first 8 stages. -/
def val8 : Valuation τ sig (Elt Ideal) := after segH (val7 W)
theorem val8_arg8 : val8 W (Proc.devRef .tc main_arg8) = W (Proc.devRef .tc main_arg8) :=
  (segH_keep (val7 W) main_arg8 (by decide)).trans (val7_arg8 W)
theorem val8_arg9 : val8 W (Proc.devRef .tc main_arg9) = W (Proc.devRef .tc main_arg9) :=
  (segH_keep (val7 W) main_arg9 (by decide)).trans (val7_arg9 W)
theorem val8_v59 : val8 W (Proc.devRef .tc main_v59) = arr2 (Y2 W) :=
  (segH_keep (val7 W) main_v59 (by decide)).trans (val7_v59 W)
theorem val8_v62 : val8 W (Proc.devRef .tc main_v62) = arr1 (Spec.mean (Y2 W)) := by
  unfold val8
  rw [segH_out, val7_v59, meanH128_eq]
  rfl

/-- The contents after the first 9 stages. -/
def val9 : Valuation τ sig (Elt Ideal) := after segI (val8 W)
theorem val9_arg8 : val9 W (Proc.devRef .tc main_arg8) = W (Proc.devRef .tc main_arg8) :=
  (segI_keep (val8 W) main_arg8 (by decide)).trans (val8_arg8 W)
theorem val9_arg9 : val9 W (Proc.devRef .tc main_arg9) = W (Proc.devRef .tc main_arg9) :=
  (segI_keep (val8 W) main_arg9 (by decide)).trans (val8_arg9 W)
theorem val9_v59 : val9 W (Proc.devRef .tc main_v59) = arr2 (Y2 W) :=
  (segI_keep (val8 W) main_v59 (by decide)).trans (val8_v59 W)
theorem val9_v62 : val9 W (Proc.devRef .tc main_v62) = arr1 (Spec.mean (Y2 W)) :=
  (segI_keep (val8 W) main_v62 (by decide)).trans (val8_v62 W)
theorem val9_v69 : val9 W (Proc.devRef .tc main_v69) = arr1 (Spec.varDev (Y2 W)) := by
  unfold val9
  rw [segI_out, val8_v59, val8_v62, varH128_eq]
  rfl

/-- The contents after the first 10 stages. -/
def val10 : Valuation τ sig (Elt Ideal) := after segJ (val9 W)
theorem val10_v85 : val10 W (Proc.devRef .tc main_v85) = arr2 (Spec.bnDev (Y2 W) (fun j => (W (Proc.devRef .tc main_arg8)) (ix1 j)) (fun j => (W (Proc.devRef .tc main_arg9)) (ix1 j))) := by
  unfold val10
  rw [segJ_out, val9_v59, val9_v62, val9_v69, val9_arg8, val9_arg9, normH128_eq]
  rfl

/-- The result buffer after the whole list: the specification's layer of the launch contents of the twelve arguments. -/
theorem value : after ops W (Proc.devRef .tc main_v85) = outDev (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) := by
  rw [after_ops]
  exact (val10_v85 W).trans rfl

end Compose

/-- No operation writes an argument: a buffer outside every stage's written set keeps its launch contents. -/
theorem ops_keep {F : FTy → Type} [FloatOps F] (V : Valuation τ sig (Elt F)) (r : Ref sig .tc)
    (hA : r ∉ segA_W) (hB : r ∉ segB_W) (hC : r ∉ segC_W) (hD : r ∉ segD_W) (hE : r ∉ segE_W) (hF : r ∉ segF_W)
    (hG : r ∉ segG_W) (hH : r ∉ segH_W) (hI : r ∉ segI_W) (hJ : r ∉ segJ_W) :
    after ops V (Proc.devRef .tc r) = V (Proc.devRef .tc r) := by
  rw [after_ops, segJ_keep _ r hJ, segI_keep _ r hI, segH_keep _ r hH, segG_keep _ r hG, segF_keep _ r hF,
    segE_keep _ r hE, segD_keep _ r hD, segC_keep _ r hC, segB_keep _ r hB, segA_keep _ r hA]

/-- On every device, from any memory with zero counters: every weakly fair execution of the plain jnp program terminates
    with its result buffer at the specification's layer of the twelve arguments' launch contents, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v85)
        = outDev (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v85).trans (value (launchContents m c)),
      (h c main_arg0).trans (ops_keep (launchContents m c) main_arg0 (by decide) (by decide) (by decide) (by decide) (by decide) (by decide) (by decide) (by decide) (by decide) (by decide)),
      (h c main_arg1).trans (ops_keep (launchContents m c) main_arg1 (by decide) (by decide) (by decide) (by decide) (by decide) (by decide) (by decide) (by decide) (by decide) (by decide)),
      (h c main_arg2).trans (ops_keep (launchContents m c) main_arg2 (by decide) (by decide) (by decide) (by decide) (by decide) (by decide) (by decide) (by decide) (by decide) (by decide)),
      (h c main_arg3).trans (ops_keep (launchContents m c) main_arg3 (by decide) (by decide) (by decide) (by decide) (by decide) (by decide) (by decide) (by decide) (by decide) (by decide)),
      (h c main_arg4).trans (ops_keep (launchContents m c) main_arg4 (by decide) (by decide) (by decide) (by decide) (by decide) (by decide) (by decide) (by decide) (by decide) (by decide)),
      (h c main_arg5).trans (ops_keep (launchContents m c) main_arg5 (by decide) (by decide) (by decide) (by decide) (by decide) (by decide) (by decide) (by decide) (by decide) (by decide)),
      (h c main_arg6).trans (ops_keep (launchContents m c) main_arg6 (by decide) (by decide) (by decide) (by decide) (by decide) (by decide) (by decide) (by decide) (by decide) (by decide)),
      (h c main_arg7).trans (ops_keep (launchContents m c) main_arg7 (by decide) (by decide) (by decide) (by decide) (by decide) (by decide) (by decide) (by decide) (by decide) (by decide)),
      (h c main_arg8).trans (ops_keep (launchContents m c) main_arg8 (by decide) (by decide) (by decide) (by decide) (by decide) (by decide) (by decide) (by decide) (by decide) (by decide)),
      (h c main_arg9).trans (ops_keep (launchContents m c) main_arg9 (by decide) (by decide) (by decide) (by decide) (by decide) (by decide) (by decide) (by decide) (by decide) (by decide)),
      (h c main_arg10).trans (ops_keep (launchContents m c) main_arg10 (by decide) (by decide) (by decide) (by decide) (by decide) (by decide) (by decide) (by decide) (by decide) (by decide)),
      (h c main_arg11).trans (ops_keep (launchContents m c) main_arg11 (by decide) (by decide) (by decide) (by decide) (by decide) (by decide) (by decide) (by decide) (by decide) (by decide))⟩)
    (run_after m ρ)

end Cert.RefSide

end
-- ==== Proof.Finite.lean ====
/-
  Real entries.

  An extended real is a real number exactly when its absolute value max x (-x) lies strictly below +∞:
  at ⊤ the maximum is ⊤, at ⊥ the negation is ⊤, so the maximum is ⊤ again.  The precondition compares
  |x| with the pattern 0x7F800000 (which denotes ⊤) at every entry of the ten float arguments and takes
  the conjunction of all the answers; reading the conjunction back gives that every entry is a real number.

  Real numbers are closed under what the first stage of the layer does to them: a sum of two reals is
  real, a finite sum of reals is real, an entry of a gather is an entry of its operand (the start index is
  clamped into range, so no fill value is ever read), and an entry of an accumulating scatter is the
  operand's entry plus the finite sum of the updates that land on it.
-/
import proofs.«151600_j50869592655513_2_alg».proof.Proof.Spec
import proofs.«151600_j50869592655513_2_alg».proof.Pre_finite_inputs
import proofs.«151600_j50869592655513_2_alg».proof.Proof.Gen.Pre_finite_inputs
import Idealize.ShloMosaic.Lib.ReduceAll
import Idealize.ShloMosaic.Lib.ValueIdx
import Idealize.ShloMosaic.PureOps.Ideal.Laws

noncomputable section

open scoped BigOperators

namespace Cert.Finite

open Idealize.ShloMosaic Cert.Spec

/-! ## Closure of the real numbers inside the extended reals -/

theorem isReal_coe (r : ℝ) : IsReal (r : EReal) := ⟨r, rfl⟩

theorem isReal_zero : IsReal (0 : EReal) := ⟨0, rfl⟩

theorem isReal_add {a b : EReal} (ha : IsReal a) (hb : IsReal b) : IsReal (a + b) := by
  obtain ⟨r, rfl⟩ := ha
  obtain ⟨t, rfl⟩ := hb
  exact ⟨r + t, (EReal.coe_add r t).symm⟩

theorem isReal_mul {a b : EReal} (ha : IsReal a) (hb : IsReal b) : IsReal (a * b) := by
  obtain ⟨r, rfl⟩ := ha
  obtain ⟨t, rfl⟩ := hb
  exact ⟨r * t, (EReal.coe_mul r t).symm⟩

theorem isReal_neg {a : EReal} (ha : IsReal a) : IsReal (-a) := by
  obtain ⟨r, rfl⟩ := ha
  exact ⟨-r, (EReal.coe_neg r).symm⟩

theorem isReal_sub {a b : EReal} (ha : IsReal a) (hb : IsReal b) : IsReal (a - b) := by
  obtain ⟨r, rfl⟩ := ha
  obtain ⟨t, rfl⟩ := hb
  exact ⟨r - t, (EReal.coe_sub r t).symm⟩

/-- A finite sum of real numbers is a real number. -/
theorem isReal_sum {ι : Type} (s : Finset ι) (f : ι → EReal) (hf : ∀ i ∈ s, IsReal (f i)) : IsReal (∑ i ∈ s, f i) := by
  classical
  induction s using Finset.induction_on with
  | empty => simpa using isReal_zero
  | insert a s ha ih =>
    rw [Finset.sum_insert ha]
    exact isReal_add (hf a (Finset.mem_insert_self a s)) (ih fun i hi => hf i (Finset.mem_insert_of_mem hi))

/-- The float zero is the real number zero. -/
theorem isReal_spec_zero : IsReal Cert.Spec.zero := by
  unfold Cert.Spec.zero
  rw [Ideal.ofBits_zero_f32]
  exact isReal_zero

/-! ## An absolute value below +∞ -/

/-- The pattern the precondition compares against denotes +∞. -/
theorem ofBits_inf_f32 : Ideal.ofBits .f32 0x7F800000#32 = (⊤ : EReal) := by
  simp [Ideal.ofBits, Ideal.ieee]

/-- An extended real whose absolute value is strictly below +∞ is a real number. -/
theorem isReal_of_abs_lt_top (x : EReal) (h : max x (-x) < ⊤) : IsReal x := by
  induction x using EReal.rec with
  | bot => simp at h
  | coe r => exact ⟨r, rfl⟩
  | top => simp at h

/-- The precondition's test on one entry, read back. -/
theorem isReal_of_cmp (x : EReal)
    (h : Ideal.cmp .olt (max x (-x)) (Ideal.ofBits .f32 0x7F800000#32) = 1#1) : IsReal x := by
  rw [ofBits_inf_f32] at h
  apply isReal_of_abs_lt_top
  by_contra hn
  simp [Ideal.cmp, hn] at h

/-! ## The conjunction over one array, read back -/

open Cert.Pre_finite_inputs in
instance : Subsingleton S_.Idx := ⟨fun a b => funext fun d => d.elim0⟩

/-- One array's test: if the conjunction over all its entries of |x| < +∞ is 1, every entry is a real number. -/
theorem all_isReal {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x)
            (broadcastInDim s ![] hb (constant (F := Ideal) Cert.Pre_finite_inputs.S_ .f32 0x7F800000#32)))
          (constantI Cert.Pre_finite_inputs.S_ 1 1#1) hr hu ValueIdx.ix0 = 1#1) :
    ∀ i, IsReal (x i) := by
  intro i
  have h := Host.reduce_andi_all _ _ hr hu _ e i
  exact isReal_of_cmp (x i) h

/-- A conjunction of two one-bit arrays that is 1 at an index: both are 1 there. -/
theorem andi_split {s : Shape} (x y : IVec s 1) (i : s.Idx) (h : andi x y i = 1#1) : x i = 1#1 ∧ y i = 1#1 :=
  IntOp.andi_eq_one.1 h

/-! ## From the precondition to real entries -/

open Cert.Pre_finite_inputs in
/-- If the precondition holds, every entry of each of the ten float arguments is a real number. -/
theorem real_of_pre [Cert.Pre_finite_inputs.Facts]
    (a0 : FVec Ideal S100000x128 .f32) (a1 : FVec Ideal S600000x128 .f32) (a2 : FVec Ideal S100000 .f32)
    (a3 : FVec Ideal S1 .f32) (a4 : FVec Ideal S256x128 .f32) (a5 : FVec Ideal S256 .f32) (a6 : FVec Ideal S256 .f32)
    (a7 : FVec Ideal S128x256 .f32) (a8 : FVec Ideal S128 .f32) (a9 : FVec Ideal S128 .f32)
    (a10 : IVec S600000 32) (a11 : IVec S600000 32)
    (h : Cert.Pre_finite_inputs.fn (F := Ideal) a0 a1 a2 a3 a4 a5 a6 a7 a8 a9 a10 a11 = fun _ => 1#1) :
    (∀ i, IsReal (a0 i)) ∧ (∀ i, IsReal (a1 i)) ∧ (∀ i, IsReal (a2 i)) ∧ (∀ i, IsReal (a3 i)) ∧
    (∀ i, IsReal (a4 i)) ∧ (∀ i, IsReal (a5 i)) ∧ (∀ i, IsReal (a6 i)) ∧ (∀ i, IsReal (a7 i)) ∧
    (∀ i, IsReal (a8 i)) ∧ (∀ i, IsReal (a9 i)) := by
  have h0 := congrFun h ValueIdx.ix0
  dsimp only [fn, fn_part1, fn_part2] at h0
  obtain ⟨h0, e9⟩ := andi_split _ _ _ h0
  obtain ⟨h0, e8⟩ := andi_split _ _ _ h0
  obtain ⟨h0, e7⟩ := andi_split _ _ _ h0
  obtain ⟨h0, e6⟩ := andi_split _ _ _ h0
  obtain ⟨h0, e5⟩ := andi_split _ _ _ h0
  obtain ⟨h0, e4⟩ := andi_split _ _ _ h0
  obtain ⟨h0, e3⟩ := andi_split _ _ _ h0
  obtain ⟨h0, e2⟩ := andi_split _ _ _ h0
  obtain ⟨e0, e1⟩ := andi_split _ _ _ h0
  exact ⟨all_isReal a0 _ _ _ e0, all_isReal a1 _ _ _ e1, all_isReal a2 _ _ _ e2, all_isReal a3 _ _ _ e3,
    all_isReal a4 _ _ _ e4, all_isReal a5 _ _ _ e5, all_isReal a6 _ _ _ e6, all_isReal a7 _ _ _ e7,
    all_isReal a8 _ _ _ e8, all_isReal a9 _ _ _ e9⟩

/-! ## Gather and accumulating scatter keep real entries -/

/-- Every entry of a gather is an entry of its operand. -/
theorem gather_isReal {s si t : Shape} (d : GatherDims s si t) {w : Nat} (x : s.Idx → EReal) (idx : IVec si w)
    (hx : ∀ i, IsReal (x i)) : ∀ j, IsReal (Host.gather d x idx j) :=
  fun j => hx (d.operandIdx j idx)

/-- An entry of an accumulating scatter is the operand's entry plus a finite sum of update entries. -/
theorem scatterAdd_isReal {s si su : Shape} (d : ScatterDims s si su) {w : Nat} (x : FVec Ideal s .f32) (idx : IVec si w)
    (u : FVec Ideal su .f32) (hx : ∀ i, IsReal (x i)) (hu : ∀ i, IsReal (u i)) :
    ∀ j, IsReal (Host.scatterAdd (F := Ideal) d x idx u j) := by
  intro j
  show IsReal (x j + ∑ k ∈ Finset.univ.filter (fun k => d.resultIdx? k idx = some j), u k)
  exact isReal_add (hx j) (isReal_sum _ _ fun k _ => hu k)

/-- An entry of the broadcast float zero is the real number zero. -/
theorem bcast_zero_isReal {t : Shape} (hb : Cert.Pre_finite_inputs.S_.BroadcastsInDim t (![] : Fin 0 → Fin t.rank)) :
    ∀ i, IsReal (broadcastInDim t ![] hb (constant (F := Ideal) Cert.Pre_finite_inputs.S_ .f32 0x00000000#32) i) := by
  intro i
  show IsReal (Ideal.ofBits .f32 0x00000000#32)
  rw [Ideal.ofBits_zero_f32]
  exact isReal_zero

/-- An entry of a float sum of two arrays with real entries is real. -/
theorem addf_isReal {s : Shape} (x y : FVec Ideal s .f32) (hx : ∀ i, IsReal (x i)) (hy : ∀ i, IsReal (y i)) :
    ∀ i, IsReal (addf x y i) :=
  fun i => isReal_add (hx i) (hy i)

end Cert.Finite

end
-- ==== Proof.FiniteNodeNew.lean ====
/-
  The aggregated messages have real entries.

  With node features and edge features that are real numbers, each edge's message x[src] + x[dst] + ea is a
  sum of three reals (a gathered row is a row of the operand), and each row of a segment sum from zero is
  zero plus the finite sum of the messages landing on it; the aggregated messages are the sum of two such
  segment sums.  The index arrays play no part: whatever they hold, the gather reads inside the operand and
  the scatter adds only entries of the messages.
-/
import proofs.«151600_j50869592655513_2_alg».proof.Proof.Finite
import proofs.«151600_j50869592655513_2_alg».proof.Proof.NodeNew

noncomputable section

open scoped BigOperators

namespace Cert.Finite

open Idealize.ShloMosaic Cert.Spec

/-! ## The aggregated messages have real entries -/

/-- Each edge's message is a sum of two gathered rows of the node features and the edge's own features. -/
theorem msg_isReal (a0 : (⟨Cert.ReferenceIdeal.S100000x128, .f32⟩ : BufTy).Contents (Elt Ideal))
    (a1 : (⟨Cert.ReferenceIdeal.S600000x128, .f32⟩ : BufTy).Contents (Elt Ideal))
    (a10 a11 : (⟨Cert.ReferenceIdeal.S600000, .i32⟩ : BufTy).Contents (Elt Ideal))
    (h0 : ∀ i, IsReal (a0 i)) (h1 : ∀ i, IsReal (a1 i)) :
    ∀ i, IsReal (Cert.RefSide.msg (F := Ideal) a0 a1 a10 a11 i) := by
  unfold Cert.RefSide.msg
  exact addf_isReal _ _ (addf_isReal _ _ (gather_isReal _ a0 _ h0) (gather_isReal _ a0 _ h0)) h1

/-- A segment sum from zero of real entries: zero plus the finite sum of the entries landing on the row. -/
theorem segSum_isReal (idx : (⟨Cert.ReferenceIdeal.S600000, .i32⟩ : BufTy).Contents (Elt Ideal))
    (u : (⟨Cert.ReferenceIdeal.S600000x128, .f32⟩ : BufTy).Contents (Elt Ideal)) (hu : ∀ i, IsReal (u i)) :
    ∀ i, IsReal (Cert.RefSide.segSum (F := Ideal) idx u i) := by
  unfold Cert.RefSide.segSum
  exact scatterAdd_isReal _ _ _ _ (bcast_zero_isReal _) hu

/-- The aggregated messages: the sum of two segment sums of the messages. -/
theorem nodeNew_isReal (a0 : (⟨Cert.ReferenceIdeal.S100000x128, .f32⟩ : BufTy).Contents (Elt Ideal))
    (a1 : (⟨Cert.ReferenceIdeal.S600000x128, .f32⟩ : BufTy).Contents (Elt Ideal))
    (a10 a11 : (⟨Cert.ReferenceIdeal.S600000, .i32⟩ : BufTy).Contents (Elt Ideal))
    (h0 : ∀ i, IsReal (a0 i)) (h1 : ∀ i, IsReal (a1 i)) :
    ∀ i, IsReal (Cert.RefSide.nodeNew (F := Ideal) a0 a1 a10 a11 i) := by
  unfold Cert.RefSide.nodeNew
  exact addf_isReal _ _ (segSum_isReal a10 _ (msg_isReal a0 a1 a10 a11 h0 h1))
    (segSum_isReal a11 _ (msg_isReal a0 a1 a10 a11 h0 h1))

end Cert.Finite

end
-- ==== Proof.lean ====
/-
  A message-passing layer, tiled, against its plain statement.

  Both programs first aggregate messages over the edges,  nn = segment_sum(x[src] + x[dst] + ea, src) + segment_sum(·, dst),
  add the degree-scaled residual  h = nn + (1 + eps - deg) · x,  and apply twice: a linear map against a transposed weight,
  a batch normalisation over the 100000 rows, and a clamp at zero. The plain program normalises with the variance as the
  mean of squared deviations from the batch mean. The tiled program makes three passes over row blocks of 5000: the first
  computes the first linear map's output block by block and accumulates, per core, the column sums of the output and of
  its square; the host then forms the batch mean and the variance as  max (mean of squares - squared mean, 0);  the
  second pass normalises with these, applies the second map and accumulates its sums the same way; the third pass
  normalises the second map's output.

  Over the extended reals every operation is exact, a change of float format is the identity, and sums may be regrouped
  freely, so the tiled program's result array is the layer with the clamped variance of squares, the plain program's the
  layer with the variance of deviations, of the same arguments. The two variances agree when every entry is a real
  number — the mean of squared deviations expands to the mean of squares less the squared mean, and being a sum of squares
  over a positive count it is nonnegative, so the clamp is idle — and every entry is one: the precondition says every float
  input is finite, a gather only reads entries of its operand, a scatter-add only adds finitely many of them, and sums and
  products of real numbers are real. Each program's frame is its run with the result forgotten; the idealization rewrote
  nothing.
-/
import proofs.«151600_j50869592655513_2_alg».proof.Defs
import proofs.«151600_j50869592655513_2_alg».proof.Proof.Gen.Kernel
import proofs.«151600_j50869592655513_2_alg».proof.Proof.Gen.Kernel.Skeleton
import proofs.«151600_j50869592655513_2_alg».proof.Proof.Gen.Kernel.Launch
import proofs.«151600_j50869592655513_2_alg».proof.Proof.Gen.Kernel.Points
import proofs.«151600_j50869592655513_2_alg».proof.Proof.Gen.Kernel.Frame
import proofs.«151600_j50869592655513_2_alg».proof.Proof.Gen.KernelIdeal
import proofs.«151600_j50869592655513_2_alg».proof.Proof.Gen.KernelIdeal.Skeleton
import proofs.«151600_j50869592655513_2_alg».proof.Proof.Gen.KernelIdeal.Launch
import proofs.«151600_j50869592655513_2_alg».proof.Proof.Gen.KernelIdeal.Points
import proofs.«151600_j50869592655513_2_alg».proof.Proof.Gen.KernelIdeal.Frame
import proofs.«151600_j50869592655513_2_alg».proof.Proof.Gen.ReferenceIdeal
import proofs.«151600_j50869592655513_2_alg».proof.Proof.Gen.Pre_finite_inputs
import proofs.«151600_j50869592655513_2_alg».proof.Proof.KChain
import proofs.«151600_j50869592655513_2_alg».proof.Proof.RefValue
import proofs.«151600_j50869592655513_2_alg».proof.Proof.BnAlgebra
import proofs.«151600_j50869592655513_2_alg».proof.Proof.FiniteNodeNew
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.RefSide.run m ρ)

theorem preserves : Cert.preserves_Kernel_KernelIdeal := trivial

/-- Under the precondition the two forms of the layer agree on the arguments: every entry involved is a real number. -/
theorem outSq_eq_outDev (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.RefSide.outSq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))
      = Cert.RefSide.outDev (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) := by
  obtain ⟨h0, h1, h2, h3, h4, h5, h6, h7, h8, h9⟩ := Cert.Finite.real_of_pre _ _ _ _ _ _ _ _ _ _ _ _ (hpre c)
  funext i
  unfold Cert.RefSide.outSq Cert.RefSide.outDev
  exact congrFun (congrFun (Cert.Spec.layerSq_eq_layerDev _ _ _ _ _ _ _ _ _ _
    (fun r t => Cert.Finite.nodeNew_isReal _ _ _ _ h0 h1 (ix2 r t)) (fun r t => h0 (ix2 r t)) (h3 (ix1 0)) (fun r => h2 (ix1 r))
    (fun j t => h4 (ix2 j t)) (fun j => h5 (ix1 j)) (fun j => h6 (ix1 j))
    (fun j t => h7 (ix2 j t)) (fun j => h8 (ix1 j)) (fun j => h9 (ix1 j))) (i 0)) (i 1)

theorem algebraic : Cert.algebraic_KernelIdeal_ReferenceIdeal := by
  intro m ρ m' ρ' hpre hagree
  refine ⟨fun c => Cert.RefSide.outSq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun _ h c => ⟨(h c).1.trans (Cert.KernelIdeal.KValue.W6_result m ρ c), (h c).2⟩)
      (Cert.KernelIdeal.KValue.run_result m ρ)
  · refine (θ_run Cert.ReferenceIdeal.defs _ _).mono (fun _ h c => ⟨(h c).1.trans ?_, (h c).2⟩) (Cert.RefSide.run m' ρ')
    obtain ⟨e0, e1, e2, e3, e4, e5, e6, e7, e8, e9, e10, e11⟩ := hagree c
    rw [e0, e1, e2, e3, e4, e5, e6, e7, e8, e9, e10, e11]
    exact (outSq_eq_outDev m hpre c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
